-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S67x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x3 : Shape := ⟨3, ![8, 8192, 3]⟩
abbrev S8x2048x3 : Shape := ⟨3, ![8, 2048, 3]⟩
abbrev S8x64x8192 : Shape := ⟨3, ![8, 64, 8192]⟩
abbrev S_ : Shape := ⟨0, ![]⟩
abbrev S8x2048 : Shape := ⟨2, ![8, 2048]⟩
abbrev S8x8192 : Shape := ⟨2, ![8, 8192]⟩
abbrev S8x2048x8192 : Shape := ⟨3, ![8, 2048, 8192]⟩
abbrev S8x2048x1 : Shape := ⟨3, ![8, 2048, 1]⟩
abbrev S8x1x8192 : Shape := ⟨3, ![8, 1, 8192]⟩
abbrev S8192 : Shape := ⟨1, ![8192]⟩
abbrev S1x1x8192 : Shape := ⟨3, ![1, 1, 8192]⟩
abbrev S8x2048x32 : Shape := ⟨3, ![8, 2048, 32]⟩

class Facts : Prop where
  reducesTo_S8x2048x3_S8x2048_d2 : S8x2048x3.ReducesTo [2] S8x2048
  h_S_ : 0 < S_.numel
  reducesTo_S8x8192x3_S8x8192_d2 : S8x8192x3.ReducesTo [2] S8x8192
  bcast_S8x2048_S8x2048x1_0_1 : S8x2048.BroadcastsInDim S8x2048x1 (![0, 1] : Fin 2 → Fin S8x2048x1.rank)
  bcast_S8x8192_S8x1x8192_0_2 : S8x8192.BroadcastsInDim S8x1x8192 (![0, 2] : Fin 2 → Fin S8x1x8192.rank)
  bcast_S8x2048x1_S8x2048x8192_0_1_2 : S8x2048x1.BroadcastsInDim S8x2048x8192 (![0, 1, 2] : Fin 3 → Fin S8x2048x8192.rank)
  bcast_S8x1x8192_S8x2048x8192_0_1_2 : S8x1x8192.BroadcastsInDim S8x2048x8192 (![0, 1, 2] : Fin 3 → Fin S8x2048x8192.rank)
  bcast_S_S8x2048x8192 : S_.BroadcastsInDim S8x2048x8192 (![] : Fin 0 → Fin S8x2048x8192.rank)
  bcast_S8192_S1x1x8192_2 : S8192.BroadcastsInDim S1x1x8192 (![2] : Fin 1 → Fin S1x1x8192.rank)
  bcast_S1x1x8192_S8x2048x8192_0_1_2 : S1x1x8192.BroadcastsInDim S8x2048x8192 (![0, 1, 2] : Fin 3 → Fin S8x2048x8192.rank)
  slices_S8x2048x8192_S8x2048x32_0_0_0 : S8x2048x8192.Slices ![0, 0, 0] S8x2048x32
  slices_S8x2048x32_S8x2048x1_0_0_0 : S8x2048x32.Slices ![0, 0, 0] S8x2048x1
  bcast_S_S8x2048x32 : S_.BroadcastsInDim S8x2048x32 (![] : Fin 0 → Fin S8x2048x32.rank)
  bcast_S8x2048x1_S8x2048x32_0_1_2 : S8x2048x1.BroadcastsInDim S8x2048x32 (![0, 1, 2] : Fin 3 → Fin S8x2048x32.rank)
  bcast_S_S8x8192x3 : S_.BroadcastsInDim S8x8192x3 (![] : Fin 0 → Fin S8x8192x3.rank)
  reducesTo_S8x8192x3_S_d0_1_2 : S8x8192x3.ReducesTo [0, 1, 2] S_
  bcast_S_S8x2048x3 : S_.BroadcastsInDim S8x2048x3 (![] : Fin 0 → Fin S8x2048x3.rank)
  reducesTo_S8x2048x3_S_d0_1_2 : S8x2048x3.ReducesTo [0, 1, 2] S_
  bcast_S_S8x64x8192 : S_.BroadcastsInDim S8x64x8192 (![] : Fin 0 → Fin S8x64x8192.rank)
  reducesTo_S8x64x8192_S_d0_1_2 : S8x64x8192.ReducesTo [0, 1, 2] S_
  reducesTo_S8x2048x32_S_d0_1_2 : S8x2048x32.ReducesTo [0, 1, 2] S_
  dot_S8x2048x3_S8x8192x3_S8x2048x8192_2_2_1_1_0_0_wf : DotDims.WF S8x2048x3 S8x8192x3 S8x2048x8192 [2] [2] [1] [1] [0] [0]

variable [Facts]

def dot_S8x2048x3_S8x8192x3_S8x2048x8192_2_2_1_1_0_0 : DotDims S8x2048x3 S8x8192x3 S8x2048x8192 where
  lhsContracting := [2]
  rhsContracting := [2]
  lhsNonContracting := [1]
  rhsNonContracting := [1]
  lhsBatch := [0]
  rhsBatch := [0]
  wf := dot_S8x2048x3_S8x8192x3_S8x2048x8192_2_2_1_1_0_0_wf
def comparator_i32_d2 : BitVec 32 → BitVec 32 → BitVec 1 :=
  fun l r =>
    let v48 := IntOp.cmpi .slt l r
    v48
def fn_part2 {F : FTy → Type} [FloatOps F] (main_v26 : IVec S8x2048x32 32) (main_v35 : IVec S_ 1) (main_v36 : FVec F S8x64x8192 .f32) (main_cst_8 : FVec F S_ .f32) : IVec S_ 1 :=
  let main_v37 : FVec F S8x64x8192 .f32 := broadcastInDim S8x64x8192 ![] bcast_S_S8x64x8192 main_cst_8
  let main_v38 : IVec S8x64x8192 1 := cmpf .olt main_v36 main_v37
  let main_c_9 : IVec S_ 1 := constantI S_ 1 1#1
  let main_v39 : IVec S_ 1 := (fun x v => Host.reduce IntOp.andi x v reducesTo_S8x64x8192_S_d0_1_2 h_S_) main_v38 main_c_9
  let main_v40 : IVec S_ 1 := andi main_v35 main_v39
  let main_c_10 : IVec S_ 32 := constantI S_ 32 0#32
  let main_v41 : IVec S8x2048x32 32 := broadcastInDim S8x2048x32 ![] bcast_S_S8x2048x32 main_c_10
  let main_v42 : IVec S8x2048x32 1 := cmpi .sge main_v26 main_v41
  let main_c_11 : IVec S_ 32 := constantI S_ 32 8192#32
  let main_v43 : IVec S8x2048x32 32 := broadcastInDim S8x2048x32 ![] bcast_S_S8x2048x32 main_c_11
  let main_v44 : IVec S8x2048x32 1 := cmpi .slt main_v26 main_v43
  let main_v45 : IVec S8x2048x32 1 := andi main_v42 main_v44
  let main_c_12 : IVec S_ 1 := constantI S_ 1 1#1
  let main_v46 : IVec S_ 1 := (fun x v => Host.reduce IntOp.andi x v reducesTo_S8x2048x32_S_d0_1_2 h_S_) main_v45 main_c_12
  let main_v47 : IVec S_ 1 := andi main_v40 main_v46
  main_v47

def fn_part1 {F : FTy → Type} [FloatOps F] (main_arg0 : FVec F S8x8192x3 .f32) (main_arg1 : FVec F S8x2048x3 .f32) (main_arg2 : FVec F S8x64x8192 .f32) (main_v14 : IVec S8x2048x8192 1) (main_v17 : IVec S8x2048x8192 32) (main_v18 : IVec S8x2048x8192 32) : IVec S_ 1 :=
  let main_v19 : IVec S8x2048x8192 32 := select main_v14 main_v17 main_v18
  let main_v20 : IVec S8x2048x8192 32 := (fun x => Host.sort S8x2048x8192 2 comparator_i32_d2 x) main_v19
  let main_v21 : IVec S8x2048x32 32 := (extractStridedSlice S8x2048x32 ![0, 0, 0] · slices_S8x2048x8192_S8x2048x32_0_0_0) main_v20
  let main_v22 : IVec S8x2048x1 32 := (extractStridedSlice S8x2048x1 ![0, 0, 0] · slices_S8x2048x32_S8x2048x1_0_0_0) main_v21
  let main_c_3 : IVec S_ 32 := constantI S_ 32 8193#32
  let main_v23 : IVec S8x2048x32 32 := broadcastInDim S8x2048x32 ![] bcast_S_S8x2048x32 main_c_3
  let main_v24 : IVec S8x2048x32 1 := cmpi .eq main_v21 main_v23
  let main_v25 : IVec S8x2048x32 32 := broadcastInDim S8x2048x32 ![0, 1, 2] bcast_S8x2048x1_S8x2048x32_0_1_2 main_v22
  let main_v26 : IVec S8x2048x32 32 := select main_v24 main_v25 main_v21
  let main_v27 : FVec F S8x8192x3 .f32 := Host.absf main_arg0
  let main_cst_4 : FVec F S_ .f32 := constant S_ .f32 0x7F800000#32
  let main_v28 : FVec F S8x8192x3 .f32 := broadcastInDim S8x8192x3 ![] bcast_S_S8x8192x3 main_cst_4
  let main_v29 : IVec S8x8192x3 1 := cmpf .olt main_v27 main_v28
  let main_c_5 : IVec S_ 1 := constantI S_ 1 1#1
  let main_v30 : IVec S_ 1 := (fun x v => Host.reduce IntOp.andi x v reducesTo_S8x8192x3_S_d0_1_2 h_S_) main_v29 main_c_5
  let main_v31 : FVec F S8x2048x3 .f32 := Host.absf main_arg1
  let main_cst_6 : FVec F S_ .f32 := constant S_ .f32 0x7F800000#32
  let main_v32 : FVec F S8x2048x3 .f32 := broadcastInDim S8x2048x3 ![] bcast_S_S8x2048x3 main_cst_6
  let main_v33 : IVec S8x2048x3 1 := cmpf .olt main_v31 main_v32
  let main_c_7 : IVec S_ 1 := constantI S_ 1 1#1
  let main_v34 : IVec S_ 1 := (fun x v => Host.reduce IntOp.andi x v reducesTo_S8x2048x3_S_d0_1_2 h_S_) main_v33 main_c_7
  let main_v35 : IVec S_ 1 := andi main_v30 main_v34
  let main_v36 : FVec F S8x64x8192 .f32 := Host.absf main_arg2
  let main_cst_8 : FVec F S_ .f32 := constant S_ .f32 0x7F800000#32
  fn_part2 (F := F) main_v26 main_v35 main_v36 main_cst_8

def fn {F : FTy → Type} [FloatOps F] (main_arg0 : FVec F S8x8192x3 .f32) (main_arg1 : FVec F S8x2048x3 .f32) (main_arg2 : FVec F S8x64x8192 .f32) : IVec S_ 1 :=
  let main_v0 : FVec F S8x2048x3 .f32 := mulf main_arg1 main_arg1
  let main_cst : FVec F S_ .f32 := constant S_ .f32 0x00000000#32
  let main_v1 : FVec F S8x2048 .f32 := (fun x v => Host.reduceAdd x v reducesTo_S8x2048x3_S8x2048_d2 h_S_) main_v0 main_cst
  let main_v2 : FVec F S8x8192x3 .f32 := mulf main_arg0 main_arg0
  let main_cst_0 : FVec F S_ .f32 := constant S_ .f32 0x00000000#32
  let main_v3 : FVec F S8x8192 .f32 := (fun x v => Host.reduceAdd x v reducesTo_S8x8192x3_S8x8192_d2 h_S_) main_v2 main_cst_0
  let main_v4 : FVec F S8x2048x8192 .f32 := (fun l r => Host.dotGeneral dot_S8x2048x3_S8x8192x3_S8x2048x8192_2_2_1_1_0_0 none l r) main_arg1 main_arg0
  let main_v5 : FVec F S8x2048x1 .f32 := broadcastInDim S8x2048x1 ![0, 1] bcast_S8x2048_S8x2048x1_0_1 main_v1
  let main_v6 : FVec F S8x1x8192 .f32 := broadcastInDim S8x1x8192 ![0, 2] bcast_S8x8192_S8x1x8192_0_2 main_v3
  let main_v7 : FVec F S8x2048x8192 .f32 := broadcastInDim S8x2048x8192 ![0, 1, 2] bcast_S8x2048x1_S8x2048x8192_0_1_2 main_v5
  let main_v8 : FVec F S8x2048x8192 .f32 := broadcastInDim S8x2048x8192 ![0, 1, 2] bcast_S8x1x8192_S8x2048x8192_0_1_2 main_v6
  let main_v9 : FVec F S8x2048x8192 .f32 := addf main_v7 main_v8
  let main_cst_1 : FVec F S_ .f32 := constant S_ .f32 0x40000000#32
  let main_v10 : FVec F S8x2048x8192 .f32 := broadcastInDim S8x2048x8192 ![] bcast_S_S8x2048x8192 main_cst_1
  let main_v11 : FVec F S8x2048x8192 .f32 := mulf main_v10 main_v4
  let main_v12 : FVec F S8x2048x8192 .f32 := subf main_v9 main_v11
  let main_cst_2 : FVec F S_ .f32 := constant S_ .f32 0x3F800000#32
  let main_v13 : FVec F S8x2048x8192 .f32 := broadcastInDim S8x2048x8192 ![] bcast_S_S8x2048x8192 main_cst_2
  let main_v14 : IVec S8x2048x8192 1 := cmpf .olt main_v12 main_v13
  let main_v15 : IVec S8192 32 := iotaInDim S8192 32 0
  let main_v16 : IVec S1x1x8192 32 := broadcastInDim S1x1x8192 ![2] bcast_S8192_S1x1x8192_2 main_v15
  let main_v17 : IVec S8x2048x8192 32 := broadcastInDim S8x2048x8192 ![0, 1, 2] bcast_S1x1x8192_S8x2048x8192_0_1_2 main_v16
  let main_c : IVec S_ 32 := constantI S_ 32 8193#32
  let main_v18 : IVec S8x2048x8192 32 := broadcastInDim S8x2048x8192 ![] bcast_S_S8x2048x8192 main_c
  fn_part1 (F := F) main_arg0 main_arg1 main_arg2 main_v14 main_v17 main_v18
-- ==== Kernel.lean ====
abbrev S8x8192x3 : Shape := ⟨3, ![8, 8192, 3]⟩
abbrev S8x2048x3 : Shape := ⟨3, ![8, 2048, 3]⟩
abbrev S8x64x8192 : Shape := ⟨3, ![8, 64, 8192]⟩
abbrev S_ : Shape := ⟨0, ![]⟩
abbrev S8x2048 : Shape := ⟨2, ![8, 2048]⟩
abbrev S8x8192 : Shape := ⟨2, ![8, 8192]⟩
abbrev S8x2048x8192 : Shape := ⟨3, ![8, 2048, 8192]⟩
abbrev S8x2048x1 : Shape := ⟨3, ![8, 2048, 1]⟩
abbrev S8x1x8192 : Shape := ⟨3, ![8, 1, 8192]⟩
abbrev S8192 : Shape := ⟨1, ![8192]⟩
abbrev S1x1x8192 : Shape := ⟨3, ![1, 1, 8192]⟩
abbrev S8x2048x32 : Shape := ⟨3, ![8, 2048, 32]⟩
abbrev S8x1x65536 : Shape := ⟨3, ![8, 1, 65536]⟩
abbrev S8x3x8192 : Shape := ⟨3, ![8, 3, 8192]⟩
abbrev S8x3x2048 : Shape := ⟨3, ![8, 3, 2048]⟩
abbrev S8x3x2048x32 : Shape := ⟨4, ![8, 3, 2048, 32]⟩
abbrev S8x3x65536 : Shape := ⟨3, ![8, 3, 65536]⟩
abbrev S8x67x65536 : Shape := ⟨3, ![8, 67, 65536]⟩
abbrev S1x3x1024 : Shape := ⟨3, ![1, 3, 1024]⟩
abbrev S1x64x1024 : Shape := ⟨3, ![1, 64, 1024]⟩
abbrev S1x1x4096 : Shape := ⟨3, ![1, 1, 4096]⟩
abbrev S1x3x4096 : Shape := ⟨3, ![1, 3, 4096]⟩
abbrev S1x67x4096 : Shape := ⟨3, ![1, 67, 4096]⟩
abbrev S67x4096 : Shape := ⟨2, ![67, 4096]⟩
abbrev S1024x1 : Shape := ⟨2, ![1024, 1]⟩
abbrev S1x4096 : Shape := ⟨2, ![1, 4096]⟩
abbrev S1024x4096 : Shape := ⟨2, ![1024, 4096]⟩
abbrev S3x1024 : Shape := ⟨2, ![3, 1024]⟩
abbrev S64x1024 : Shape := ⟨2, ![64, 1024]⟩
abbrev S67x1024 : Shape := ⟨2, ![67, 1024]⟩
abbrev S3x4096 : Shape := ⟨2, ![3, 4096]⟩
abbrev S64x4096 : Shape := ⟨2, ![64, 4096]⟩
abbrev S8x67x2048x32 : Shape := ⟨4, ![8, 67, 2048, 32]⟩

abbrev nBuf : Space → Nat
  | .hbm => 43
  | .vmem => 11
  | .smem => 0
  | _ => 0

abbrev bufTy : (tb : Table) → Fin (tcTables nBuf tb) → BufTy
  | .hbm, ⟨0, _⟩ => ⟨S8x8192x3, .f32⟩
  | .hbm, ⟨1, _⟩ => ⟨S8x2048x3, .f32⟩
  | .hbm, ⟨2, _⟩ => ⟨S8x64x8192, .f32⟩
  | .hbm, ⟨3, _⟩ => ⟨S8x2048x3, .f32⟩
  | .hbm, ⟨4, _⟩ => ⟨S_, .f32⟩
  | .hbm, ⟨5, _⟩ => ⟨S8x2048, .f32⟩
  | .hbm, ⟨6, _⟩ => ⟨S8x8192x3, .f32⟩
  | .hbm, ⟨7, _⟩ => ⟨S_, .f32⟩
  | .hbm, ⟨8, _⟩ => ⟨S8x8192, .f32⟩
  | .hbm, ⟨9, _⟩ => ⟨S8x2048x8192, .f32⟩
  | .hbm, ⟨10, _⟩ => ⟨S8x2048x1, .f32⟩
  | .hbm, ⟨11, _⟩ => ⟨S8x1x8192, .f32⟩
  | .hbm, ⟨12, _⟩ => ⟨S8x2048x8192, .f32⟩
  | .hbm, ⟨13, _⟩ => ⟨S8x2048x8192, .f32⟩
  | .hbm, ⟨14, _⟩ => ⟨S8x2048x8192, .f32⟩
  | .hbm, ⟨15, _⟩ => ⟨S_, .f32⟩
  | .hbm, ⟨16, _⟩ => ⟨S8x2048x8192, .f32⟩
  | .hbm, ⟨17, _⟩ => ⟨S8x2048x8192, .f32⟩
  | .hbm, ⟨18, _⟩ => ⟨S8x2048x8192, .f32⟩
  | .hbm, ⟨19, _⟩ => ⟨S_, .f32⟩
  | .hbm, ⟨20, _⟩ => ⟨S8x2048x8192, .f32⟩
  | .hbm, ⟨21, _⟩ => ⟨S8x2048x8192, .i1⟩
  | .hbm, ⟨22, _⟩ => ⟨S8192, .i32⟩
  | .hbm, ⟨23, _⟩ => ⟨S1x1x8192, .i32⟩
  | .hbm, ⟨24, _⟩ => ⟨S_, .i32⟩
  | .hbm, ⟨25, _⟩ => ⟨S8x2048x8192, .i32⟩
  | .hbm, ⟨26, _⟩ => ⟨S8x2048x8192, .i32⟩
  | .hbm, ⟨27, _⟩ => ⟨S8x2048x8192, .i32⟩
  | .hbm, ⟨28, _⟩ => ⟨S8x2048x8192, .i32⟩
  | .hbm, ⟨29, _⟩ => ⟨S8x2048x32, .i32⟩
  | .hbm, ⟨30, _⟩ => ⟨S8x2048x1, .i32⟩
  | .hbm, ⟨31, _⟩ => ⟨S_, .i32⟩
  | .hbm, ⟨32, _⟩ => ⟨S8x2048x32, .i32⟩
  | .hbm, ⟨33, _⟩ => ⟨S8x2048x32, .i1⟩
  | .hbm, ⟨34, _⟩ => ⟨S8x2048x32, .i32⟩
  | .hbm, ⟨35, _⟩ => ⟨S8x2048x32, .i32⟩
  | .hbm, ⟨36, _⟩ => ⟨S8x1x65536, .i32⟩
  | .hbm, ⟨37, _⟩ => ⟨S8x3x8192, .f32⟩
  | .hbm, ⟨38, _⟩ => ⟨S8x3x2048, .f32⟩
  | .hbm, ⟨39, _⟩ => ⟨S8x3x2048x32, .f32⟩
  | .hbm, ⟨40, _⟩ => ⟨S8x3x65536, .f32⟩
  | .hbm, ⟨41, _⟩ => ⟨S8x67x65536, .f32⟩
  | .hbm, ⟨42, _⟩ => ⟨S8x67x2048x32, .f32⟩
  | .local _ .vmem, ⟨0, _⟩ => ⟨S1x3x1024, .f32⟩
  | .local _ .vmem, ⟨1, _⟩ => ⟨S1x3x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x1x4096, .i32⟩
  | .local _ .vmem, ⟨5, _⟩ => ⟨S1x1x4096, .i32⟩
  | .local _ .vmem, ⟨6, _⟩ => ⟨S1x3x4096, .f32⟩
  | .local _ .vmem, ⟨7, _⟩ => ⟨S1x3x4096, .f32⟩
  | .local _ .vmem, ⟨8, _⟩ => ⟨S1x67x4096, .f32⟩
  | .local _ .vmem, ⟨9, _⟩ => ⟨S1x67x4096, .f32⟩
  | .local _ .vmem, ⟨10, _⟩ => ⟨S67x4096, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 8], ![false, false, false]⟩

def k0_cond2 (i : grid0.Coords) : BitVec 1 :=
  let arg2 : BitVec 32 := BitVec.ofNat 32 (i 2).val
  let c7_i32 : BitVec 32 := 7#32
  let v32 : BitVec 1 := Scalar.cmpi .eq arg2 c7_i32
  let v33 : BitVec 32 := Scalar.extui v32
  let c0_i32_14 : BitVec 32 := 0#32
  let v34 : BitVec 1 := Scalar.cmpi .ne v33 c0_i32_14
  v34

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x3x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x67x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S8x2048x3_S8x2048_d2 : S8x2048x3.ReducesTo [2] S8x2048
  h_S_ : 0 < S_.numel
  reducesTo_S8x8192x3_S8x8192_d2 : S8x8192x3.ReducesTo [2] S8x8192
  bcast_S8x2048_S8x2048x1_0_1 : S8x2048.BroadcastsInDim S8x2048x1 (![0, 1] : Fin 2 → Fin S8x2048x1.rank)
  bcast_S8x8192_S8x1x8192_0_2 : S8x8192.BroadcastsInDim S8x1x8192 (![0, 2] : Fin 2 → Fin S8x1x8192.rank)
  bcast_S8x2048x1_S8x2048x8192_0_1_2 : S8x2048x1.BroadcastsInDim S8x2048x8192 (![0, 1, 2] : Fin 3 → Fin S8x2048x8192.rank)
  bcast_S8x1x8192_S8x2048x8192_0_1_2 : S8x1x8192.BroadcastsInDim S8x2048x8192 (![0, 1, 2] : Fin 3 → Fin S8x2048x8192.rank)
  bcast_S_S8x2048x8192 : S_.BroadcastsInDim S8x2048x8192 (![] : Fin 0 → Fin S8x2048x8192.rank)
  bcast_S8192_S1x1x8192_2 : S8192.BroadcastsInDim S1x1x8192 (![2] : Fin 1 → Fin S1x1x8192.rank)
  bcast_S1x1x8192_S8x2048x8192_0_1_2 : S1x1x8192.BroadcastsInDim S8x2048x8192 (![0, 1, 2] : Fin 3 → Fin S8x2048x8192.rank)
  slices_S8x2048x8192_S8x2048x32_0_0_0 : S8x2048x8192.Slices ![0, 0, 0] S8x2048x32
  slices_S8x2048x32_S8x2048x1_0_0_0 : S8x2048x32.Slices ![0, 0, 0] S8x2048x1
  bcast_S_S8x2048x32 : S_.BroadcastsInDim S8x2048x32 (![] : Fin 0 → Fin S8x2048x32.rank)
  bcast_S8x2048x1_S8x2048x32_0_1_2 : S8x2048x1.BroadcastsInDim S8x2048x32 (![0, 1, 2] : Fin 3 → Fin S8x2048x32.rank)
  shapeCasts_S8x2048x32_S8x1x65536 : S8x2048x32.ShapeCasts S8x1x65536
  transposes_S8x8192x3_S8x3x8192_0_2_1 : S8x8192x3.Transposes [0, 2, 1] S8x3x8192
  transposes_S8x2048x3_S8x3x2048_0_2_1 : S8x2048x3.Transposes [0, 2, 1] S8x3x2048
  bcast_S8x3x2048_S8x3x2048x32_0_1_2 : S8x3x2048.BroadcastsInDim S8x3x2048x32 (![0, 1, 2] : Fin 3 → Fin S8x3x2048x32.rank)
  shapeCasts_S8x3x2048x32_S8x3x65536 : S8x3x2048x32.ShapeCasts S8x3x65536
  inb_S67x4096_S67x4096_0_0 : ∀ a, (![0, 0] : Fin 2 → Nat) a + S67x4096.size a ≤ S67x4096.size a
  h_S67x4096 : 0 < S67x4096.numel
  shapeCasts_S67x4096_S67x4096 : S67x4096.ShapeCasts S67x4096
  iota_S1024x1_d0_w32 : S1024x1.Iotas .tc 32 [0]
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S1024x1_S1024x4096 : S1024x1.Broadcasts S1024x4096
  broadcasts_S1x4096_S1024x4096 : S1x4096.Broadcasts S1024x4096
  natLt_1_32 : 1 < 32
  bitsLt_bf16_f32 : FTy.bits .bf16 < FTy.bits .f32
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  concatenates_S3x1024_S64x1024_S67x1024_d0 : Shape.Concatenates [S3x1024, S64x1024] S67x1024 0
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S67x4096_o0_0_S3x4096 : S67x4096.Slices ![0, 0] S3x4096
  slices_S67x4096_o3_0_S64x4096 : S67x4096.Slices ![3, 0] S64x4096
  concatenates_S3x4096_S64x4096_S67x4096_d0 : Shape.Concatenates [S3x4096, S64x4096] S67x4096 0
  inb_S1x67x4096_S1x67x4096_0_0_0 : ∀ a, (![0, 0, 0] : Fin 3 → Nat) a + S1x67x4096.size a ≤ S1x67x4096.size a
  h_S1x67x4096 : 0 < S1x67x4096.numel
  shapeCasts_S1x67x4096_S67x4096 : S1x67x4096.ShapeCasts S67x4096
  shapeCasts_S67x4096_S1x67x4096 : S67x4096.ShapeCasts S1x67x4096
  shapeCasts_S8x67x65536_S8x67x2048x32 : S8x67x65536.ShapeCasts S8x67x2048x32
  dot_S8x2048x3_S8x8192x3_S8x2048x8192_2_2_1_1_0_0_wf : DotDims.WF S8x2048x3 S8x8192x3 S8x2048x8192 [2] [2] [1] [1] [0] [0]
  dot_S67x1024_S1024x4096_S67x4096_1_0_0_1_n_n_wf : DotDims.WF S67x1024 S1024x4096 S67x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S8x3x8192.size a
  hwx0_0 : ∀ i : grid0.Coords, EltTy.bits .f32 = 32 ∨ (Rect.block (s := S8x3x8192) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S8x64x8192.size a
  hwx0_1 : ∀ i : grid0.Coords, EltTy.bits .f32 = 32 ∨ (Rect.block (s := S8x64x8192) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x65536.size a
  hwx0_2 : ∀ i : grid0.Coords, EltTy.bits .i32 = 32 ∨ (Rect.block (s := S8x1x65536) S1x1x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x4096.size a ≤ S8x3x65536.size a
  hwx0_3 : ∀ i : grid0.Coords, EltTy.bits .f32 = 32 ∨ (Rect.block (s := S8x3x65536) S1x3x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x67x4096.size a ≤ S8x67x65536.size a
  hwx0_4 : ∀ i : grid0.Coords, EltTy.bits .f32 = 32 ∨ (Rect.block (s := S8x67x65536) S1x67x4096.size (cc0_transform_4 i) (hinb0_4 i)).WholeWords (EltTy.packing .f32)

variable [Facts₀]

def dot_S8x2048x3_S8x8192x3_S8x2048x8192_2_2_1_1_0_0 : DotDims S8x2048x3 S8x8192x3 S8x2048x8192 where
  lhsContracting := [2]
  rhsContracting := [2]
  lhsNonContracting := [1]
  rhsNonContracting := [1]
  lhsBatch := [0]
  rhsBatch := [0]
  wf := dot_S8x2048x3_S8x8192x3_S8x2048x8192_2_2_1_1_0_0_wf
def comparator_i32_d2 : BitVec 32 → BitVec 32 → BitVec 1 :=
  fun l r =>
    let v1 := IntOp.cmpi .slt l r
    v1
def dot_S67x1024_S1024x4096_S67x4096_1_0_0_1_n_n : DotDims S67x1024 S1024x4096 S67x4096 where
  lhsContracting := [1]
  rhsContracting := [0]
  lhsNonContracting := [0]
  rhsNonContracting := [1]
  lhsBatch := []
  rhsBatch := []
  wf := dot_S67x1024_S1024x4096_S67x4096_1_0_0_1_n_n_wf

abbrev win0_0 : Pipeline.Window sig grid0 :=
  Pipeline.Window.ofSpec (Memref.whole main_v25) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x3x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x67x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x8192x3 : Shape := ⟨3, ![8, 8192, 3]⟩
abbrev S8x2048x3 : Shape := ⟨3, ![8, 2048, 3]⟩
abbrev S8x64x8192 : Shape := ⟨3, ![8, 64, 8192]⟩
abbrev S_ : Shape := ⟨0, ![]⟩
abbrev S8x2048 : Shape := ⟨2, ![8, 2048]⟩
abbrev S8x8192 : Shape := ⟨2, ![8, 8192]⟩
abbrev S8x2048x8192 : Shape := ⟨3, ![8, 2048, 8192]⟩
abbrev S8x2048x1 : Shape := ⟨3, ![8, 2048, 1]⟩
abbrev S8x1x8192 : Shape := ⟨3, ![8, 1, 8192]⟩
abbrev S8192 : Shape := ⟨1, ![8192]⟩
abbrev S1x1x8192 : Shape := ⟨3, ![1, 1, 8192]⟩
abbrev S8x2048x32 : Shape := ⟨3, ![8, 2048, 32]⟩
abbrev S8x3x8192 : Shape := ⟨3, ![8, 3, 8192]⟩
abbrev S8x1x65536 : Shape := ⟨3, ![8, 1, 65536]⟩
abbrev S8x3x65536 : Shape := ⟨3, ![8, 3, 65536]⟩
abbrev S8x3x65536x1 : Shape := ⟨4, ![8, 3, 65536, 1]⟩
abbrev S1 : Shape := ⟨1, ![1]⟩
abbrev S1x1x1x1 : Shape := ⟨4, ![1, 1, 1, 1]⟩
abbrev S8x3x2048x32 : Shape := ⟨4, ![8, 3, 2048, 32]⟩
abbrev S8x3x2048 : Shape := ⟨3, ![8, 3, 2048]⟩
abbrev S8x3x2048x1 : Shape := ⟨4, ![8, 3, 2048, 1]⟩
abbrev S8x64x65536 : Shape := ⟨3, ![8, 64, 65536]⟩
abbrev S8x64x65536x1 : Shape := ⟨4, ![8, 64, 65536, 1]⟩
abbrev S8x64x2048x32 : Shape := ⟨4, ![8, 64, 2048, 32]⟩
abbrev S8x67x2048x32 : Shape := ⟨4, ![8, 67, 2048, 32]⟩

abbrev nBuf : Space → Nat
  | .hbm => 92
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x2048x3, .f32⟩
  | .hbm, ⟨2, _⟩ => ⟨S8x64x8192, .f32⟩
  | .hbm, ⟨3, _⟩ => ⟨S8x2048x3, .f32⟩
  | .hbm, ⟨4, _⟩ => ⟨S_, .f32⟩
  | .hbm, ⟨5, _⟩ => ⟨S8x2048, .f32⟩
  | .hbm, ⟨6, _⟩ => ⟨S8x8192x3, .f32⟩
  | .hbm, ⟨7, _⟩ => ⟨S_, .f32⟩
  | .hbm, ⟨8, _⟩ => ⟨S8x8192, .f32⟩
  | .hbm, ⟨9, _⟩ => ⟨S8x2048x8192, .f32⟩
  | .hbm, ⟨10, _⟩ => ⟨S8x2048x1, .f32⟩
  | .hbm, ⟨11, _⟩ => ⟨S8x1x8192, .f32⟩
  | .hbm, ⟨12, _⟩ => ⟨S8x2048x8192, .f32⟩
  | .hbm, ⟨13, _⟩ => ⟨S8x2048x8192, .f32⟩
  | .hbm, ⟨14, _⟩ => ⟨S8x2048x8192, .f32⟩
  | .hbm, ⟨15, _⟩ => ⟨S_, .f32⟩
  | .hbm, ⟨16, _⟩ => ⟨S8x2048x8192, .f32⟩
  | .hbm, ⟨17, _⟩ => ⟨S8x2048x8192, .f32⟩
  | .hbm, ⟨18, _⟩ => ⟨S8x2048x8192, .f32⟩
  | .hbm, ⟨19, _⟩ => ⟨S_, .f32⟩
  | .hbm, ⟨20, _⟩ => ⟨S8x2048x8192, .f32⟩
  | .hbm, ⟨21, _⟩ => ⟨S8x2048x8192, .i1⟩
  | .hbm, ⟨22, _⟩ => ⟨S8192, .i32⟩
  | .hbm, ⟨23, _⟩ => ⟨S1x1x8192, .i32⟩
  | .hbm, ⟨24, _⟩ => ⟨S_, .i32⟩
  | .hbm, ⟨25, _⟩ => ⟨S8x2048x8192, .i32⟩
  | .hbm, ⟨26, _⟩ => ⟨S8x2048x8192, .i32⟩
  | .hbm, ⟨27, _⟩ => ⟨S8x2048x8192, .i32⟩
  | .hbm, ⟨28, _⟩ => ⟨S8x2048x8192, .i32⟩
  | .hbm, ⟨29, _⟩ => ⟨S8x2048x32, .i32⟩
  | .hbm, ⟨30, _⟩ => ⟨S8x2048x1, .i32⟩
  | .hbm, ⟨31, _⟩ => ⟨S_, .i32⟩
  | .hbm, ⟨32, _⟩ => ⟨S8x2048x32, .i32⟩
  | .hbm, ⟨33, _⟩ => ⟨S8x2048x32, .i1⟩
  | .hbm, ⟨34, _⟩ => ⟨S8x2048x32, .i32⟩
  | .hbm, ⟨35, _⟩ => ⟨S8x2048x32, .i32⟩
  | .hbm, ⟨36, _⟩ => ⟨S8x3x8192, .f32⟩
  | .hbm, ⟨37, _⟩ => ⟨S8x1x65536, .i32⟩
  | .hbm, ⟨38, _⟩ => ⟨S8x3x65536, .i32⟩
  | .hbm, ⟨39, _⟩ => ⟨S_, .i32⟩
  | .hbm, ⟨40, _⟩ => ⟨S8x3x65536, .i32⟩
  | .hbm, ⟨41, _⟩ => ⟨S8x3x65536, .i1⟩
  | .hbm, ⟨42, _⟩ => ⟨S_, .i32⟩
  | .hbm, ⟨43, _⟩ => ⟨S8x3x65536, .i32⟩
  | .hbm, ⟨44, _⟩ => ⟨S8x3x65536, .i32⟩
  | .hbm, ⟨45, _⟩ => ⟨S8x3x65536, .i32⟩
  | .hbm, ⟨46, _⟩ => ⟨S8x3x65536x1, .i32⟩
  | .hbm, ⟨47, _⟩ => ⟨S1, .i32⟩
  | .hbm, ⟨48, _⟩ => ⟨S_, .i32⟩
  | .hbm, ⟨49, _⟩ => ⟨S8x3x65536x1, .i32⟩
  | .hbm, ⟨50, _⟩ => ⟨S8x3x65536x1, .i1⟩
  | .hbm, ⟨51, _⟩ => ⟨S1x1x1x1, .i32⟩
  | .hbm, ⟨52, _⟩ => ⟨S8x3x65536x1, .i32⟩
  | .hbm, ⟨53, _⟩ => ⟨S8x3x65536x1, .i1⟩
  | .hbm, ⟨54, _⟩ => ⟨S8x3x65536x1, .i1⟩
  | .hbm, ⟨55, _⟩ => ⟨S_, .i1⟩
  | .hbm, ⟨56, _⟩ => ⟨S8x3x65536, .i1⟩
  | .hbm, ⟨57, _⟩ => ⟨S8x3x65536, .f32⟩
  | .hbm, ⟨58, _⟩ => ⟨S_, .f32⟩
  | .hbm, ⟨59, _⟩ => ⟨S8x3x65536, .f32⟩
  | .hbm, ⟨60, _⟩ => ⟨S8x3x65536, .f32⟩
  | .hbm, ⟨61, _⟩ => ⟨S8x3x2048x32, .f32⟩
  | .hbm, ⟨62, _⟩ => ⟨S8x3x2048, .f32⟩
  | .hbm, ⟨63, _⟩ => ⟨S8x3x2048x1, .f32⟩
  | .hbm, ⟨64, _⟩ => ⟨S8x3x2048x32, .f32⟩
  | .hbm, ⟨65, _⟩ => ⟨S8x3x2048x32, .f32⟩
  | .hbm, ⟨66, _⟩ => ⟨S8x1x65536, .i32⟩
  | .hbm, ⟨67, _⟩ => ⟨S8x64x65536, .i32⟩
  | .hbm, ⟨68, _⟩ => ⟨S_, .i32⟩
  | .hbm, ⟨69, _⟩ => ⟨S8x64x65536, .i32⟩
  | .hbm, ⟨70, _⟩ => ⟨S8x64x65536, .i1⟩
  | .hbm, ⟨71, _⟩ => ⟨S_, .i32⟩
  | .hbm, ⟨72, _⟩ => ⟨S8x64x65536, .i32⟩
  | .hbm, ⟨73, _⟩ => ⟨S8x64x65536, .i32⟩
  | .hbm, ⟨74, _⟩ => ⟨S8x64x65536, .i32⟩
  | .hbm, ⟨75, _⟩ => ⟨S8x64x65536x1, .i32⟩
  | .hbm, ⟨76, _⟩ => ⟨S1, .i32⟩
  | .hbm, ⟨77, _⟩ => ⟨S_, .i32⟩
  | .hbm, ⟨78, _⟩ => ⟨S8x64x65536x1, .i32⟩
  | .hbm, ⟨79, _⟩ => ⟨S8x64x65536x1, .i1⟩
  | .hbm, ⟨80, _⟩ => ⟨S1x1x1x1, .i32⟩
  | .hbm, ⟨81, _⟩ => ⟨S8x64x65536x1, .i32⟩
  | .hbm, ⟨82, _⟩ => ⟨S8x64x65536x1, .i1⟩
  | .hbm, ⟨83, _⟩ => ⟨S8x64x65536x1, .i1⟩
  | .hbm, ⟨84, _⟩ => ⟨S_, .i1⟩
  | .hbm, ⟨85, _⟩ => ⟨S8x64x65536, .i1⟩
  | .hbm, ⟨86, _⟩ => ⟨S8x64x65536, .f32⟩
  | .hbm, ⟨87, _⟩ => ⟨S_, .f32⟩
  | .hbm, ⟨88, _⟩ => ⟨S8x64x65536, .f32⟩
  | .hbm, ⟨89, _⟩ => ⟨S8x64x65536, .f32⟩
  | .hbm, ⟨90, _⟩ => ⟨S8x64x2048x32, .f32⟩
  | .hbm, ⟨91, _⟩ => ⟨S8x67x2048x32, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call3_c : Ref sig .tc := ⟨.hbm, 39, rfl⟩
abbrev main_call3_v0 : Ref sig .tc := ⟨.hbm, 40, rfl⟩
abbrev main_call3_v1 : Ref sig .tc := ⟨.hbm, 41, rfl⟩
abbrev main_call3_c_0 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_c_1 : Ref sig .tc := ⟨.hbm, 47, rfl⟩
abbrev main_call3_c_2 : Ref sig .tc := ⟨.hbm, 48, rfl⟩
abbrev main_call3_v6 : Ref sig .tc := ⟨.hbm, 49, rfl⟩
abbrev main_call3_v7 : Ref sig .tc := ⟨.hbm, 50, rfl⟩
abbrev main_call3_v8 : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_3 : Ref sig .tc := ⟨.hbm, 55, rfl⟩
abbrev main_call3_v12 : Ref sig .tc := ⟨.hbm, 56, rfl⟩
abbrev main_call3_v13 : Ref sig .tc := ⟨.hbm, 57, rfl⟩
abbrev main_call3_cst : Ref sig .tc := ⟨.hbm, 58, rfl⟩
abbrev main_call3_v14 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_c_1 : Ref sig .tc := ⟨.hbm, 76, rfl⟩
abbrev main_call4_c_2 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_3 : Ref sig .tc := ⟨.hbm, 84, rfl⟩
abbrev main_call4_v12 : Ref sig .tc := ⟨.hbm, 85, rfl⟩
abbrev main_call4_v13 : Ref sig .tc := ⟨.hbm, 86, rfl⟩
abbrev main_call4_cst : Ref sig .tc := ⟨.hbm, 87, rfl⟩
abbrev main_call4_v14 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩

abbrev nD : Nat := 1
abbrev τ : Topo := Topo.v7x

variable {F : FTy → Type} [FloatOps F]

class Facts₀ : Prop where
  reducesTo_S8x2048x3_S8x2048_d2 : S8x2048x3.ReducesTo [2] S8x2048
  h_S_ : 0 < S_.numel
  reducesTo_S8x8192x3_S8x8192_d2 : S8x8192x3.ReducesTo [2] S8x8192
  bcast_S8x2048_S8x2048x1_0_1 : S8x2048.BroadcastsInDim S8x2048x1 (![0, 1] : Fin 2 → Fin S8x2048x1.rank)
  bcast_S8x8192_S8x1x8192_0_2 : S8x8192.BroadcastsInDim S8x1x8192 (![0, 2] : Fin 2 → Fin S8x1x8192.rank)
  bcast_S8x2048x1_S8x2048x8192_0_1_2 : S8x2048x1.BroadcastsInDim S8x2048x8192 (![0, 1, 2] : Fin 3 → Fin S8x2048x8192.rank)
  bcast_S8x1x8192_S8x2048x8192_0_1_2 : S8x1x8192.BroadcastsInDim S8x2048x8192 (![0, 1, 2] : Fin 3 → Fin S8x2048x8192.rank)
  bcast_S_S8x2048x8192 : S_.BroadcastsInDim S8x2048x8192 (![] : Fin 0 → Fin S8x2048x8192.rank)
  bcast_S8192_S1x1x8192_2 : S8192.BroadcastsInDim S1x1x8192 (![2] : Fin 1 → Fin S1x1x8192.rank)
  bcast_S1x1x8192_S8x2048x8192_0_1_2 : S1x1x8192.BroadcastsInDim S8x2048x8192 (![0, 1, 2] : Fin 3 → Fin S8x2048x8192.rank)
  slices_S8x2048x8192_S8x2048x32_0_0_0 : S8x2048x8192.Slices ![0, 0, 0] S8x2048x32
  slices_S8x2048x32_S8x2048x1_0_0_0 : S8x2048x32.Slices ![0, 0, 0] S8x2048x1
  bcast_S_S8x2048x32 : S_.BroadcastsInDim S8x2048x32 (![] : Fin 0 → Fin S8x2048x32.rank)
  bcast_S8x2048x1_S8x2048x32_0_1_2 : S8x2048x1.BroadcastsInDim S8x2048x32 (![0, 1, 2] : Fin 3 → Fin S8x2048x32.rank)
  transposes_S8x8192x3_S8x3x8192_0_2_1 : S8x8192x3.Transposes [0, 2, 1] S8x3x8192
  shapeCasts_S8x2048x32_S8x1x65536 : S8x2048x32.ShapeCasts S8x1x65536
  bcast_S8x1x65536_S8x3x65536_0_1_2 : S8x1x65536.BroadcastsInDim S8x3x65536 (![0, 1, 2] : Fin 3 → Fin S8x3x65536.rank)
  bcast_S_S8x3x65536 : S_.BroadcastsInDim S8x3x65536 (![] : Fin 0 → Fin S8x3x65536.rank)
  shapeCasts_S8x3x65536_S8x3x65536x1 : S8x3x65536.ShapeCasts S8x3x65536x1
  bcast_S_S8x3x65536x1 : S_.BroadcastsInDim S8x3x65536x1 (![] : Fin 0 → Fin S8x3x65536x1.rank)
  bcast_S1_S1x1x1x1_3 : S1.BroadcastsInDim S1x1x1x1 (![3] : Fin 1 → Fin S1x1x1x1.rank)
  bcast_S1x1x1x1_S8x3x65536x1_0_1_2_3 : S1x1x1x1.BroadcastsInDim S8x3x65536x1 (![0, 1, 2, 3] : Fin 4 → Fin S8x3x65536x1.rank)
  reducesTo_S8x3x65536x1_S8x3x65536_d3 : S8x3x65536x1.ReducesTo [3] S8x3x65536
  shapeCasts_S8x3x65536_S8x3x2048x32 : S8x3x65536.ShapeCasts S8x3x2048x32
  transposes_S8x2048x3_S8x3x2048_0_2_1 : S8x2048x3.Transposes [0, 2, 1] S8x3x2048
  bcast_S8x3x2048_S8x3x2048x1_0_1_2 : S8x3x2048.BroadcastsInDim S8x3x2048x1 (![0, 1, 2] : Fin 3 → Fin S8x3x2048x1.rank)
  bcast_S8x3x2048x1_S8x3x2048x32_0_1_2_3 : S8x3x2048x1.BroadcastsInDim S8x3x2048x32 (![0, 1, 2, 3] : Fin 4 → Fin S8x3x2048x32.rank)
  bcast_S8x1x65536_S8x64x65536_0_1_2 : S8x1x65536.BroadcastsInDim S8x64x65536 (![0, 1, 2] : Fin 3 → Fin S8x64x65536.rank)
  bcast_S_S8x64x65536 : S_.BroadcastsInDim S8x64x65536 (![] : Fin 0 → Fin S8x64x65536.rank)
  shapeCasts_S8x64x65536_S8x64x65536x1 : S8x64x65536.ShapeCasts S8x64x65536x1
  bcast_S_S8x64x65536x1 : S_.BroadcastsInDim S8x64x65536x1 (![] : Fin 0 → Fin S8x64x65536x1.rank)
  bcast_S1x1x1x1_S8x64x65536x1_0_1_2_3 : S1x1x1x1.BroadcastsInDim S8x64x65536x1 (![0, 1, 2, 3] : Fin 4 → Fin S8x64x65536x1.rank)
  reducesTo_S8x64x65536x1_S8x64x65536_d3 : S8x64x65536x1.ReducesTo [3] S8x64x65536
  shapeCasts_S8x64x65536_S8x64x2048x32 : S8x64x65536.ShapeCasts S8x64x2048x32
  concatenates_S8x3x2048x32_S8x64x2048x32_S8x67x2048x32_d1 : Shape.Concatenates [S8x3x2048x32, S8x64x2048x32] S8x67x2048x32 1
  dot_S8x2048x3_S8x8192x3_S8x2048x8192_2_2_1_1_0_0_wf : DotDims.WF S8x2048x3 S8x8192x3 S8x2048x8192 [2] [2] [1] [1] [0] [0]
  gather_S8x3x8192_S8x3x65536x1_S8x3x65536_n_2_01_01_2_3_111_wf : GatherDims.WF S8x3x8192 S8x3x65536x1 S8x3x65536 [] [2] [0, 1] [2] [0, 1] 3 ![1, 1, 1]
  gather_S8x64x8192_S8x64x65536x1_S8x64x65536_n_2_01_01_2_3_111_wf : GatherDims.WF S8x64x8192 S8x64x65536x1 S8x64x65536 [] [2] [0, 1] [2] [0, 1] 3 ![1, 1, 1]

variable [Facts₀]

def dot_S8x2048x3_S8x8192x3_S8x2048x8192_2_2_1_1_0_0 : DotDims S8x2048x3 S8x8192x3 S8x2048x8192 where
  lhsContracting := [2]
  rhsContracting := [2]
  lhsNonContracting := [1]
  rhsNonContracting := [1]
  lhsBatch := [0]
  rhsBatch := [0]
  wf := dot_S8x2048x3_S8x8192x3_S8x2048x8192_2_2_1_1_0_0_wf
def comparator_i32_d2 : BitVec 32 → BitVec 32 → BitVec 1 :=
  fun l r =>
    let v1 := IntOp.cmpi .slt l r
    v1
def gather_S8x3x8192_S8x3x65536x1_S8x3x65536_n_2_01_01_2_3_111 : GatherDims S8x3x8192 S8x3x65536x1 S8x3x65536 where
  offsetDims := []
  collapsedSliceDims := [2]
  operandBatchingDims := [0, 1]
  startIndicesBatchingDims := [0, 1]
  startIndexMap := [2]
  indexVectorDim := 3
  sliceSizes := ![1, 1, 1]
  wf := gather_S8x3x8192_S8x3x65536x1_S8x3x65536_n_2_01_01_2_3_111_wf
def gather_S8x64x8192_S8x64x65536x1_S8x64x65536_n_2_01_01_2_3_111 : GatherDims S8x64x8192 S8x64x65536x1 S8x64x65536 where
  offsetDims := []
  collapsedSliceDims := [2]
  operandBatchingDims := [0, 1]
  startIndicesBatchingDims := [0, 1]
  startIndexMap := [2]
  indexVectorDim := 3
  sliceSizes := ![1, 1, 1]
  wf := gather_S8x64x8192_S8x64x65536x1_S8x64x65536_n_2_01_01_2_3_111_wf

class Facts : Prop extends Facts₀ where

variable [Facts]
-- ==== Proof.Pieces.lean ====
/-
  What one run of the kernel body leaves behind, case by case, as values.

  The body keeps a [67, 4096] accumulator between grid points. At the first tile of a column block (case A) it clears
  the accumulator and adds the tile's contribution to the cleared one; at a middle tile (case B) it adds the tile's
  contribution to what the point before left; at the last tile (case C) it does the same and then stores the output
  block, computed from the accumulator it has just written. Each of these is the body's own arithmetic term (the
  accumulation step, the clearing constant, the output step) applied to the blocks the point reads.
-/
import proofs.«118025_j16346645529142_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the accumulator the point before left, plus this tile's contribution. -/
theorem acc_B (c : Dev nD) (i : grid0.Coords) (a3 : Memref sig .tc .vmem S1x3x1024 .f32) (h3 : a3.IsWhole) (a4 : Memref sig .tc .vmem S1x64x1024 .f32) (h4 : a4.IsWhole) (a5 : Memref sig .tc .vmem S1x1x4096 .i32) (h5 : a5.IsWhole) (a6 : Memref sig .tc .vmem S1x3x4096 .f32) (h6 : a6.IsWhole) (a7 : Memref sig .tc .vmem S1x67x4096 .f32) (h7 : a7.IsWhole) (a8 : Memref sig .tc .vmem S67x4096 .f32) (h8 : a8.IsWhole) (hc0 : ¬cond0_0 i) (hc1 : ¬cond0_1 i) (x0 : Vec F S1x3x1024 .f32) (x1 : Vec F S1x64x1024 .f32) (x2 : Vec F S1x1x4096 .i32) (x3 : Vec F S1x3x4096 .f32) (xs0 : Vec F S67x4096 .f32) :
    sout0_B_0 c i a3 h3 a4 h4 a5 h5 a6 h6 a7 h7 a8 h8 hc0 hc1 x0 x1 x2 x3 xs0 = k0_pay3 i x2 x0 x1 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz2]
  simp only [View.readAt_eq_ld, h3.read_unread, h4.read_unread, h5.read_unread, h6.read_unread, h8.read_unread,
    View.ld_unit_zero (S := S1x3x1024) hz3, View.ld_unit_zero (S := S1x64x1024) hz3, View.ld_unit_zero (S := S1x1x4096) hz3,
    View.ld_unit_zero (S := S1x3x4096) hz3, View.ld_unit_zero (S := S67x4096) hz2]

/-- The first tile: the accumulator is cleared, then gains this tile's contribution. -/
theorem acc_A (c : Dev nD) (i : grid0.Coords) (a3 : Memref sig .tc .vmem S1x3x1024 .f32) (h3 : a3.IsWhole) (a4 : Memref sig .tc .vmem S1x64x1024 .f32) (h4 : a4.IsWhole) (a5 : Memref sig .tc .vmem S1x1x4096 .i32) (h5 : a5.IsWhole) (a6 : Memref sig .tc .vmem S1x3x4096 .f32) (h6 : a6.IsWhole) (a7 : Memref sig .tc .vmem S1x67x4096 .f32) (h7 : a7.IsWhole) (a8 : Memref sig .tc .vmem S67x4096 .f32) (h8 : a8.IsWhole) (hc0 : cond0_0 i) (hc1 : ¬cond0_1 i) (x0 : Vec F S1x3x1024 .f32) (x1 : Vec F S1x64x1024 .f32) (x2 : Vec F S1x1x4096 .i32) (x3 : Vec F S1x3x4096 .f32) :
    sout0_A_0 c i a3 h3 a4 h4 a5 h5 a6 h6 a7 h7 a8 h8 hc0 hc1 x0 x1 x2 x3 = k0_pay3 i x2 x0 x1 (k0_pay2 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S67x4096) hz2, View.readCov_unit_zero (S := S67x4096) _ hz2]
  simp only [View.readAt_eq_ld, h3.read_unread, h4.read_unread, h5.read_unread, h6.read_unread, h8.read_unread,
    View.ld_unit_zero (S := S1x3x1024) hz3, View.ld_unit_zero (S := S1x64x1024) hz3, View.ld_unit_zero (S := S1x1x4096) hz3,
    View.ld_unit_zero (S := S1x3x4096) hz3, View.ld_unit_zero (S := S67x4096) hz2]

/-- The last tile: the accumulator as at a middle tile. -/
theorem acc_C (c : Dev nD) (i : grid0.Coords) (a3 : Memref sig .tc .vmem S1x3x1024 .f32) (h3 : a3.IsWhole) (a4 : Memref sig .tc .vmem S1x64x1024 .f32) (h4 : a4.IsWhole) (a5 : Memref sig .tc .vmem S1x1x4096 .i32) (h5 : a5.IsWhole) (a6 : Memref sig .tc .vmem S1x3x4096 .f32) (h6 : a6.IsWhole) (a7 : Memref sig .tc .vmem S1x67x4096 .f32) (h7 : a7.IsWhole) (a8 : Memref sig .tc .vmem S67x4096 .f32) (h8 : a8.IsWhole) (hc0 : ¬cond0_0 i) (hc1 : cond0_1 i) (x0 : Vec F S1x3x1024 .f32) (x1 : Vec F S1x64x1024 .f32) (x2 : Vec F S1x1x4096 .i32) (x3 : Vec F S1x3x4096 .f32) (xs0 : Vec F S67x4096 .f32) :
    sout0_C_0 c i a3 h3 a4 h4 a5 h5 a6 h6 a7 h7 a8 h8 hc0 hc1 x0 x1 x2 x3 xs0 = k0_pay3 i x2 x0 x1 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz2]
  simp only [View.readAt_eq_ld, h3.read_unread, h4.read_unread, h5.read_unread, h6.read_unread, h8.read_unread,
    View.ld_unit_zero (S := S1x3x1024) hz3, View.ld_unit_zero (S := S1x64x1024) hz3, View.ld_unit_zero (S := S1x1x4096) hz3,
    View.ld_unit_zero (S := S1x3x4096) hz3, View.ld_unit_zero (S := S67x4096) hz2]

/-- The last tile's output block: the output step of the accumulator just written and of the query block. -/
theorem out_C (c : Dev nD) (i : grid0.Coords) (a3 : Memref sig .tc .vmem S1x3x1024 .f32) (h3 : a3.IsWhole) (a4 : Memref sig .tc .vmem S1x64x1024 .f32) (h4 : a4.IsWhole) (a5 : Memref sig .tc .vmem S1x1x4096 .i32) (h5 : a5.IsWhole) (a6 : Memref sig .tc .vmem S1x3x4096 .f32) (h6 : a6.IsWhole) (a7 : Memref sig .tc .vmem S1x67x4096 .f32) (h7 : a7.IsWhole) (a8 : Memref sig .tc .vmem S67x4096 .f32) (h8 : a8.IsWhole) (hc0 : ¬cond0_0 i) (hc1 : cond0_1 i) (x0 : Vec F S1x3x1024 .f32) (x1 : Vec F S1x64x1024 .f32) (x2 : Vec F S1x1x4096 .i32) (x3 : Vec F S1x3x4096 .f32) (xs0 : Vec F S67x4096 .f32) :
    out0_C_4 c i a3 h3 a4 h4 a5 h5 a6 h6 a7 h7 a8 h8 hc0 hc1 x0 x1 x2 x3 xs0 = k0_pay1 (k0_pay3 i x2 x0 x1 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz3, View.readCov_unit_zero (S := S67x4096) _ hz2]
  simp only [View.readAt_eq_ld, h3.read_unread, h4.read_unread, h5.read_unread, h6.read_unread, h8.read_unread,
    View.ld_unit_zero (S := S1x3x1024) hz3, View.ld_unit_zero (S := S1x64x1024) hz3, View.ld_unit_zero (S := S1x1x4096) hz3,
    View.ld_unit_zero (S := S1x3x4096) hz3, View.ld_unit_zero (S := S67x4096) hz2]

end Cert.KernelIdeal.Pieces

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.OneHot.lean ====
/-
  The arithmetic of a gather written as a product with a one-hot matrix, over the extended reals.

  The cloud axis (8192 positions) is cut into 8 tiles of 1024. In tile `n` the one-hot matrix has, in row `k` and the
  column of index word `w`, the entry 1 where `n · 1024 + k` is `w` and 0 elsewhere. A row of table entries `f k` times that
  column therefore sums to `f (w mod 1024)` when `w` lies in tile `n` (`w / 1024 = n`) and to 0 otherwise: a product
  with 0 is 0 and a product with 1 is the factor for EVERY extended real. A second row, `f k − f k`, sums to 0 as
  soon as every `f k` is a real number.
-/
import Idealize.ShloMosaic.PureOps.Ideal
import Idealize.ShloMosaic.Lib.ValueIdx

noncomputable section

open scoped BigOperators

namespace Cert.OneHot

open Idealize.ShloMosaic

/-- The one-hot entry: the comparison bit of two index words, widened to a word and read as a signed integer. -/
def hot (a b : BitVec 32) : EReal := ((((IntOp.cmpi .eq a b).setWidth 32).toInt : ℝ) : EReal)

/-- It is 1 where the words agree and 0 elsewhere. -/
theorem hot_eq (a b : BitVec 32) : hot a b = if a = b then 1 else 0 := by
  unfold hot
  by_cases h : a = b
  · have e : IntOp.cmpi .eq a b = 1#1 := by
      subst h; simp [IntOp.cmpi]
    rw [if_pos h, e]
    have : ((1#1 : BitVec 1).setWidth 32).toInt = 1 := by decide
    rw [this]; norm_num
  · have e : IntOp.cmpi .eq a b = 0#1 := by
      have hb : (a == b) = false := beq_eq_false_iff_ne.mpr h
      simp [IntOp.cmpi, hb]
    rw [if_neg h, e]
    have : ((0#1 : BitVec 1).setWidth 32).toInt = 0 := by decide
    rw [this]; norm_num

/-- Row `k` of tile `n`, as the index word the kernel compares: `n · 1024 + k`. -/
def tileWord (n : ℕ) (k : ℕ) : BitVec 32 := IntOp.addi (Scalar.muli (BitVec.ofNat 32 n) 1024#32) (BitVec.ofNat 32 k)

theorem tileWord_toNat (n k : ℕ) (hn : n < 8) (hk : k < 1024) : (tileWord n k).toNat = n * 1024 + k := by
  unfold tileWord IntOp.addi Scalar.muli IntOp.muli
  rw [BitVec.toNat_add, BitVec.toNat_mul, BitVec.toNat_ofNat, BitVec.toNat_ofNat, BitVec.toNat_ofNat]
  norm_num
  omega

/-- The row of tile `n` that meets an index word in range: the word's tile is `n` and the row is the word mod 1024. -/
theorem tileWord_eq_iff (n k : ℕ) (hn : n < 8) (hk : k < 1024) (w : BitVec 32) :
    tileWord n k = w ↔ (w.toNat / 1024 = n ∧ w.toNat % 1024 = k) := by
  constructor
  · intro h
    have := tileWord_toNat n k hn hk
    rw [h] at this
    omega
  · intro h
    apply BitVec.eq_of_toNat_eq
    rw [tileWord_toNat n k hn hk]
    omega

/-- A row of entries times the one-hot column of `w`, summed over tile `n`: the entry `w` picks, or nothing. -/
theorem sum_hot (f : Fin 1024 → EReal) (n : ℕ) (hn : n < 8) (w : BitVec 32) :
    ∑ k : Fin 1024, f k * hot (tileWord n k.val) w
      = if w.toNat / 1024 = n then f ⟨w.toNat % 1024, Nat.mod_lt _ (by norm_num)⟩ else 0 := by
  by_cases hq : w.toNat / 1024 = n
  · rw [if_pos hq]
    have e : ∀ k : Fin 1024, f k * hot (tileWord n k.val) w
        = if k = ⟨w.toNat % 1024, Nat.mod_lt _ (by norm_num)⟩ then f k else 0 := by
      intro k
      rw [hot_eq]
      by_cases hk : k = ⟨w.toNat % 1024, Nat.mod_lt _ (by norm_num)⟩
      · rw [if_pos hk, if_pos ((tileWord_eq_iff n k.val hn k.isLt w).mpr ⟨hq, by rw [hk]⟩), mul_one]
      · rw [if_neg hk, if_neg (fun h => hk (Fin.ext ((tileWord_eq_iff n k.val hn k.isLt w).mp h).2.symm)), mul_zero]
    rw [Finset.sum_congr rfl (fun k _ => e k), Finset.sum_ite_eq' Finset.univ _ f, if_pos (Finset.mem_univ _)]
  · rw [if_neg hq]
    refine Finset.sum_eq_zero fun k _ => ?_
    rw [hot_eq, if_neg (fun h => hq ((tileWord_eq_iff n k.val hn k.isLt w).mp h).1), mul_zero]

/-- The second row, an entry less itself, contributes nothing when the entries are real numbers. -/
theorem sum_residue (f : Fin 1024 → EReal) (hf : ∀ k, ∃ r : ℝ, f k = (r : EReal)) (g : Fin 1024 → EReal) :
    ∑ k : Fin 1024, (f k - f k) * g k = 0 := by
  refine Finset.sum_eq_zero fun k _ => ?_
  obtain ⟨r, hr⟩ := hf k
  rw [hr, ← EReal.coe_sub, sub_self, EReal.coe_zero, zero_mul]

/-- ONE ACCUMULATION STEP at a column whose index word is `w`: the accumulator gains the entry `w` picks when `w`
    lies in tile `n`, and is kept otherwise. -/
theorem step (acc : EReal) (f : Fin 1024 → EReal) (hf : ∀ k, ∃ r : ℝ, f k = (r : EReal)) (n : ℕ) (hn : n < 8)
    (w : BitVec 32) :
    acc + ((∑ k : Fin 1024, f k * hot (tileWord n k.val) w) + ∑ k : Fin 1024, (f k - f k) * hot (tileWord n k.val) w)
      = acc + (if w.toNat / 1024 = n then f ⟨w.toNat % 1024, Nat.mod_lt _ (by norm_num)⟩ else 0) := by
  rw [sum_hot f n hn w, sum_residue f hf, add_zero]

/-- THE RUNNING SUM. With `T` the entry the index word picks in its own tile, the accumulator after tiles `0 … n`
    holds `T` once the word's tile has been met and 0 before. -/
theorem running (T : EReal) (q n : ℕ) (prev : EReal) (hprev : prev = if q + 1 ≤ n then T else 0) :
    prev + (if q = n then T else 0) = if q ≤ n then T else 0 := by
  subst hprev
  by_cases h1 : q + 1 ≤ n
  · rw [if_pos h1, if_neg (by omega), if_pos (by omega), add_zero]
  · rw [if_neg h1]
    by_cases h2 : q = n
    · rw [if_pos h2, if_pos (by omega), zero_add]
    · rw [if_neg h2, if_neg (by omega), zero_add]

end Cert.OneHot

end
-- ==== Proof.StepValue.lean ====
/-
  The kernel body's arithmetic, read entry by entry over the extended reals.

  At a grid point the body sees a [3, 1024] tile of cloud coordinates and a [64, 1024] tile of features; stacked they
  are a [67, 1024] TABLE TILE. It also sees the 4096 index words of its column block and builds the one-hot matrix
  [1024, 4096] of the tile: entry (k, l) is 1 where the tile's row `k` is the position word `l` asks for. The
  ACCUMULATION STEP adds, at (ch, l), the table tile's row `ch` times the one-hot column `l`, plus the same product with
  the residue row (an entry less itself: the low half of the kernel's two-term split, which vanishes exactly). The
  OUTPUT STEP subtracts the query coordinates from rows 0–2 and keeps rows 3–66.
-/
import proofs.«118025_j16346645529142_2_alg».proof.Proof.Gen.KernelIdeal.Skeleton
import proofs.«118025_j16346645529142_2_alg».proof.Proof.LibDenseEntry
import proofs.«118025_j16346645529142_2_alg».proof.Proof.OneHot
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.ValueIdx

namespace Cert.KernelIdeal.StepValue

open Cert.KernelIdeal Cert.KernelIdeal.Gen Cert.OneHot

/-- The table tile at (ch, k): a cloud coordinate for ch < 3, feature ch − 3 otherwise. -/
def tile (v15 : S1x3x1024.Idx → EReal) (v17 : S1x64x1024.Idx → EReal) (ch : Fin 67) (k : Fin 1024) : EReal :=
  if h : ch.val < 3 then v15 (ix3 (0 : Fin 1) (⟨ch.val, h⟩ : Fin 3) k)
  else v17 (ix3 (0 : Fin 1) (⟨ch.val - 3, by have := ch.isLt; omega⟩ : Fin 64) k)

/-- The stacked tile the body builds IS the table tile. -/
theorem table_apply (v15 : S1x3x1024.Idx → EReal) (v17 : S1x64x1024.Idx → EReal)
    (h1 : S1x3x1024.ShapeCasts S3x1024) (h2 : S1x64x1024.ShapeCasts S64x1024)
    (hcat : Shape.Concatenates [S3x1024, S64x1024] S67x1024 0) (ch : Fin 67) (k : Fin 1024) :
    concatenate S67x1024 0 [⟨S3x1024, shapeCast S3x1024 v15 h1⟩, ⟨S64x1024, shapeCast S64x1024 v17 h2⟩] hcat (ix2 ch k)
      = tile v15 v17 ch k := by
  unfold tile
  by_cases h : ch.val < 3
  · rw [dif_pos h]
    refine (concatenate_pair_apply_left 0 _ _ hcat (ix2 ch k) rfl (ix2 (⟨ch.val, h⟩ : Fin 3) k) (fun b => by
      match b with
      | ⟨0, _⟩ => rfl
      | ⟨1, _⟩ => rfl)).trans ?_
    exact shapeCast_1ab_ab_apply v15 h1 _ _
  · rw [dif_neg h]
    refine (concatenate_pair_apply_right 0 _ _ hcat (ix2 ch k) rfl rfl
      (ix2 (⟨ch.val - 3, by have := ch.isLt; omega⟩ : Fin 64) k) (fun b hb => by
        match b with
        | ⟨0, _⟩ => exact absurd rfl hb
        | ⟨1, _⟩ => rfl) (by show ch.val - 3 + 3 = ch.val; omega)).trans ?_
    exact shapeCast_1ab_ab_apply v17 h2 _ _

/-- The one-hot matrix of tile `n` at (k, l): row `k`'s position word against the index word of column `l`. -/
theorem onehot_apply (n : ℕ) (v7 : S1x1x4096.Idx → BitVec 32)
    (hi : S1024x1.Iotas .tc 32 [0]) (hc : S1x1x4096.ShapeCasts S1x4096)
    (hb1 : S1024x1.Broadcasts S1024x4096) (hb2 : S1x4096.Broadcasts S1024x4096) (hw : 1 < 32) (hbits : FTy.bf16.bits < FTy.f32.bits)
    (k : Fin 1024) (l : Fin 4096) :
    (truncf (F := Ideal) .bf16 (sitofp .f32 (extui 32 (cmpi .eq
        (broadcastTo S1024x4096 (addi (broadcast S1024x1 (Scalar.muli (BitVec.ofNat 32 n) 1024#32)) (iota .tc S1024x1 32 [0] hi)) hb1)
        (broadcastTo S1024x4096 (shapeCast S1x4096 v7 hc) hb2)) hw)) hbits) (ix2 k l)
      = hot (tileWord n k.val) (v7 (ix3 (0 : Fin 1) (0 : Fin 1) l)) := by
  show hot (broadcastTo S1024x4096 (addi (broadcast S1024x1 (Scalar.muli (BitVec.ofNat 32 n) 1024#32)) (iota .tc S1024x1 32 [0] hi)) hb1 (ix2 k l))
      (broadcastTo S1024x4096 (shapeCast S1x4096 v7 hc) hb2 (ix2 k l)) = _
  have eA : broadcastTo S1024x4096 (addi (broadcast S1024x1 (Scalar.muli (BitVec.ofNat 32 n) 1024#32)) (iota .tc S1024x1 32 [0] hi)) hb1 (ix2 k l)
      = tileWord n k.val := by
    refine (broadcastTo_apply _ hb1 (ix2 k l) (ix2 k (0 : Fin 1)) (fun ax => by
      match ax with
      | ⟨0, _⟩ => rfl
      | ⟨1, _⟩ => rfl)).trans ?_
    show IntOp.addi (Scalar.muli (BitVec.ofNat 32 n) 1024#32) (iota .tc S1024x1 32 [0] hi (ix2 k (0 : Fin 1))) = _
    rw [iota_single_apply]
    rfl
  have eB : broadcastTo S1024x4096 (shapeCast S1x4096 v7 hc) hb2 (ix2 k l) = v7 (ix3 (0 : Fin 1) (0 : Fin 1) l) :=
    (broadcastTo_1b_ab_apply _ hb2 k l).trans (shapeCast_1ab_ab_apply v7 hc _ _)
  rw [eA, eB]

/-- THE ACCUMULATION STEP at (ch, l): the accumulator plus the table tile's row against the one-hot column, plus the
    residue row against it. -/
theorem accumulate_apply (i : grid0.Coords) (v7 : S1x1x4096.Idx → BitVec 32) (v15 : S1x3x1024.Idx → EReal)
    (v17 : S1x64x1024.Idx → EReal) (v24 : S67x4096.Idx → EReal) (ch : Fin 67) (l : Fin 4096) :
    k0_pay3 (F := Ideal) i v7 v15 v17 v24 (ix2 ch l)
      = v24 (ix2 ch l)
        + ((∑ k : Fin 1024, tile v15 v17 ch k * hot (tileWord (i 2).val k.val) (v7 (ix3 (0 : Fin 1) (0 : Fin 1) l)))
          + ∑ k : Fin 1024, (tile v15 v17 ch k - tile v15 v17 ch k) * hot (tileWord (i 2).val k.val) (v7 (ix3 (0 : Fin 1) (0 : Fin 1) l))) := by
  unfold k0_pay3
  refine (congrFun (shapeCast_self _ _) _).trans ?_
  refine congrArg₂ (· + ·) rfl (congrArg₂ (· + ·) ?_ ?_)
  · refine (Cert.LibDenseEntry.matmul_plain_zero_apply _ rfl rfl rfl rfl rfl rfl none _ _ ch l).trans ?_
    refine Finset.sum_congr rfl fun k _ => congrArg₂ (· * ·) ?_ ?_
    · exact table_apply v15 v17 Facts₀.shapeCasts_S1x3x1024_S3x1024 Facts₀.shapeCasts_S1x64x1024_S64x1024 Facts₀.concatenates_S3x1024_S64x1024_S67x1024_d0 ch k
    · exact onehot_apply (i 2).val v7 _ _ _ _ _ _ k l
  · refine (Cert.LibDenseEntry.matmul_plain_zero_apply _ rfl rfl rfl rfl rfl rfl none _ _ ch l).trans ?_
    refine Finset.sum_congr rfl fun k _ => congrArg₂ (· * ·) ?_ ?_
    · exact congrArg₂ (· - ·) (table_apply v15 v17 Facts₀.shapeCasts_S1x3x1024_S3x1024 Facts₀.shapeCasts_S1x64x1024_S64x1024 Facts₀.concatenates_S3x1024_S64x1024_S67x1024_d0 ch k) (table_apply v15 v17 Facts₀.shapeCasts_S1x3x1024_S3x1024 Facts₀.shapeCasts_S1x64x1024_S64x1024 Facts₀.concatenates_S3x1024_S64x1024_S67x1024_d0 ch k)
    · exact onehot_apply (i 2).val v7 _ _ _ _ _ _ k l

/-- The cleared accumulator is 0 everywhere. -/
theorem cleared_apply (j : S67x4096.Idx) : k0_pay2 (F := Ideal) j = 0 := by
  unfold k0_pay2
  refine (congrFun (shapeCast_self _ _) _).trans ?_
  show Ideal.ofBits .f32 0x00000000#32 = 0
  exact Ideal.ofBits_zero_f32

/-- THE OUTPUT STEP at (0, ch, l): rows 0–2 of the accumulator less the query block, rows 3–66 kept. -/
theorem output_apply (acc : S67x4096.Idx → EReal) (v36 : S1x3x4096.Idx → EReal) (ch : Fin 67) (l : Fin 4096) :
    k0_pay1 (F := Ideal) acc v36 (ix3 (0 : Fin 1) ch l)
      = if h : ch.val < 3 then acc (ix2 ch l) - v36 (ix3 (0 : Fin 1) (⟨ch.val, h⟩ : Fin 3) l) else acc (ix2 ch l) := by
  unfold k0_pay1
  refine (shapeCast_ab_1ab_apply _ _ (0 : Fin 1) ch l).trans ?_
  by_cases h : ch.val < 3
  · rw [dif_pos h]
    refine (concatenate_pair_apply_left (t := S67x4096) (s₁ := S3x4096) (s₂ := S64x4096) 0 _ _ _ (ix2 ch l) rfl (ix2 (⟨ch.val, h⟩ : Fin 3) l) (fun b => by
      match b with
      | ⟨0, _⟩ => rfl
      | ⟨1, _⟩ => rfl)).trans ?_
    refine congrArg₂ (· - ·) ?_ ?_
    · exact slice2_axis0_apply 0 acc _ (⟨ch.val, h⟩ : Fin 3) l ch (by show ch.val = 0 + ch.val; omega)
    · exact shapeCast_1ab_ab_apply v36 _ _ _
  · rw [dif_neg h]
    refine (concatenate_pair_apply_right (t := S67x4096) (s₁ := S3x4096) (s₂ := S64x4096) 0 _ _ _ (ix2 ch l) rfl rfl
      (ix2 (⟨ch.val - 3, by have := ch.isLt; omega⟩ : Fin 64) l) (fun b hb => by
        match b with
        | ⟨0, _⟩ => exact absurd rfl hb
        | ⟨1, _⟩ => rfl) (by show ch.val - 3 + 3 = ch.val; omega)).trans ?_
    exact slice2_axis0_apply 3 acc _ (⟨ch.val - 3, by have := ch.isLt; omega⟩ : Fin 64) l ch (by show ch.val = 3 + (ch.val - 3); omega)

end Cert.KernelIdeal.StepValue

end
-- ==== Proof.Blocks.lean ====
/-
  The blocks a grid point sees, read off the arrays.

  The grid is [8, 16, 8]: point `t` (row-major) is batch `t / 128`, column block `(t / 8) mod 16`, cloud tile `t mod 8`.
  The cloud-side windows (coordinates [8, 3, 8192], features [8, 64, 8192]) show the point rows `ch` and cloud positions
  `(t mod 8) · 1024 + k` of its batch; the column-side windows (index words [8, 1, 65536], query coordinates
  [8, 3, 65536], the output [8, 67, 65536]) show columns `((t / 8) mod 16) · 4096 + l` of its batch.
-/
import proofs.«118025_j16346645529142_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The batch of point `n`, the column of its block's local column `l`, the cloud position of its tile's row `k`. -/
def bat (n : ℕ) : Fin 8 := ⟨(n / 128) % 8, Nat.mod_lt _ (by norm_num)⟩
def col (n : ℕ) (l : Fin 4096) : Fin 65536 := ⟨((n / 8) % 16) * 4096 + l.val, by have := l.isLt; have := Nat.mod_lt (n / 8) (show 0 < 16 by norm_num); omega⟩
def pos (n : ℕ) (k : Fin 1024) : Fin 8192 := ⟨(n % 8) * 1024 + k.val, by have := k.isLt; have := Nat.mod_lt n (show 0 < 8 by norm_num); omega⟩

theorem hN : cfg0.N = 1024 := N_0

theorem idx0 : ∀ t : Fin cfg0.N, win0_0.index t 0 = t.val / 128 ∧ win0_0.index t 1 = 0 ∧ win0_0.index t 2 = t.val % 8 :=
  (by decide +kernel : ∀ t : Fin grid0.N, win0_0.index t 0 = t.val / 128 ∧ win0_0.index t 1 = 0 ∧ win0_0.index t 2 = t.val % 8)
theorem idx1 : ∀ t : Fin cfg0.N, win0_1.index t 0 = t.val / 128 ∧ win0_1.index t 1 = 0 ∧ win0_1.index t 2 = t.val % 8 :=
  (by decide +kernel : ∀ t : Fin grid0.N, win0_1.index t 0 = t.val / 128 ∧ win0_1.index t 1 = 0 ∧ win0_1.index t 2 = t.val % 8)
theorem idx2 : ∀ t : Fin cfg0.N, win0_2.index t 0 = t.val / 128 ∧ win0_2.index t 1 = 0 ∧ win0_2.index t 2 = (t.val / 8) % 16 :=
  (by decide +kernel : ∀ t : Fin grid0.N, win0_2.index t 0 = t.val / 128 ∧ win0_2.index t 1 = 0 ∧ win0_2.index t 2 = (t.val / 8) % 16)
theorem idx3 : ∀ t : Fin cfg0.N, win0_3.index t 0 = t.val / 128 ∧ win0_3.index t 1 = 0 ∧ win0_3.index t 2 = (t.val / 8) % 16 :=
  (by decide +kernel : ∀ t : Fin grid0.N, win0_3.index t 0 = t.val / 128 ∧ win0_3.index t 1 = 0 ∧ win0_3.index t 2 = (t.val / 8) % 16)
theorem idx4 : ∀ t : Fin cfg0.N, win0_4.index t 0 = t.val / 128 ∧ win0_4.index t 1 = 0 ∧ win0_4.index t 2 = (t.val / 8) % 16 :=
  (by decide +kernel : ∀ t : Fin grid0.N, win0_4.index t 0 = t.val / 128 ∧ win0_4.index t 1 = 0 ∧ win0_4.index t 2 = (t.val / 8) % 16)

/-- The cloud-coordinate tile of point `t`. -/
theorem blk0 (c : Dev nD) (t : Fin cfg0.N) (ch : Fin 3) (k : Fin 1024) :
    (iblk m c 0 t : Vec F S1x3x1024 .f32) (ix3 (0 : Fin 1) ch k) = (V m c main_v25 : Vec F S8x3x8192 .f32) (ix3 (bat t.val) ch (pos t.val k)) := by
  have hN : t.val < 1024 := lt_of_lt_of_eq t.isLt hN
  unfold iblk
  rw [View.read_apply]
  show V m c main_v25 _ = V m c main_v25 _
  refine congrArg (V m c main_v25) (funext fun a => Fin.ext ?_)
  match a with
  | ⟨0, _⟩ => show win0_0.index t 0 * 1 + 1 * 0 = (t.val / 128) % 8; rw [(idx0 t).1]; omega
  | ⟨1, _⟩ => show win0_0.index t 1 * 3 + 1 * ch.val = ch.val; rw [(idx0 t).2.1]; omega
  | ⟨2, _⟩ => show win0_0.index t 2 * 1024 + 1 * k.val = (t.val % 8) * 1024 + k.val; rw [(idx0 t).2.2]; omega

/-- The feature tile of point `t`. -/
theorem blk1 (c : Dev nD) (t : Fin cfg0.N) (f : Fin 64) (k : Fin 1024) :
    (iblk m c 1 t : Vec F S1x64x1024 .f32) (ix3 (0 : Fin 1) f k) = (V m c main_arg2 : Vec F S8x64x8192 .f32) (ix3 (bat t.val) f (pos t.val k)) := by
  have hN : t.val < 1024 := lt_of_lt_of_eq t.isLt hN
  unfold iblk
  rw [View.read_apply]
  show V m c main_arg2 _ = V m c main_arg2 _
  refine congrArg (V m c main_arg2) (funext fun a => Fin.ext ?_)
  match a with
  | ⟨0, _⟩ => show win0_1.index t 0 * 1 + 1 * 0 = (t.val / 128) % 8; rw [(idx1 t).1]; omega
  | ⟨1, _⟩ => show win0_1.index t 1 * 64 + 1 * f.val = f.val; rw [(idx1 t).2.1]; omega
  | ⟨2, _⟩ => show win0_1.index t 2 * 1024 + 1 * k.val = (t.val % 8) * 1024 + k.val; rw [(idx1 t).2.2]; omega

/-- The index words of point `t`'s column block. -/
theorem blk2 (c : Dev nD) (t : Fin cfg0.N) (l : Fin 4096) :
    (iblk m c 2 t : Vec F S1x1x4096 .i32) (ix3 (0 : Fin 1) (0 : Fin 1) l) = (V m c main_v24 : Vec F S8x1x65536 .i32) (ix3 (bat t.val) (0 : Fin 1) (col t.val l)) := by
  have hN : t.val < 1024 := lt_of_lt_of_eq t.isLt hN
  unfold iblk
  rw [View.read_apply]
  show V m c main_v24 _ = V m c main_v24 _
  refine congrArg (V m c main_v24) (funext fun a => Fin.ext ?_)
  match a with
  | ⟨0, _⟩ => show win0_2.index t 0 * 1 + 1 * 0 = (t.val / 128) % 8; rw [(idx2 t).1]; omega
  | ⟨1, _⟩ => show win0_2.index t 1 * 1 + 1 * 0 = 0; rw [(idx2 t).2.1]
  | ⟨2, _⟩ => show win0_2.index t 2 * 4096 + 1 * l.val = ((t.val / 8) % 16) * 4096 + l.val; rw [(idx2 t).2.2]; omega

/-- The query coordinates of point `t`'s column block. -/
theorem blk3 (c : Dev nD) (t : Fin cfg0.N) (ch : Fin 3) (l : Fin 4096) :
    (iblk m c 3 t : Vec F S1x3x4096 .f32) (ix3 (0 : Fin 1) ch l) = (V m c main_v28 : Vec F S8x3x65536 .f32) (ix3 (bat t.val) ch (col t.val l)) := by
  have hN : t.val < 1024 := lt_of_lt_of_eq t.isLt hN
  unfold iblk
  rw [View.read_apply]
  show V m c main_v28 _ = V m c main_v28 _
  refine congrArg (V m c main_v28) (funext fun a => Fin.ext ?_)
  match a with
  | ⟨0, _⟩ => show win0_3.index t 0 * 1 + 1 * 0 = (t.val / 128) % 8; rw [(idx3 t).1]; omega
  | ⟨1, _⟩ => show win0_3.index t 1 * 3 + 1 * ch.val = ch.val; rw [(idx3 t).2.1]; omega
  | ⟨2, _⟩ => show win0_3.index t 2 * 4096 + 1 * l.val = ((t.val / 8) % 16) * 4096 + l.val; rw [(idx3 t).2.2]; omega

/-- The output block of point `t`, read off any [8, 67, 65536] array. -/
theorem blk4 (t : Fin cfg0.N) (A : S8x67x65536.Idx → Elt F .f32) (ch : Fin 67) (l : Fin 4096) :
    (((cfg0.win 4).blk t).view.read (Elt F) A : Vec F S1x67x4096 .f32) (ix3 (0 : Fin 1) ch l) = A (ix3 (bat t.val) ch (col t.val l)) := by
  have hN : t.val < 1024 := lt_of_lt_of_eq t.isLt hN
  rw [View.read_apply]
  refine congrArg A (funext fun a => Fin.ext ?_)
  match a with
  | ⟨0, _⟩ => show win0_4.index t 0 * 1 + 1 * 0 = (t.val / 128) % 8; rw [(idx4 t).1]; omega
  | ⟨1, _⟩ => show win0_4.index t 1 * 67 + 1 * ch.val = ch.val; rw [(idx4 t).2.1]; omega
  | ⟨2, _⟩ => show win0_4.index t 2 * 4096 + 1 * l.val = ((t.val / 8) % 16) * 4096 + l.val; rw [(idx4 t).2.2]; omega

/-- The tile coordinate the body reads at point `t`. -/
theorem coord2 : ∀ t : Fin cfg0.N, ((grid0.coords t) 2).val = t.val % 8 :=
  (by decide +kernel : ∀ t : Fin grid0.N, ((grid0.coords t) 2).val = t.val % 8)

end Cert.KernelIdeal.Blocks

end
-- ==== Proof.Grouped.lean ====
/-
  The specification both programs meet: ball-query grouping as ONE function of the three argument arrays and of
  the array of gathered indices, index by index, over the extended reals.

  For batch `b`, query `q` and sample `s` let `n` be the gathered cloud index `idx[b, q, s]` (read as a natural
  number; inside the gathered axis whenever the index is in range). Output channel `ch < 3` holds the cloud point's
  coordinate recentred at the query, `xyz[b, n, ch] − new_xyz[b, q, ch]`; output channel `3 + f` holds the feature
  `features[b, f, n]`.
-/
import Idealize.ShloMosaic.PureOps.Ideal
import Idealize.ShloMosaic.Lib.ValueIdx

noncomputable section

namespace Cert.Grouped

open Idealize.ShloMosaic Idealize.ShloMosaic.ValueIdx

/-- The cloud `[8, 8192, 3]`, the queries `[8, 2048, 3]`, the features `[8, 64, 8192]`, the gathered indices
    `[8, 2048, 32]` and the result `[8, 67, 2048, 32]`. -/
abbrev SCloud : Shape := ⟨3, ![8, 8192, 3]⟩
abbrev SQuery : Shape := ⟨3, ![8, 2048, 3]⟩
abbrev SFeat : Shape := ⟨3, ![8, 64, 8192]⟩
abbrev SIdx : Shape := ⟨3, ![8, 2048, 32]⟩
abbrev SOut : Shape := ⟨4, ![8, 67, 2048, 32]⟩

/-- The cloud row an index word picks: the word as a natural number, reduced into the axis (the reduction is the
    identity on an index in range). -/
def pick (w : BitVec 32) : Fin 8192 := ⟨w.toNat % 8192, Nat.mod_lt _ (by norm_num)⟩

theorem pick_val_of_lt {w : BitVec 32} (h : w.toNat < 8192) : (pick w).val = w.toNat :=
  Nat.mod_eq_of_lt h

/-- Every gathered index lies inside the gathered axis. -/
def InRange (idx : SIdx.Idx → BitVec 32) : Prop := ∀ j, (idx j).toNat < 8192

/-- Every entry of an array is a real number (neither infinity). -/
def AllReal {s : Shape} (x : s.Idx → EReal) : Prop := ∀ j, ∃ r : ℝ, x j = (r : EReal)

/-- THE GROUPED ARRAY at `(b, ch, q, s)`. -/
def grouped (xyz : SCloud.Idx → EReal) (qry : SQuery.Idx → EReal) (feat : SFeat.Idx → EReal)
    (idx : SIdx.Idx → BitVec 32) : SOut.Idx → EReal := fun j =>
  if h : (j 1).val < 3 then
    xyz (ix3 (j 0) (pick (idx (ix3 (j 0) (j 2) (j 3)))) ⟨(j 1).val, h⟩) - qry (ix3 (j 0) (j 2) ⟨(j 1).val, h⟩)
  else
    feat (ix3 (j 0) ⟨(j 1).val - 3, by have h67 : (j 1).val < 67 := (j 1).isLt; omega⟩ (pick (idx (ix3 (j 0) (j 2) (j 3)))))

end Cert.Grouped

end
-- ==== Proof.Accum.lean ====
/-
  The accumulator, point by point.

  Fix a core. Write `table b ch p` for the stacked table of batch `b` (rows 0–2 the cloud coordinates, rows 3–66 the
  features, as the region finds them) at cloud position `p`, and `word n l` for the index word of local column `l` of the
  column block of point `n`. If every table entry is a real number and every index word is in range, then after
  point `n` the accumulator holds, at (ch, l), the entry `table (batch of n) ch (word n l)` when the word's tile number
  is at most `n mod 8`, and 0 otherwise: tile by tile the one-hot product adds the entry exactly once, at the word's own
  tile. At the last tile (`n mod 8 = 7`) every word's tile has been met, and the output block is the picked entry —
  less the query coordinate on rows 0–2.
-/
import proofs.«118025_j16346645529142_2_alg».proof.Proof.Pieces
import proofs.«118025_j16346645529142_2_alg».proof.Proof.StepValue
import proofs.«118025_j16346645529142_2_alg».proof.Proof.Blocks
import proofs.«118025_j16346645529142_2_alg».proof.Proof.Grouped

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Blocks Cert.KernelIdeal.StepValue Cert.OneHot Cert.Grouped

variable (m : (ℓ : Loc nD τ sig) → Buf (Elt Ideal) ℓ) (c : Dev nD)

/-- The stacked table of batch `b` at row `ch`, cloud position `p`. -/
def table (b : Fin 8) (ch : Fin 67) (p : Fin 8192) : EReal :=
  if h : ch.val < 3 then (V m c main_v25 : Vec Ideal S8x3x8192 .f32) (ix3 b (⟨ch.val, h⟩ : Fin 3) p)
  else (V m c main_arg2 : Vec Ideal S8x64x8192 .f32) (ix3 b (⟨ch.val - 3, by have := ch.isLt; omega⟩ : Fin 64) p)

/-- The index word of local column `l` at point `n`. -/
def word (n : ℕ) (l : Fin 4096) : BitVec 32 :=
  (V m c main_v24 : Vec Ideal S8x1x65536 .i32) (ix3 (bat n) (0 : Fin 1) (col n l))

/-- The table is real-valued and the index words are in range. -/
structure Good : Prop where
  real : ∀ b ch p, ∃ r : ℝ, table m c b ch p = (r : EReal)
  range : ∀ n l, (word m c n l).toNat < 8192

/-- The tile a point reads is the table at the point's batch and tile positions. -/
theorem tile_eq (t : Fin cfg0.N) (ch : Fin 67) (k : Fin 1024) :
    tile (iblk m c 0 t) (iblk m c 1 t) ch k = table m c (bat t.val) ch (pos t.val k) := by
  unfold tile table
  by_cases h : ch.val < 3
  · rw [dif_pos h, dif_pos h]; exact blk0 m c t _ k
  · rw [dif_neg h, dif_neg h]; exact blk1 m c t _ k

/-- ONE POINT. If the accumulator before holds the picked entry exactly where the word's tile is below this
    point's, the accumulator after holds it exactly where the word's tile is at most this point's. -/
theorem step_point (hg : Good m c) (t : Fin cfg0.N) (prev : Vec Ideal S67x4096 .f32)
    (hprev : ∀ ch l, prev (ix2 ch l)
      = if (word m c t.val l).toNat / 1024 + 1 ≤ t.val % 8 then table m c (bat t.val) ch (pick (word m c t.val l)) else 0)
    (ch : Fin 67) (l : Fin 4096) :
    k0_pay3 (F := Ideal) (grid0.coords t) (iblk m c 2 t) (iblk m c 0 t) (iblk m c 1 t) prev (ix2 ch l)
      = if (word m c t.val l).toNat / 1024 ≤ t.val % 8 then table m c (bat t.val) ch (pick (word m c t.val l)) else 0 := by
  refine (accumulate_apply (grid0.coords t) (iblk m c 2 t) (iblk m c 0 t) (iblk m c 1 t) prev ch l).trans ?_
  have hw : (iblk m c 2 t : Vec Ideal S1x1x4096 .i32) (ix3 (0 : Fin 1) (0 : Fin 1) l) = word m c t.val l := blk2 m c t l
  have hn : ((grid0.coords t) 2).val = t.val % 8 := coord2 t
  have hlt : t.val % 8 < 8 := Nat.mod_lt _ (by norm_num)
  have hr := hg.range t.val l
  have e1 : (∑ k : Fin 1024, tile (iblk m c 0 t) (iblk m c 1 t) ch k
        * hot (tileWord ((grid0.coords t) 2).val k.val) ((iblk m c 2 t : Vec Ideal S1x1x4096 .i32) (ix3 (0 : Fin 1) (0 : Fin 1) l)))
      = ∑ k : Fin 1024, (fun k => table m c (bat t.val) ch (pos t.val k)) k * hot (tileWord (t.val % 8) k.val) (word m c t.val l) :=
    Finset.sum_congr rfl fun k _ => by rw [tile_eq m c t ch k, hn, hw]
  have e2 : (∑ k : Fin 1024, (tile (iblk m c 0 t) (iblk m c 1 t) ch k - tile (iblk m c 0 t) (iblk m c 1 t) ch k)
        * hot (tileWord ((grid0.coords t) 2).val k.val) ((iblk m c 2 t : Vec Ideal S1x1x4096 .i32) (ix3 (0 : Fin 1) (0 : Fin 1) l)))
      = ∑ k : Fin 1024, ((fun k => table m c (bat t.val) ch (pos t.val k)) k - (fun k => table m c (bat t.val) ch (pos t.val k)) k)
          * hot (tileWord (t.val % 8) k.val) (word m c t.val l) :=
    Finset.sum_congr rfl fun k _ => by rw [tile_eq m c t ch k, hn, hw]
  rw [e1, e2, OneHot.step _ (fun k => table m c (bat t.val) ch (pos t.val k)) (fun k => hg.real _ _ _) (t.val % 8) hlt (word m c t.val l),
    hprev ch l]
  have hT : (if (word m c t.val l).toNat / 1024 = t.val % 8
        then (fun k => table m c (bat t.val) ch (pos t.val k)) ⟨(word m c t.val l).toNat % 1024, Nat.mod_lt _ (by norm_num)⟩ else 0)
      = if (word m c t.val l).toNat / 1024 = t.val % 8 then table m c (bat t.val) ch (pick (word m c t.val l)) else 0 := by
    by_cases hq : (word m c t.val l).toNat / 1024 = t.val % 8
    · rw [if_pos hq, if_pos hq]
      refine congrArg (table m c (bat t.val) ch) (Fin.ext ?_)
      show (t.val % 8) * 1024 + (word m c t.val l).toNat % 1024 = (word m c t.val l).toNat % 8192
      omega
    · rw [if_neg hq, if_neg hq]
  rw [hT]
  exact OneHot.running _ _ _ _ rfl

/-- What each case leaves in the accumulator, and the last tile's output block, through the body's arithmetic. -/
theorem acc_first (t : Fin cfg0.N) (h0 : t.val % 8 = 0) (h1 : ¬t.val % 8 = 7) :
    (outsAt0 m c t.val t.isLt).2 = k0_pay3 (F := Ideal) (grid0.coords t) (iblk m c 2 t) (iblk m c 0 t) (iblk m c 1 t) (k0_pay2 (F := Ideal)) := by
  rw [outsAt0_A m c t h0 h1]
  dsimp only
  exact Pieces.acc_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem acc_middle (t : Fin cfg0.N) (h0 : ¬t.val % 8 = 0) (h1 : ¬t.val % 8 = 7) :
    (outsAt0 m c t.val t.isLt).2 = k0_pay3 (F := Ideal) (grid0.coords t) (iblk m c 2 t) (iblk m c 0 t) (iblk m c 1 t)
      (outsAt0 m c (t.val - 1) (Nat.lt_of_le_of_lt (Nat.sub_le _ _) t.isLt)).2 := by
  rw [outsAt0_B m c t h0 h1]
  dsimp only
  exact Pieces.acc_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt)).2

theorem acc_last (t : Fin cfg0.N) (h0 : ¬t.val % 8 = 0) (h1 : t.val % 8 = 7) :
    (outsAt0 m c t.val t.isLt).2 = k0_pay3 (F := Ideal) (grid0.coords t) (iblk m c 2 t) (iblk m c 0 t) (iblk m c 1 t)
      (outsAt0 m c (t.val - 1) (Nat.lt_of_le_of_lt (Nat.sub_le _ _) t.isLt)).2 := by
  rw [outsAt0_C m c t h0 h1]
  dsimp only
  exact Pieces.acc_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

theorem out_last (t : Fin cfg0.N) (h0 : ¬t.val % 8 = 0) (h1 : t.val % 8 = 7) :
    (outsAt0 m c t.val t.isLt).1 = k0_pay1 (F := Ideal) (outsAt0 m c t.val t.isLt).2 (iblk m c 3 t) := by
  rw [acc_last m c t h0 h1, outsAt0_C m c t h0 h1]
  dsimp only
  exact Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-- Consecutive points of one column block share their batch and their columns. -/
theorem bat_succ (n : ℕ) (h : (n + 1) % 8 ≠ 0) : bat n = bat (n + 1) :=
  Fin.ext (by show (n / 128) % 8 = ((n + 1) / 128) % 8; omega)
theorem col_succ (n : ℕ) (h : (n + 1) % 8 ≠ 0) (l : Fin 4096) : col n l = col (n + 1) l :=
  Fin.ext (by show ((n / 8) % 16) * 4096 + l.val = (((n + 1) / 8) % 16) * 4096 + l.val; omega)
theorem word_succ (n : ℕ) (h : (n + 1) % 8 ≠ 0) (l : Fin 4096) : word m c n l = word m c (n + 1) l := by
  unfold word; rw [bat_succ n h, col_succ n h l]

/-- THE INVARIANT, by induction on the point. -/
theorem acc_eq (hg : Good m c) : ∀ (n : ℕ) (h : n < cfg0.N) (ch : Fin 67) (l : Fin 4096),
    (outsAt0 m c n h).2 (ix2 ch l)
      = if (word m c n l).toNat / 1024 ≤ n % 8 then table m c (bat n) ch (pick (word m c n l)) else 0
  | 0, h => fun ch l => by
    have e : (outsAt0 m c 0 h).2 = _ := acc_first m c ⟨0, h⟩ rfl (by show ¬(0 % 8 = 7); decide)
    rw [e]
    refine step_point m c hg ⟨0, h⟩ _ (fun ch l => ?_) ch l
    rw [cleared_apply, if_neg (by show ¬(_ + 1 ≤ 0 % 8); omega)]
  | n + 1, h => fun ch l => by
    by_cases h0 : (n + 1) % 8 = 0
    · have e : (outsAt0 m c (n + 1) h).2 = _ := acc_first m c ⟨n + 1, h⟩ h0 (by show ¬(n + 1) % 8 = 7; omega)
      rw [e]
      refine step_point m c hg ⟨n + 1, h⟩ _ (fun ch l => ?_) ch l
      rw [cleared_apply, if_neg (by show ¬(_ + 1 ≤ (n + 1) % 8); omega)]
    · have ih := acc_eq hg n (Nat.lt_of_succ_lt h)
      have hprev : ∀ ch l, (outsAt0 m c n (Nat.lt_of_succ_lt h)).2 (ix2 ch l)
          = if (word m c (n + 1) l).toNat / 1024 + 1 ≤ (n + 1) % 8 then table m c (bat (n + 1)) ch (pick (word m c (n + 1) l)) else 0 := by
        intro ch l
        rw [ih ch l, word_succ m c n h0 l, bat_succ n h0]
        by_cases hq : (word m c (n + 1) l).toNat / 1024 ≤ n % 8
        · rw [if_pos hq, if_pos (by omega)]
        · rw [if_neg hq, if_neg (by omega)]
      by_cases h1 : (n + 1) % 8 = 7
      · have e : (outsAt0 m c (n + 1) h).2 = _ := acc_last m c ⟨n + 1, h⟩ h0 h1
        rw [e]
        exact step_point m c hg ⟨n + 1, h⟩ _ hprev ch l
      · have e : (outsAt0 m c (n + 1) h).2 = _ := acc_middle m c ⟨n + 1, h⟩ h0 h1
        rw [e]
        exact step_point m c hg ⟨n + 1, h⟩ _ hprev ch l

end Cert.KernelIdeal.Accum

end
-- ==== Proof.Output.lean ====
/-
  The kernel's result array.

  Only the last tile of a column block (`t mod 8 = 7`) writes its output block back. By then the accumulator holds,
  at (ch, l), the table entry the index word of column `l` picks, so the block written back is the block of ONE
  whole-array function `result`: at (b, ch, L) the picked table entry, less the query coordinate on rows 0–2. The
  128 flushing points' blocks (8 batches × 16 column blocks) tile the [8, 67, 65536] array, so the array ends at
  `result`.
-/
import proofs.«118025_j16346645529142_2_alg».proof.Proof.Accum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.KernelIdeal.Blocks Cert.KernelIdeal.StepValue Cert.KernelIdeal.Accum Cert.Grouped

variable (m : (ℓ : Loc nD τ sig) → Buf (Elt Ideal) ℓ) (c : Dev nD)

/-- The result array as one function of the arrays the region finds. -/
def result : S8x67x65536.Idx → EReal := fun j =>
  if h : (j 1).val < 3 then
    table m c (j 0) (j 1) (pick ((V m c main_v24 : Vec Ideal S8x1x65536 .i32) (ix3 (j 0) (0 : Fin 1) (j 2))))
      - (V m c main_v28 : Vec Ideal S8x3x65536 .f32) (ix3 (j 0) (⟨(j 1).val, h⟩ : Fin 3) (j 2))
  else
    table m c (j 0) (j 1) (pick ((V m c main_v24 : Vec Ideal S8x1x65536 .i32) (ix3 (j 0) (0 : Fin 1) (j 2))))

/-- The output block of a flushing point, entry by entry. -/
theorem block_entry (hg : Good m c) (t : Fin cfg0.N) (h7 : t.val % 8 = 7) (ch : Fin 67) (l : Fin 4096) :
    k0_pay1 (F := Ideal) (outsAt0 m c t.val t.isLt).2 (iblk m c 3 t) (ix3 (0 : Fin 1) ch l)
      = result m c (ix3 (bat t.val) ch (col t.val l)) := by
  refine (output_apply _ _ ch l).trans ?_
  have hr := hg.range t.val l
  have hacc : (outsAt0 m c t.val t.isLt).2 (ix2 ch l) = table m c (bat t.val) ch (pick (word m c t.val l)) := by
    rw [acc_eq m c hg t.val t.isLt ch l, if_pos (by omega)]
  unfold result
  by_cases h : ch.val < 3
  · rw [dif_pos h]
    show _ = dite (ch.val < 3) _ _
    rw [dif_pos h, hacc]
    exact congrArg₂ (· - ·) rfl (blk3 m c t _ l)
  · rw [dif_neg h]
    show _ = dite (ch.val < 3) _ _
    rw [dif_neg h, hacc]
    rfl

/-- WHAT A FLUSHING POINT WRITES BACK is its block of `result`. -/
theorem flushed_eq (hg : Good m c) (t : Fin cfg0.N) (hf : (cfg0.win 4).flush t = true) :
    (dats m 0 c).flushed 4 t = ((cfg0.win 4).blk t).view.read (Elt Ideal) (result m c) := by
  have h7 : t.val % 8 = 7 := (flush0_4 t).mp hf
  have h0 : ¬t.val % 8 = 0 := by omega
  show (cfg0.win 4).cut (grid0.coords t) ((dats m 0 c).after 4 t) = _
  rw [after0_4, out_last m c t h0 h7]
  refine funext fun (y : S1x67x4096.Idx) => ?_
  have hy : y = ix3 (0 : Fin 1) (y 1) (y 2) := by
    funext a
    match a with
    | ⟨0, _⟩ => exact Subsingleton.elim (α := Fin 1) _ _
    | ⟨1, _⟩ => rfl
    | ⟨2, _⟩ => rfl
  show k0_pay1 (F := Ideal) (outsAt0 m c t.val t.isLt).2 (iblk m c 3 t) y
    = (((cfg0.win 4).blk t).view.read (Elt Ideal) (result m c) : Vec Ideal S1x67x4096 .f32) y
  rw [hy]
  exact (block_entry m c hg t h7 (y 1) (y 2)).trans (blk4 (F := Ideal) t (result m c) (y 1) (y 2)).symm

/-- An index of the array lies in point `t`'s block iff each coordinate lies in the block's range. -/
theorem mem_blk (t : Fin cfg0.N) (i : S8x67x65536.Idx) :
    i ∈ ((cfg0.win 4).blk t).view.set ↔ ∀ a : Fin 3, win0_4.index t a * S1x67x4096.size a ≤ (i a).val
      ∧ (i a).val < win0_4.index t a * S1x67x4096.size a + S1x67x4096.size a := by
  show i ∈ ((View.whole main_v29).slice (win0_4.rect t)).set ↔ _
  rw [View.set_slice_whole, Rect.mem_set_unit]
  exact Iff.rfl

/-- Every index of the array lies in the block of a flushing point: the last tile of its batch and column block. -/
theorem cover (i : S8x67x65536.Idx) : ∃ t : Fin cfg0.N, (cfg0.win 4).flush t = true ∧ i ∈ ((cfg0.win 4).blk t).view.set := by
  have h0 : (i 0).val < 8 := (i 0).isLt
  have h1 : (i 1).val < 67 := (i 1).isLt
  have h2 : (i 2).val < 65536 := (i 2).isLt
  obtain ⟨tv, htv⟩ : ∃ tv : ℕ, tv = (i 0).val * 128 + ((i 2).val / 4096) * 8 + 7 := ⟨_, rfl⟩
  have hlt : tv < cfg0.N := lt_of_lt_of_eq (by omega : tv < 1024) hN.symm
  refine ⟨⟨tv, hlt⟩, (flush0_4 _).mpr (by show tv % 8 = 7; omega), ?_⟩
  rw [mem_blk]
  obtain ⟨e0, e1, e2⟩ := idx4 ⟨tv, hlt⟩
  intro a
  match a with
  | ⟨0, _⟩ =>
    show win0_4.index ⟨tv, hlt⟩ 0 * 1 ≤ (i 0).val ∧ (i 0).val < win0_4.index ⟨tv, hlt⟩ 0 * 1 + 1
    rw [e0]; show tv / 128 * 1 ≤ (i 0).val ∧ (i 0).val < tv / 128 * 1 + 1; omega
  | ⟨1, _⟩ =>
    show win0_4.index ⟨tv, hlt⟩ 1 * 67 ≤ (i 1).val ∧ (i 1).val < win0_4.index ⟨tv, hlt⟩ 1 * 67 + 67
    rw [e1]; omega
  | ⟨2, _⟩ =>
    show win0_4.index ⟨tv, hlt⟩ 2 * 4096 ≤ (i 2).val ∧ (i 2).val < win0_4.index ⟨tv, hlt⟩ 2 * 4096 + 4096
    rw [e2]; show (tv / 8) % 16 * 4096 ≤ (i 2).val ∧ (i 2).val < (tv / 8) % 16 * 4096 + 4096; omega

/-- THE ARRAY after the region is `result`. -/
theorem final (hg : Good m c) : (dats m 0 c).arrAt 4 cfg0.N = result m c :=
  (dats m 0 c).arrAt_eq_of_cover 4 (result m c) (fun t hf => flushed_eq m c hg t hf) (cover)

end Cert.KernelIdeal.Output

end
-- ==== Proof.PreFacts.lean ====
/-
  The precondition, decoded. The precondition computes, from the cloud and the queries, the array of gathered
  cloud indices: for each query the squared distances to all cloud points, the mask of the points inside the unit
  ball, the point numbers under that mask (8193 elsewhere), sorted ascending along the cloud axis, the first 32 of
  them, with every 8193 among those replaced by the first. It then states that every float input is finite
  (|x| < +inf, all entries) and that every one of these indices lies in [0, 8192). Here that index array is
  named (`ballIdx`), the precondition's value is rewritten as the conjunction of the four all-reductions, and the
  conjunction, assumed true, is read back entry by entry: every float entry is a real number and every index
  word, as a natural number, is below 8192.
-/
import proofs.«118025_j16346645529142_2_alg».proof.Pre_finite_inputs
import proofs.«118025_j16346645529142_2_alg».proof.Proof.Grouped
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx
open Cert.Pre_finite_inputs Cert.Pre_finite_inputs.Facts

variable [Cert.Pre_finite_inputs.Facts]

/-- THE GATHERED INDICES the precondition computes from the cloud `x0` and the queries `x1`: the chain of
    operations of the precondition up to the index array, in order, over the extended reals. -/
def ballIdx (x0 : FVec Ideal S8x8192x3 .f32) (x1 : FVec Ideal S8x2048x3 .f32) : IVec S8x2048x32 32 :=
  let main_v0 : FVec Ideal S8x2048x3 .f32 := mulf x1 x1
  let main_cst : FVec Ideal S_ .f32 := constant S_ .f32 0x00000000#32
  let main_v1 : FVec Ideal S8x2048 .f32 := (fun x v => Host.reduceAdd x v reducesTo_S8x2048x3_S8x2048_d2 h_S_) main_v0 main_cst
  let main_v2 : FVec Ideal S8x8192x3 .f32 := mulf x0 x0
  let main_cst_0 : FVec Ideal S_ .f32 := constant S_ .f32 0x00000000#32
  let main_v3 : FVec Ideal S8x8192 .f32 := (fun x v => Host.reduceAdd x v reducesTo_S8x8192x3_S8x8192_d2 h_S_) main_v2 main_cst_0
  let main_v4 : FVec Ideal S8x2048x8192 .f32 := (fun l r => Host.dotGeneral dot_S8x2048x3_S8x8192x3_S8x2048x8192_2_2_1_1_0_0 none l r) x1 x0
  let main_v5 : FVec Ideal S8x2048x1 .f32 := broadcastInDim S8x2048x1 ![0, 1] bcast_S8x2048_S8x2048x1_0_1 main_v1
  let main_v6 : FVec Ideal S8x1x8192 .f32 := broadcastInDim S8x1x8192 ![0, 2] bcast_S8x8192_S8x1x8192_0_2 main_v3
  let main_v7 : FVec Ideal S8x2048x8192 .f32 := broadcastInDim S8x2048x8192 ![0, 1, 2] bcast_S8x2048x1_S8x2048x8192_0_1_2 main_v5
  let main_v8 : FVec Ideal S8x2048x8192 .f32 := broadcastInDim S8x2048x8192 ![0, 1, 2] bcast_S8x1x8192_S8x2048x8192_0_1_2 main_v6
  let main_v9 : FVec Ideal S8x2048x8192 .f32 := addf main_v7 main_v8
  let main_cst_1 : FVec Ideal S_ .f32 := constant S_ .f32 0x40000000#32
  let main_v10 : FVec Ideal S8x2048x8192 .f32 := broadcastInDim S8x2048x8192 ![] bcast_S_S8x2048x8192 main_cst_1
  let main_v11 : FVec Ideal S8x2048x8192 .f32 := mulf main_v10 main_v4
  let main_v12 : FVec Ideal S8x2048x8192 .f32 := subf main_v9 main_v11
  let main_cst_2 : FVec Ideal S_ .f32 := constant S_ .f32 0x3F800000#32
  let main_v13 : FVec Ideal S8x2048x8192 .f32 := broadcastInDim S8x2048x8192 ![] bcast_S_S8x2048x8192 main_cst_2
  let main_v14 : IVec S8x2048x8192 1 := cmpf .olt main_v12 main_v13
  let main_v15 : IVec S8192 32 := iotaInDim S8192 32 0
  let main_v16 : IVec S1x1x8192 32 := broadcastInDim S1x1x8192 ![2] bcast_S8192_S1x1x8192_2 main_v15
  let main_v17 : IVec S8x2048x8192 32 := broadcastInDim S8x2048x8192 ![0, 1, 2] bcast_S1x1x8192_S8x2048x8192_0_1_2 main_v16
  let main_c : IVec S_ 32 := constantI S_ 32 8193#32
  let main_v18 : IVec S8x2048x8192 32 := broadcastInDim S8x2048x8192 ![] bcast_S_S8x2048x8192 main_c
  let main_v19 : IVec S8x2048x8192 32 := select main_v14 main_v17 main_v18
  let main_v20 : IVec S8x2048x8192 32 := (fun x => Host.sort S8x2048x8192 2 comparator_i32_d2 x) main_v19
  let main_v21 : IVec S8x2048x32 32 := (extractStridedSlice S8x2048x32 ![0, 0, 0] · slices_S8x2048x8192_S8x2048x32_0_0_0) main_v20
  let main_v22 : IVec S8x2048x1 32 := (extractStridedSlice S8x2048x1 ![0, 0, 0] · slices_S8x2048x32_S8x2048x1_0_0_0) main_v21
  let main_c_3 : IVec S_ 32 := constantI S_ 32 8193#32
  let main_v23 : IVec S8x2048x32 32 := broadcastInDim S8x2048x32 ![] bcast_S_S8x2048x32 main_c_3
  let main_v24 : IVec S8x2048x32 1 := cmpi .eq main_v21 main_v23
  let main_v25 : IVec S8x2048x32 32 := broadcastInDim S8x2048x32 ![0, 1, 2] bcast_S8x2048x1_S8x2048x32_0_1_2 main_v22
  let main_v26 : IVec S8x2048x32 32 := select main_v24 main_v25 main_v21
  main_v26

/-- The "all entries finite" reduction of one float array: `|x| < +inf` at every index, folded by `and` from 1. -/
def allFinite {s : Shape} {axes : List (Fin s.rank)} (x : FVec Ideal s .f32)
    (hb : S_.BroadcastsInDim s (![] : Fin 0 → Fin s.rank)) (hr : s.ReducesTo axes S_) : IVec S_ 1 :=
  Host.reduce IntOp.andi
    (cmpf .olt (Host.absf x) (broadcastInDim s ![] hb (constant (F := Ideal) S_ .f32 0x7F800000#32)))
    (constantI S_ 1 1#1) hr h_S_

/-- The "all indices in range" reduction: `0 ≤ idx` and `idx < 8192` (signed) at every index, folded by `and`. -/
def allInRange (idx : IVec S8x2048x32 32) : IVec S_ 1 :=
  Host.reduce IntOp.andi
    (andi (cmpi .sge idx (broadcastInDim S8x2048x32 ![] bcast_S_S8x2048x32 (constantI S_ 32 0#32)))
      (cmpi .slt idx (broadcastInDim S8x2048x32 ![] bcast_S_S8x2048x32 (constantI S_ 32 8192#32))))
    (constantI S_ 1 1#1) reducesTo_S8x2048x32_S_d0_1_2 h_S_

/-- THE PRECONDITION'S VALUE is the conjunction of the three finiteness reductions and of the range reduction of
    `ballIdx`: both sides are the same chain of operations, by unfolding. -/
theorem fn_eq (x0 : FVec Ideal S8x8192x3 .f32) (x1 : FVec Ideal S8x2048x3 .f32) (x2 : FVec Ideal S8x64x8192 .f32) :
    Cert.Pre_finite_inputs.fn (F := Ideal) x0 x1 x2 =
      andi (andi (andi (allFinite x0 bcast_S_S8x8192x3 reducesTo_S8x8192x3_S_d0_1_2)
                       (allFinite x1 bcast_S_S8x2048x3 reducesTo_S8x2048x3_S_d0_1_2))
                 (allFinite x2 bcast_S_S8x64x8192 reducesTo_S8x64x8192_S_d0_1_2))
           (allInRange (ballIdx x0 x1)) := rfl

/-! ### Reading the conjunction back -/

/-- The result shape has one index. -/
instance : Subsingleton S_.Idx := ⟨fun a b => funext fun d => d.elim0⟩

theorem ofBool_eq_one (b : Bool) : BitVec.ofBool b = 1#1 ↔ b = true := by cases b <;> decide

/-- An extended real whose absolute value is below +inf is a real number: of the two infinities, the absolute
    value is +inf. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  unfold Ideal.cmp at h
  rw [ofBool_eq_one] at h
  have h' : max x (-x) < ⊤ := of_decide_eq_true h
  induction x using EReal.rec with
  | bot => simp at h'
  | coe r => exact ⟨r, rfl⟩
  | top => simp at h'

/-- A finiteness reduction that came out 1 says every entry is a real number. -/
theorem allFinite_real {s : Shape} {axes : List (Fin s.rank)} (x : FVec Ideal s .f32)
    (hb : S_.BroadcastsInDim s (![] : Fin 0 → Fin s.rank)) (hr : s.ReducesTo axes S_)
    (h : allFinite x hb hr ix0 = 1#1) (j : s.Idx) : ∃ r : ℝ, x j = (r : EReal) := by
  have e := Host.reduce_andi_all _ _ hr h_S_ ix0 h j
  exact real_of_abs_lt_top (x j) e

/-- A 32-bit word in [0, 8192) signed is below 8192 as a natural number. -/
theorem toNat_lt_of_toInt (w : BitVec 32) (h0 : (0#32 : BitVec 32).toInt ≤ w.toInt)
    (h1 : w.toInt < (8192#32 : BitVec 32).toInt) : w.toNat < 8192 := by
  have e0 : (0#32 : BitVec 32).toInt = 0 := by decide
  have e1 : (8192#32 : BitVec 32).toInt = 8192 := by decide
  rw [e0] at h0
  rw [e1] at h1
  have h32 := w.isLt
  rw [BitVec.toInt_eq_toNat_cond] at h0 h1
  split_ifs at h0 h1 <;> omega

/-- A range reduction that came out 1 says every index word is below 8192. -/
theorem allInRange_lt (idx : IVec S8x2048x32 32) (h : allInRange idx ix0 = 1#1) (j : S8x2048x32.Idx) :
    (idx j).toNat < 8192 := by
  have e := Host.reduce_andi_all _ _ reducesTo_S8x2048x32_S_d0_1_2 h_S_ ix0 h j
  have e' : IntOp.andi (IntOp.cmpi .sge (idx j) 0#32) (IntOp.cmpi .slt (idx j) 8192#32) = 1#1 := e
  obtain ⟨h0, h1⟩ := IntOp.andi_eq_one.1 e'
  rw [IntOp.cmpi_sge] at h0
  rw [IntOp.cmpi_slt] at h1
  exact toNat_lt_of_toInt (idx j) h0 h1

/-- THE PRECONDITION DECODED: where it holds, every entry of the three float arrays is a real number and every
    gathered index is inside the gathered axis. -/
theorem pre_decode (x0 : FVec Ideal S8x8192x3 .f32) (x1 : FVec Ideal S8x2048x3 .f32) (x2 : FVec Ideal S8x64x8192 .f32)
    (h : Cert.Pre_finite_inputs.fn (F := Ideal) x0 x1 x2 = fun _ => 1#1) :
    Cert.Grouped.AllReal x0 ∧ Cert.Grouped.AllReal x1 ∧ Cert.Grouped.AllReal x2
      ∧ Cert.Grouped.InRange (ballIdx x0 x1) := by
  have e := congrFun h ix0
  rw [fn_eq] at e
  have e' : IntOp.andi (IntOp.andi (IntOp.andi
        (allFinite x0 bcast_S_S8x8192x3 reducesTo_S8x8192x3_S_d0_1_2 ix0)
        (allFinite x1 bcast_S_S8x2048x3 reducesTo_S8x2048x3_S_d0_1_2 ix0))
        (allFinite x2 bcast_S_S8x64x8192 reducesTo_S8x64x8192_S_d0_1_2 ix0))
        (allInRange (ballIdx x0 x1) ix0) = 1#1 := e
  obtain ⟨h012, h3⟩ := IntOp.andi_eq_one.1 e'
  obtain ⟨h01, h2⟩ := IntOp.andi_eq_one.1 h012
  obtain ⟨h0, h1⟩ := IntOp.andi_eq_one.1 h01
  exact ⟨allFinite_real x0 _ _ h0, allFinite_real x1 _ _ h1, allFinite_real x2 _ _ h2, allInRange_lt _ h3⟩

attribute [irreducible] ballIdx

end Cert.PreFacts

end
-- ==== Proof.HostSide.lean ====
/-
  The host side of the kernel program: what the operations before the region leave in the arrays the region reads,
  and what the one operation after it makes of the region's result.

  Before the region the program computes the index chain (squared distances, the unit-ball mask, the masked point
  numbers sorted along the cloud axis, the first 32, every filler replaced by the first), flattens it to
  `[8, 1, 65536]`, transposes the cloud to `[8, 3, 8192]`, and transposes the queries, broadcasts them over the 32
  samples and flattens them to `[8, 3, 65536]` (position `L = 32 q + s`). After the region it reshapes the result
  `[8, 67, 65536]` to `[8, 67, 2048, 32]`. The contents after a line of operations are read stage by stage: the line
  is a concatenation of six stretches, and the contents after a concatenation are the contents after the second
  part started from the contents after the first.
-/
import proofs.«118025_j16346645529142_2_alg».proof.Proof.Gen.KernelIdeal.Frame
import proofs.«118025_j16346645529142_2_alg».proof.Proof.PreFacts
import proofs.«118025_j16346645529142_2_alg».proof.Proof.Grouped
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Idealize.ShloMosaic Idealize.ShloMosaic.TcCoe Idealize.ShloMosaic.StableHlo Idealize.ShloMosaic.ValueIdx
open Idealize.SL.Sem
open Cert.KernelIdeal Cert.KernelIdeal.Gen

/-- A buffer that no operation of a literal line writes keeps its contents: each operation writes its own result
    buffer only, a different reference. -/
macro "kept_tac" : tactic => `(tactic| (
  refine StableHlo.after_of_forall_not_mem _ _ (List.forall_iff_forall_mem.mp ?_)
  simp only [hostOps0, hostOps0_1, hostOps0_2, hostOps0_3, hostOps0_4, hostOps0_5, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (c : Dev nD)

/-- The contents when the region is entered, stage by stage. -/
theorem V0_stages :
    V0 m c = after hostOps0_5 (after hostOps0_4 (after hostOps0_3 (after hostOps0_2 (after hostOps0_1
      (after hostOps0 (fun b => m (c, b))))))) := by
  show after (hostOps0 ++ (hostOps0_1 ++ (hostOps0_2 ++ (hostOps0_3 ++ (hostOps0_4 ++ (hostOps0_5 ++ [])))))) _ = _
  rw [List.append_nil, StableHlo.after_append, StableHlo.after_append, StableHlo.after_append, StableHlo.after_append,
    StableHlo.after_append]

theorem kept0_main_arg0 (W : Valuation τ sig (Elt Ideal)) :
    after hostOps0 W (Proc.devRef .tc main_arg0) = W (Proc.devRef .tc main_arg0) := by kept_tac
theorem kept1_main_arg0 (W : Valuation τ sig (Elt Ideal)) :
    after hostOps0_1 W (Proc.devRef .tc main_arg0) = W (Proc.devRef .tc main_arg0) := by kept_tac
theorem kept2_main_arg0 (W : Valuation τ sig (Elt Ideal)) :
    after hostOps0_2 W (Proc.devRef .tc main_arg0) = W (Proc.devRef .tc main_arg0) := by kept_tac
theorem kept3_main_arg0 (W : Valuation τ sig (Elt Ideal)) :
    after hostOps0_3 W (Proc.devRef .tc main_arg0) = W (Proc.devRef .tc main_arg0) := by kept_tac
theorem kept4_main_arg0 (W : Valuation τ sig (Elt Ideal)) :
    after hostOps0_4 W (Proc.devRef .tc main_arg0) = W (Proc.devRef .tc main_arg0) := by kept_tac
theorem kept0_main_arg1 (W : Valuation τ sig (Elt Ideal)) :
    after hostOps0 W (Proc.devRef .tc main_arg1) = W (Proc.devRef .tc main_arg1) := by kept_tac
theorem kept1_main_arg1 (W : Valuation τ sig (Elt Ideal)) :
    after hostOps0_1 W (Proc.devRef .tc main_arg1) = W (Proc.devRef .tc main_arg1) := by kept_tac
theorem kept2_main_arg1 (W : Valuation τ sig (Elt Ideal)) :
    after hostOps0_2 W (Proc.devRef .tc main_arg1) = W (Proc.devRef .tc main_arg1) := by kept_tac
theorem kept3_main_arg1 (W : Valuation τ sig (Elt Ideal)) :
    after hostOps0_3 W (Proc.devRef .tc main_arg1) = W (Proc.devRef .tc main_arg1) := by kept_tac
theorem kept4_main_arg1 (W : Valuation τ sig (Elt Ideal)) :
    after hostOps0_4 W (Proc.devRef .tc main_arg1) = W (Proc.devRef .tc main_arg1) := by kept_tac

theorem stage5_v25 (W : Valuation τ sig (Elt Ideal)) :
    (after hostOps0_5 W (Proc.devRef .tc main_v25) : Vec Ideal S8x3x8192 .f32)
      = transpose S8x3x8192 [0, 2, 1] (W (Proc.devRef .tc main_arg0) : Vec Ideal S8x8192x3 .f32) transposes_S8x8192x3_S8x3x8192_0_2_1 := by
  after_results <;> rfl

theorem stage5_v28 (W : Valuation τ sig (Elt Ideal)) :
    (after hostOps0_5 W (Proc.devRef .tc main_v28) : Vec Ideal S8x3x65536 .f32)
      = shapeCast S8x3x65536 (broadcastInDim S8x3x2048x32 ![0, 1, 2] bcast_S8x3x2048_S8x3x2048x32_0_1_2
          (transpose S8x3x2048 [0, 2, 1] (W (Proc.devRef .tc main_arg1) : Vec Ideal S8x2048x3 .f32) transposes_S8x2048x3_S8x3x2048_0_2_1))
          shapeCasts_S8x3x2048x32_S8x3x65536 := by
  after_results <;> rfl

/-- The transposed cloud the region finds. -/
theorem cloud_apply (b : Fin 8) (ch : Fin 3) (p : Fin 8192) :
    (V m c main_v25 : Vec Ideal S8x3x8192 .f32) (ix3 b ch p)
      = (m ((c : Thread nD τ).loc main_arg0) : Vec Ideal S8x8192x3 .f32) (ix3 b p ch) := by
  show (V0 m c (Proc.devRef .tc main_v25) : Vec Ideal S8x3x8192 .f32) (ix3 b ch p) = _
  rw [V0_stages, stage5_v25, transpose_ix3_021_apply, kept4_main_arg0, kept3_main_arg0, kept2_main_arg0, kept1_main_arg0,
    kept0_main_arg0]

/-- The transposed queries, broadcast over the samples and flattened, as the region finds them. -/
theorem query_apply (b : Fin 8) (ch : Fin 3) (L : Fin 65536) :
    (V m c main_v28 : Vec Ideal S8x3x65536 .f32) (ix3 b ch L)
      = (m ((c : Thread nD τ).loc main_arg1) : Vec Ideal S8x2048x3 .f32)
          (ix3 b (⟨L.val / 32, by have := L.isLt; omega⟩ : Fin 2048) ch) := by
  show (V0 m c (Proc.devRef .tc main_v28) : Vec Ideal S8x3x65536 .f32) (ix3 b ch L) = _
  have hb : b.val < 8 := b.isLt
  have hc : ch.val < 3 := ch.isLt
  have hL : L.val < 65536 := L.isLt
  rw [V0_stages, stage5_v28,
    shapeCast_apply _ shapeCasts_S8x3x2048x32_S8x3x65536 (ix3 b ch L)
      (ix4 b ch (⟨L.val / 32, by omega⟩ : Fin 2048) (⟨L.val % 32, Nat.mod_lt _ (by norm_num)⟩ : Fin 32))
      (by rw [Shape.rowMajor_val_four, Shape.rowMajor_val_three]
          show ((b.val * 3 + ch.val) * 2048 + L.val / 32) * 32 + L.val % 32 = (b.val * 3 + ch.val) * 65536 + L.val
          omega),
    broadcastInDim_apply _ bcast_S8x3x2048_S8x3x2048x32_0_1_2 _ _ (ix3 b ch (⟨L.val / 32, by omega⟩ : Fin 2048))
      (fun a => match a with
        | ⟨0, _⟩ => by show b.val = if (8 : Nat) = 1 then 0 else b.val; rw [if_neg (by decide)]
        | ⟨1, _⟩ => by show ch.val = if (3 : Nat) = 1 then 0 else ch.val; rw [if_neg (by decide)]
        | ⟨2, _⟩ => by show L.val / 32 = if (2048 : Nat) = 1 then 0 else L.val / 32; rw [if_neg (by decide)]),
    transpose_ix3_021_apply, kept4_main_arg1, kept3_main_arg1, kept2_main_arg1, kept1_main_arg1, kept0_main_arg1]

/-! ## After the region -/

/-- The one host operation after the region reshapes the region's result array. -/
theorem tail_eq (dats : (p : Fin 1) → (c : Dev nD) → Pipeline.Dat τ (Elt Ideal) Unit ℕ (UR sig nD τ) ℕ (cfgs p) c) :
    (Pipeline.afterTail₀ cfgs dats 0 (V0 m) [hostOps1] c main_v30 : Vec Ideal S8x67x2048x32 .f32)
      = shapeCast S8x67x2048x32 ((dats 0 c).arrAt 4 cfg0.N : Vec Ideal S8x67x65536 .f32) shapeCasts_S8x67x65536_S8x67x2048x32 := by
  unfold Pipeline.afterTail₀
  show (StableHlo.after hostOps1 _ (Proc.devRef .tc main_v30)) = _
  after_results
  have e : Pipeline.withArrays (cfgs 0).spec c (V0 m c) (fun w => (dats 0 c).arrAt w (cfgs 0).N) (Proc.devRef .tc main_v29)
      = (dats 0 c).arrAt 4 (cfgs 0).N :=
    Pipeline.withArrays_arr spec0 launch0.win.arr_inj c (V0 m c) (fun w => (dats 0 c).arrAt w (cfgs 0).N) 4
  rw [e]
  rfl

/-- Read at an index: result element `(b, ch, q, s)` is the region's result at `(b, ch, 32 q + s)`. -/
theorem tail_apply (dats : (p : Fin 1) → (c : Dev nD) → Pipeline.Dat τ (Elt Ideal) Unit ℕ (UR sig nD τ) ℕ (cfgs p) c)
    (b : Fin 8) (ch : Fin 67) (q : Fin 2048) (s : Fin 32) :
    (Pipeline.afterTail₀ cfgs dats 0 (V0 m) [hostOps1] c main_v30 : Vec Ideal S8x67x2048x32 .f32) (ix4 b ch q s)
      = ((dats 0 c).arrAt 4 cfg0.N : Vec Ideal S8x67x65536 .f32)
          (ix3 b ch (⟨q.val * 32 + s.val, by have := q.isLt; have := s.isLt; omega⟩ : Fin 65536)) := by
  have hb : b.val < 8 := b.isLt
  have hc : ch.val < 67 := ch.isLt
  have hq : q.val < 2048 := q.isLt
  have hs : s.val < 32 := s.isLt
  rw [tail_eq m c dats]
  exact shapeCast_apply _ shapeCasts_S8x67x65536_S8x67x2048x32 (ix4 b ch q s)
    (ix3 b ch (⟨q.val * 32 + s.val, by omega⟩ : Fin 65536))
    (by rw [Shape.rowMajor_val_three, Shape.rowMajor_val_four]
        show (b.val * 67 + ch.val) * 65536 + (q.val * 32 + s.val) = ((b.val * 67 + ch.val) * 2048 + q.val) * 32 + s.val
        omega)

/-! ## The index chain: the words the region finds -/

/-- The unit-ball mask `[8, 2048, 8192]`: squared distance `|q|² + |p|² − 2 q·p` below one. -/
def ballMask (x0 : FVec Ideal S8x8192x3 .f32) (x1 : FVec Ideal S8x2048x3 .f32) : IVec S8x2048x8192 1 :=
  cmpf .olt
    (subf
      (addf
        (broadcastInDim S8x2048x8192 ![0, 1, 2] bcast_S8x2048x1_S8x2048x8192_0_1_2
          (broadcastInDim S8x2048x1 ![0, 1] bcast_S8x2048_S8x2048x1_0_1
            (Host.reduceAdd (mulf x1 x1) (constant (F := Ideal) S_ .f32 0x00000000#32) reducesTo_S8x2048x3_S8x2048_d2 h_S_)))
        (broadcastInDim S8x2048x8192 ![0, 1, 2] bcast_S8x1x8192_S8x2048x8192_0_1_2
          (broadcastInDim S8x1x8192 ![0, 2] bcast_S8x8192_S8x1x8192_0_2
            (Host.reduceAdd (mulf x0 x0) (constant (F := Ideal) S_ .f32 0x00000000#32) reducesTo_S8x8192x3_S8x8192_d2 h_S_))))
      (mulf
        (broadcastInDim S8x2048x8192 ![] bcast_S_S8x2048x8192 (constant (F := Ideal) S_ .f32 0x40000000#32))
        (Host.dotGeneral dot_S8x2048x3_S8x8192x3_S8x2048x8192_2_2_1_1_0_0 none x1 x0)))
    (broadcastInDim S8x2048x8192 ![] bcast_S_S8x2048x8192 (constant (F := Ideal) S_ .f32 0x3F800000#32))

/-- The point numbers under the mask, 8193 elsewhere. -/
def masked (x0 : FVec Ideal S8x8192x3 .f32) (x1 : FVec Ideal S8x2048x3 .f32) : IVec S8x2048x8192 32 :=
  select (ballMask x0 x1)
    (broadcastInDim S8x2048x8192 ![0, 1, 2] bcast_S1x1x8192_S8x2048x8192_0_1_2
      (broadcastInDim S1x1x8192 ![2] bcast_S8192_S1x1x8192_2 (iotaInDim S8192 32 0)))
    (broadcastInDim S8x2048x8192 ![] bcast_S_S8x2048x8192 (constantI S_ 32 8193#32))

/-- The first 32 of them in ascending order along the cloud axis. -/
def firsts (x0 : FVec Ideal S8x8192x3 .f32) (x1 : FVec Ideal S8x2048x3 .f32) : IVec S8x2048x32 32 :=
  extractStridedSlice S8x2048x32 ![0, 0, 0] (Host.sort S8x2048x8192 2 comparator_i32_d2 (masked x0 x1))
    slices_S8x2048x8192_S8x2048x32_0_0_0

/-- Those with every 8193 replaced by the first. -/
def words (x0 : FVec Ideal S8x8192x3 .f32) (x1 : FVec Ideal S8x2048x3 .f32) : IVec S8x2048x32 32 :=
  select (cmpi .eq (firsts x0 x1) (broadcastInDim S8x2048x32 ![] bcast_S_S8x2048x32 (constantI S_ 32 8193#32)))
    (broadcastInDim S8x2048x32 ![0, 1, 2] bcast_S8x2048x1_S8x2048x32_0_1_2
      (extractStridedSlice S8x2048x1 ![0, 0, 0] (firsts x0 x1) slices_S8x2048x32_S8x2048x1_0_0_0))
    (firsts x0 x1)

theorem stage0_v14 (W : Valuation τ sig (Elt Ideal)) :
    (after hostOps0 W (Proc.devRef .tc main_v14) : IVec S8x2048x8192 1)
      = ballMask (W (Proc.devRef .tc main_arg0)) (W (Proc.devRef .tc main_arg1)) := by
  after_results <;> rfl

theorem stage0_v16 (W : Valuation τ sig (Elt Ideal)) :
    (after hostOps0 W (Proc.devRef .tc main_v16) : IVec S1x1x8192 32)
      = broadcastInDim S1x1x8192 ![2] bcast_S8192_S1x1x8192_2 (iotaInDim S8192 32 0) := by
  after_results <;> rfl

theorem stage0_c (W : Valuation τ sig (Elt Ideal)) :
    (after hostOps0 W (Proc.devRef .tc main_c) : IVec S_ 32) = constantI S_ 32 8193#32 := by
  after_results <;> rfl

theorem stage1_v17 (W : Valuation τ sig (Elt Ideal)) :
    (after hostOps0_1 W (Proc.devRef .tc main_v17) : IVec S8x2048x8192 32)
      = select (W (Proc.devRef .tc main_v14) : IVec S8x2048x8192 1)
          (broadcastInDim S8x2048x8192 ![0, 1, 2] bcast_S1x1x8192_S8x2048x8192_0_1_2 (W (Proc.devRef .tc main_v16) : IVec S1x1x8192 32))
          (broadcastInDim S8x2048x8192 ![] bcast_S_S8x2048x8192 (W (Proc.devRef .tc main_c) : IVec S_ 32)) := by
  after_results <;> rfl

theorem stage2_v18 (W : Valuation τ sig (Elt Ideal)) :
    (after hostOps0_2 W (Proc.devRef .tc main_v18) : IVec S8x2048x8192 32)
      = Host.sort S8x2048x8192 2 comparator_i32_d2 (W (Proc.devRef .tc main_v17) : IVec S8x2048x8192 32) := by
  after_results <;> rfl

theorem stage3_v19 (W : Valuation τ sig (Elt Ideal)) :
    (after hostOps0_3 W (Proc.devRef .tc main_v19) : IVec S8x2048x32 32)
      = extractStridedSlice S8x2048x32 ![0, 0, 0] (W (Proc.devRef .tc main_v18) : IVec S8x2048x8192 32)
          slices_S8x2048x8192_S8x2048x32_0_0_0 := by
  after_results <;> rfl

theorem stage3_v20 (W : Valuation τ sig (Elt Ideal)) :
    (after hostOps0_3 W (Proc.devRef .tc main_v20) : IVec S8x2048x1 32)
      = extractStridedSlice S8x2048x1 ![0, 0, 0]
          (extractStridedSlice S8x2048x32 ![0, 0, 0] (W (Proc.devRef .tc main_v18) : IVec S8x2048x8192 32)
            slices_S8x2048x8192_S8x2048x32_0_0_0)
          slices_S8x2048x32_S8x2048x1_0_0_0 := by
  after_results <;> rfl

theorem stage3_v22 (W : Valuation τ sig (Elt Ideal)) :
    (after hostOps0_3 W (Proc.devRef .tc main_v22) : IVec S8x2048x32 1)
      = cmpi .eq
          (extractStridedSlice S8x2048x32 ![0, 0, 0] (W (Proc.devRef .tc main_v18) : IVec S8x2048x8192 32)
            slices_S8x2048x8192_S8x2048x32_0_0_0)
          (broadcastInDim S8x2048x32 ![] bcast_S_S8x2048x32 (constantI S_ 32 8193#32)) := by
  after_results <;> rfl

theorem stage4_v23 (W : Valuation τ sig (Elt Ideal)) :
    (after hostOps0_4 W (Proc.devRef .tc main_v23) : IVec S8x2048x32 32)
      = select (W (Proc.devRef .tc main_v22) : IVec S8x2048x32 1)
          (broadcastInDim S8x2048x32 ![0, 1, 2] bcast_S8x2048x1_S8x2048x32_0_1_2 (W (Proc.devRef .tc main_v20) : IVec S8x2048x1 32))
          (W (Proc.devRef .tc main_v19) : IVec S8x2048x32 32) := by
  after_results <;> rfl

theorem stage5_v24 (W : Valuation τ sig (Elt Ideal)) :
    (after hostOps0_5 W (Proc.devRef .tc main_v24) : IVec S8x1x65536 32)
      = shapeCast S8x1x65536 (W (Proc.devRef .tc main_v23) : IVec S8x2048x32 32) shapeCasts_S8x2048x32_S8x1x65536 := by
  after_results <;> rfl

/-- The four definitions above are the precondition's index chain, operation for operation. -/
theorem words_eq_ballIdx [Cert.Pre_finite_inputs.Facts] (x0 : FVec Ideal S8x8192x3 .f32) (x1 : FVec Ideal S8x2048x3 .f32) :
    words x0 x1 = Cert.PreFacts.ballIdx x0 x1 := by
  unfold Cert.PreFacts.ballIdx words firsts masked ballMask
  rfl

/-- The index array the region finds is the index chain of the arguments, flattened to `[8, 1, 65536]`. -/
theorem words_eq :
    (V m c main_v24 : IVec S8x1x65536 32)
      = shapeCast S8x1x65536
          (words (m ((c : Thread nD τ).loc main_arg0)) (m ((c : Thread nD τ).loc main_arg1)))
          shapeCasts_S8x2048x32_S8x1x65536 := by
  show (V0 m c (Proc.devRef .tc main_v24) : IVec S8x1x65536 32) = _
  rw [V0_stages, stage5_v24, stage4_v23, stage3_v22, stage3_v20, stage3_v19, stage2_v18, stage1_v17, stage0_v14, stage0_v16,
    stage0_c]
  rfl

/-- Read at an index: flat position `L` holds the precondition's index word at `(b, L / 32, L % 32)`. -/
theorem words_apply [Cert.Pre_finite_inputs.Facts] (b : Fin 8) (L : Fin 65536) :
    (V m c main_v24 : IVec S8x1x65536 32) (ix3 b (0 : Fin 1) L)
      = Cert.PreFacts.ballIdx (m ((c : Thread nD τ).loc main_arg0)) (m ((c : Thread nD τ).loc main_arg1))
          (ix3 b (⟨L.val / 32, by have := L.isLt; omega⟩ : Fin 2048) (⟨L.val % 32, Nat.mod_lt _ (by norm_num)⟩ : Fin 32)) := by
  have hb : b.val < 8 := b.isLt
  have hL : L.val < 65536 := L.isLt
  rw [words_eq m c, ← words_eq_ballIdx]
  exact shapeCast_apply _ shapeCasts_S8x2048x32_S8x1x65536 (ix3 b (0 : Fin 1) L)
    (ix3 b (⟨L.val / 32, by omega⟩ : Fin 2048) (⟨L.val % 32, Nat.mod_lt _ (by norm_num)⟩ : Fin 32))
    (by rw [Shape.rowMajor_val_three, Shape.rowMajor_val_three]
        show (b.val * 2048 + L.val / 32) * 32 + L.val % 32 = (b.val * 1 + 0) * 65536 + L.val
        omega)

end Cert.KernelIdeal.HostSide

end
-- ==== Proof.Whole.lean ====
/-
  The idealized kernel's run, read: its result is the grouped array.

  The region finds the cloud transposed, the queries transposed and repeated along the samples, the index words
  flattened, the features as launched; after the region the [8, 67, 65536] array is reshaped to [8, 67, 2048, 32].
  Through these layouts the region's whole-array result is the specification's `grouped` of the three arguments and of
  the ball-query index array — the same array the precondition bounds, so that the table is real-valued and the
  index words are in range whenever the precondition holds.
-/
import proofs.«118025_j16346645529142_2_alg».proof.Proof.Output
import proofs.«118025_j16346645529142_2_alg».proof.Proof.HostSide
import proofs.«118025_j16346645529142_2_alg».proof.Proof.PreFacts
import proofs.«118025_j16346645529142_2_alg».proof.Proof.Gen.Pre_finite_inputs

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.KernelIdeal.Accum Cert.KernelIdeal.Output
  Cert.KernelIdeal.HostSide Cert.Grouped Cert.PreFacts

variable (m : (ℓ : Loc nD τ sig) → Buf (Elt Ideal) ℓ) (ρ : Dev nD → PrngReg) (c : Dev nD)

/-- The three arguments as launched on core `c`. -/
abbrev cloud : SCloud.Idx → EReal := m ((c : Thread nD τ).loc main_arg0)
abbrev query : SQuery.Idx → EReal := m ((c : Thread nD τ).loc main_arg1)
abbrev feat : SFeat.Idx → EReal := m ((c : Thread nD τ).loc main_arg2)

/-- Real-valued arguments and in-range indices make the table real-valued and the index words in range. -/
theorem good (h0 : AllReal (cloud m c)) (h2 : AllReal (feat m c)) (hin : InRange (ballIdx (cloud m c) (query m c))) :
    Good m c where
  real b ch p := by
    unfold table
    by_cases h : ch.val < 3
    · rw [dif_pos h, cloud_apply m c b _ p]; exact h0 _
    · rw [dif_neg h]
      have e : (V m c main_arg2 : Vec Ideal S8x64x8192 .f32) = feat m c := V_main_arg2 m c
      rw [e]; exact h2 _
  range n l := by
    unfold word
    rw [words_apply m c (bat n) (col n l)]
    exact hin _

/-- The region's whole-array result, at the column of query `q` and sample `s`, is the grouped array at (b, ch, q, s). -/
theorem result_eq (j : SOut.Idx) (L : Fin 65536) (hL : L.val = (j 2).val * 32 + (j 3).val) :
    result m c (ix3 (j 0) (j 1) L) = grouped (cloud m c) (query m c) (feat m c) (ballIdx (cloud m c) (query m c)) j := by
  have h2 : (j 2).val < 2048 := (j 2).isLt
  have h3 : (j 3).val < 32 := (j 3).isLt
  have hq : (⟨L.val / 32, by have := L.isLt; omega⟩ : Fin 2048) = j 2 := Fin.ext (by show L.val / 32 = (j 2).val; omega)
  have hs : (⟨L.val % 32, Nat.mod_lt _ (by norm_num)⟩ : Fin 32) = j 3 := Fin.ext (by show L.val % 32 = (j 3).val; omega)
  have hw : (V m c main_v24 : Vec Ideal S8x1x65536 .i32) (ix3 (j 0) (0 : Fin 1) L) = ballIdx (cloud m c) (query m c) (ix3 (j 0) (j 2) (j 3)) := by
    rw [words_apply m c (j 0) L, hq, hs]
  unfold result grouped table
  show dite ((j 1).val < 3) _ _ = dite ((j 1).val < 3) _ _
  by_cases h : (j 1).val < 3
  · rw [dif_pos h, dif_pos h, dif_pos h, hw, cloud_apply m c (j 0) _ _, query_apply m c (j 0) _ L, hq]
  · rw [dif_neg h, dif_neg h, dif_neg h, hw]
    have e : (V m c main_arg2 : Vec Ideal S8x64x8192 .f32) = feat m c := V_main_arg2 m c
    rw [e]

/-- The kernel's result buffer after the run. -/
theorem value (hg : Good m c) :
    (Pipeline.afterTail₀ cfgs (dats m) 0 (V0 m) [hostOps1] c main_v30 : SOut.Idx → EReal)
      = grouped (cloud m c) (query m c) (feat m c) (ballIdx (cloud m c) (query m c)) := by
  refine funext fun (j : SOut.Idx) => ?_
  have h2 : (j 2).val < 2048 := (j 2).isLt
  have h3 : (j 3).val < 32 := (j 3).isLt
  have hlt : (j 2).val * 32 + (j 3).val < 65536 := by omega
  refine (congrArg (Pipeline.afterTail₀ cfgs (dats m) 0 (V0 m) [hostOps1] c main_v30 : SOut.Idx → EReal) (eq_ix4 j)).trans ?_
  refine (tail_apply m c (dats m) (j 0) (j 1) (j 2) (j 3)).trans ?_
  rw [final m c hg]
  exact result_eq m c j ⟨(j 2).val * 32 + (j 3).val, hlt⟩ rfl

/-- THE RUN, read: every weakly fair execution terminates with the result at the grouped array and the arguments
    unchanged, whenever the table is real-valued and the index words are in range on every core. -/
theorem run (hg : ∀ c, Good m c) :
    θ_run defs (onTc (τ := τ) (main (F := Ideal))) ⟨m, fun _ => 0, ρ⟩ fun r => ∀ c : Dev nD,
      r.2.mem ((c.tc : Thread nD τ).loc main_v30) = grouped (cloud m c) (query m c) (feat m c) (ballIdx (cloud m c) (query m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v30 (Pipeline.mem_restRefs_of main_v30 (by decide) (by decide))).trans (value m c (hg c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Whole

end
-- ==== Proof.RefRunAlt.lean ====
/-
  The reference program's run, read stage by stage.

  The reference is one line of 89 host operations. The contents after a line that is two lines one after the other
  are the contents after the second started from the contents after the first, so the line is cut into nine
  stretches — the distances, mask and point numbers; the sort and the index array; for each gather its normalised
  indices, their reshape to start indices and the gather itself (the first with its recentring); the concatenation — and each stretch is read from ARBITRARY starting contents that
  hold what it needs (the arguments, the index array, the two gathered arrays). The stretches' results are the
  stage functions of the arguments, and the argument buffers are written by no operation.
-/
import proofs.«118025_j16346645529142_2_alg».proof.Proof.RefRunP
import proofs.«118025_j16346645529142_2_alg».proof.Proof.RefReadP
import Idealize.ShloMosaic.Lib.StableHlo.Run

noncomputable section

namespace Cert.RefRunAlt

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

section Lists
variable {F : FTy → Type} [FloatOps F]

/-- The distances, the mask, the point numbers and the filler: 22 operations. -/
abbrev opsA : List (HloOp τ sig (Elt F)) :=
  [ binary main_arg1 main_arg1 main_v0 (mulf : (⟨S8x2048x3, .f32⟩ : BufTy).Contents (Elt F) → (⟨S8x2048x3, .f32⟩ : BufTy).Contents (Elt F) → (⟨S8x2048x3, .f32⟩ : BufTy).Contents (Elt F)),
    nullary main_cst (constant S_ .f32 0x00000000#32),
    binary main_v0 main_cst main_v1 ((fun x v => Host.reduceAdd x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    binary main_arg0 main_arg0 main_v2 (mulf : (⟨S8x8192x3, .f32⟩ : BufTy).Contents (Elt F) → (⟨S8x8192x3, .f32⟩ : BufTy).Contents (Elt F) → (⟨S8x8192x3, .f32⟩ : BufTy).Contents (Elt F)),
    nullary main_cst_0 (constant S_ .f32 0x00000000#32),
    binary main_v2 main_cst_0 main_v3 ((fun x v => Host.reduceAdd x v reducesTo_S8x8192x3_S8x8192_d2 h_S_) : (⟨S8x8192x3, .f32⟩ : BufTy).Contents (Elt F) → (⟨S_, .f32⟩ : BufTy).Contents (Elt F) → (⟨S8x8192, .f32⟩ : BufTy).Contents (Elt F)),
    binary main_arg1 main_arg0 main_v4 ((fun l r => Host.dotGeneral dot_S8x2048x3_S8x8192x3_S8x2048x8192_2_2_1_1_0_0 none l r) : (⟨S8x2048x3, .f32⟩ : BufTy).Contents (Elt F) → (⟨S8x8192x3, .f32⟩ : BufTy).Contents (Elt F) → (⟨S8x2048x8192, .f32⟩ : BufTy).Contents (Elt F)),
    unary main_v1 main_v5 (broadcastInDim S8x2048x1 ![0, 1] bcast_S8x2048_S8x2048x1_0_1 : (⟨S8x2048, .f32⟩ : BufTy).Contents (Elt F) → (⟨S8x2048x1, .f32⟩ : BufTy).Contents (Elt F)),
    unary main_v3 main_v6 (broadcastInDim S8x1x8192 ![0, 2] bcast_S8x8192_S8x1x8192_0_2 : (⟨S8x8192, .f32⟩ : BufTy).Contents (Elt F) → (⟨S8x1x8192, .f32⟩ : BufTy).Contents (Elt F)),
    unary main_v5 main_v7 (broadcastInDim S8x2048x8192 ![0, 1, 2] bcast_S8x2048x1_S8x2048x8192_0_1_2 : (⟨S8x2048x1, .f32⟩ : BufTy).Contents (Elt F) → (⟨S8x2048x8192, .f32⟩ : BufTy).Contents (Elt F)),
    unary main_v6 main_v8 (broadcastInDim S8x2048x8192 ![0, 1, 2] bcast_S8x1x8192_S8x2048x8192_0_1_2 : (⟨S8x1x8192, .f32⟩ : BufTy).Contents (Elt F) → (⟨S8x2048x8192, .f32⟩ : BufTy).Contents (Elt F)),
    binary main_v7 main_v8 main_v9 (addf : (⟨S8x2048x8192, .f32⟩ : BufTy).Contents (Elt F) → (⟨S8x2048x8192, .f32⟩ : BufTy).Contents (Elt F) → (⟨S8x2048x8192, .f32⟩ : BufTy).Contents (Elt F)),
    nullary main_cst_1 (constant S_ .f32 0x40000000#32),
    unary main_cst_1 main_v10 (broadcastInDim S8x2048x8192 ![] bcast_S_S8x2048x8192 : (⟨S_, .f32⟩ : BufTy).Contents (Elt F) → (⟨S8x2048x8192, .f32⟩ : BufTy).Contents (Elt F)),
    binary main_v10 main_v4 main_v11 (mulf : (⟨S8x2048x8192, .f32⟩ : BufTy).Contents (Elt F) → (⟨S8x2048x8192, .f32⟩ : BufTy).Contents (Elt F) → (⟨S8x2048x8192, .f32⟩ : BufTy).Contents (Elt F)),
    binary main_v9 main_v11 main_v12 (subf : (⟨S8x2048x8192, .f32⟩ : BufTy).Contents (Elt F) → (⟨S8x2048x8192, .f32⟩ : BufTy).Contents (Elt F) → (⟨S8x2048x8192, .f32⟩ : BufTy).Contents (Elt F)),
    nullary main_cst_2 (constant S_ .f32 0x3F800000#32),
    unary main_cst_2 main_v13 (broadcastInDim S8x2048x8192 ![] bcast_S_S8x2048x8192 : (⟨S_, .f32⟩ : BufTy).Contents (Elt F) → (⟨S8x2048x8192, .f32⟩ : BufTy).Contents (Elt F)),
    binary main_v12 main_v13 main_v14 (cmpf .olt : (⟨S8x2048x8192, .f32⟩ : BufTy).Contents (Elt F) → (⟨S8x2048x8192, .f32⟩ : BufTy).Contents (Elt F) → (⟨S8x2048x8192, .i1⟩ : BufTy).Contents (Elt F)),
    nullary main_v15 (iotaInDim S8192 32 0),
    unary main_v15 main_v16 (broadcastInDim S1x1x8192 ![2] bcast_S8192_S1x1x8192_2 : (⟨S8192, .i32⟩ : BufTy).Contents (Elt F) → (⟨S1x1x8192, .i32⟩ : BufTy).Contents (Elt F)),
    nullary main_c (constantI S_ 32 8193#32) ]
/-- The masked point numbers sorted, the first 32, the fillers replaced: 11 operations, to the index array. -/
abbrev opsB : List (HloOp τ sig (Elt F)) :=
  [ TRef.unary (TRef.of (T := ⟨S1x1x8192, .i32⟩) main_v16) (TRef.of (T := ⟨S8x2048x8192, .i32⟩) main_call0_v0) (broadcastInDim S8x2048x8192 ![0, 1, 2] bcast_S1x1x8192_S8x2048x8192_0_1_2),
    TRef.unary (TRef.of (T := ⟨S_, .i32⟩) main_c) (TRef.of (T := ⟨S8x2048x8192, .i32⟩) main_call0_v1) (broadcastInDim S8x2048x8192 ![] bcast_S_S8x2048x8192),
    TRef.ternary (TRef.of (T := ⟨S8x2048x8192, .i1⟩) main_v14) (TRef.of (T := ⟨S8x2048x8192, .i32⟩) main_call0_v0) (TRef.of (T := ⟨S8x2048x8192, .i32⟩) main_call0_v1) (TRef.of (T := ⟨S8x2048x8192, .i32⟩) main_v17) select,
    TRef.unary (TRef.of (T := ⟨S8x2048x8192, .i32⟩) main_v17) (TRef.of (T := ⟨S8x2048x8192, .i32⟩) main_v18) (fun x => Host.sort S8x2048x8192 2 comparator_i32_d2 x),
    unary main_v18 main_v19 ((extractStridedSlice S8x2048x32 ![0, 0, 0] · slices_S8x2048x8192_S8x2048x32_0_0_0) : (⟨S8x2048x8192, .i32⟩ : BufTy).Contents (Elt F) → (⟨S8x2048x32, .i32⟩ : BufTy).Contents (Elt F)),
    unary main_v19 main_v20 ((extractStridedSlice S8x2048x1 ![0, 0, 0] · slices_S8x2048x32_S8x2048x1_0_0_0) : (⟨S8x2048x32, .i32⟩ : BufTy).Contents (Elt F) → (⟨S8x2048x1, .i32⟩ : BufTy).Contents (Elt F)),
    nullary main_c_3 (constantI S_ 32 8193#32),
    unary main_c_3 main_v21 (broadcastInDim S8x2048x32 ![] bcast_S_S8x2048x32 : (⟨S_, .i32⟩ : BufTy).Contents (Elt F) → (⟨S8x2048x32, .i32⟩ : BufTy).Contents (Elt F)),
    binary main_v19 main_v21 main_v22 (cmpi .eq : (⟨S8x2048x32, .i32⟩ : BufTy).Contents (Elt F) → (⟨S8x2048x32, .i32⟩ : BufTy).Contents (Elt F) → (⟨S8x2048x32, .i1⟩ : BufTy).Contents (Elt F)),
    TRef.unary (TRef.of (T := ⟨S8x2048x1, .i32⟩) main_v20) (TRef.of (T := ⟨S8x2048x32, .i32⟩) main_call2_v0) (broadcastInDim S8x2048x32 ![0, 1, 2] bcast_S8x2048x1_S8x2048x32_0_1_2),
    TRef.ternary (TRef.of (T := ⟨S8x2048x32, .i1⟩) main_v22) (TRef.of (T := ⟨S8x2048x32, .i32⟩) main_call2_v0) (TRef.of (T := ⟨S8x2048x32, .i32⟩) main_v19) (TRef.of (T := ⟨S8x2048x32, .i32⟩) main_v23) select ]
/-- The transposed cloud, and the normalised indices of the first gather: 10 operations. -/
abbrev opsC1 : List (HloOp τ sig (Elt F)) :=
  [ unary main_arg0 main_v24 ((transpose S8x3x8192 [0, 2, 1] · transposes_S8x8192x3_S8x3x8192_0_2_1) : (⟨S8x8192x3, .f32⟩ : BufTy).Contents (Elt F) → (⟨S8x3x8192, .f32⟩ : BufTy).Contents (Elt F)),
    reshape main_v23 main_v25 rfl shapeCasts_S8x2048x32_S8x1x65536,
    unary main_v25 main_v26 (broadcastInDim S8x3x65536 ![0, 1, 2] bcast_S8x1x65536_S8x3x65536_0_1_2 : (⟨S8x1x65536, .i32⟩ : BufTy).Contents (Elt F) → (⟨S8x3x65536, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8x3x65536, .i32⟩) main_call3_v0) (broadcastInDim S8x3x65536 ![] bcast_S_S8x3x65536),
    TRef.binary (TRef.of (T := ⟨S8x3x65536, .i32⟩) main_v26) (TRef.of (T := ⟨S8x3x65536, .i32⟩) main_call3_v0) (TRef.of (T := ⟨S8x3x65536, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S8x3x65536, .i32⟩) main_call3_v2) (broadcastInDim S8x3x65536 ![] bcast_S_S8x3x65536),
    TRef.binary (TRef.of (T := ⟨S8x3x65536, .i32⟩) main_v26) (TRef.of (T := ⟨S8x3x65536, .i32⟩) main_call3_v2) (TRef.of (T := ⟨S8x3x65536, .i32⟩) main_call3_v3) addi,
    TRef.ternary (TRef.of (T := ⟨S8x3x65536, .i1⟩) main_call3_v1) (TRef.of (T := ⟨S8x3x65536, .i32⟩) main_call3_v3) (TRef.of (T := ⟨S8x3x65536, .i32⟩) main_v26) (TRef.of (T := ⟨S8x3x65536, .i32⟩) main_call3_v4) select ]
/-- Their reshape to start indices. -/
abbrev opsR1 : List (HloOp τ sig (Elt F)) :=
  [ TRef.reshape (TRef.of (T := ⟨S8x3x65536, .i32⟩) main_call3_v4) (TRef.of (T := ⟨S8x3x65536x1, .i32⟩) main_call3_v5) rfl shapeCasts_S8x3x65536_S8x3x65536x1 ]
/-- The bounds test, the gather, the select, and the recentring: 19 operations. -/
abbrev opsC2 : List (HloOp τ sig (Elt F)) :=
  [ TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S8x3x65536x1, .i32⟩) main_call3_v6) (broadcastInDim S8x3x65536x1 ![] bcast_S_S8x3x65536x1),
    TRef.binary (TRef.of (T := ⟨S8x3x65536x1, .i32⟩) main_call3_v5) (TRef.of (T := ⟨S8x3x65536x1, .i32⟩) main_call3_v6) (TRef.of (T := ⟨S8x3x65536x1, .i1⟩) main_call3_v7) (cmpi .sge),
    TRef.unary (TRef.of (T := ⟨S1, .i32⟩) main_call3_c_1) (TRef.of (T := ⟨S1x1x1x1, .i32⟩) main_call3_v8) (broadcastInDim S1x1x1x1 ![3] bcast_S1_S1x1x1x1_3),
    TRef.unary (TRef.of (T := ⟨S1x1x1x1, .i32⟩) main_call3_v8) (TRef.of (T := ⟨S8x3x65536x1, .i32⟩) main_call3_v9) (broadcastInDim S8x3x65536x1 ![0, 1, 2, 3] bcast_S1x1x1x1_S8x3x65536x1_0_1_2_3),
    TRef.binary (TRef.of (T := ⟨S8x3x65536x1, .i32⟩) main_call3_v5) (TRef.of (T := ⟨S8x3x65536x1, .i32⟩) main_call3_v9) (TRef.of (T := ⟨S8x3x65536x1, .i1⟩) main_call3_v10) (cmpi .sle),
    TRef.binary (TRef.of (T := ⟨S8x3x65536x1, .i1⟩) main_call3_v7) (TRef.of (T := ⟨S8x3x65536x1, .i1⟩) main_call3_v10) (TRef.of (T := ⟨S8x3x65536x1, .i1⟩) main_call3_v11) andi,
    TRef.nullary (TRef.of (T := ⟨S_, .i1⟩) main_call3_c_3) (constantI S_ 1 1#1),
    TRef.binary (TRef.of (T := ⟨S8x3x65536x1, .i1⟩) main_call3_v11) (TRef.of (T := ⟨S_, .i1⟩) main_call3_c_3) (TRef.of (T := ⟨S8x3x65536, .i1⟩) main_call3_v12) (fun x v => Host.reduce IntOp.andi x v reducesTo_S8x3x65536x1_S8x3x65536_d3 h_S_),
    TRef.binary (TRef.of (T := ⟨S8x3x8192, .f32⟩) main_v24) (TRef.of (T := ⟨S8x3x65536x1, .i32⟩) main_call3_v5) (TRef.of (T := ⟨S8x3x65536, .f32⟩) main_call3_v13) (fun x i => Host.gather gather_S8x3x8192_S8x3x65536x1_S8x3x65536_n_2_01_01_2_3_111 x i),
    TRef.nullary (TRef.of (T := ⟨S_, .f32⟩) main_call3_cst) (constant S_ .f32 0x7FC00000#32),
    TRef.unary (TRef.of (T := ⟨S_, .f32⟩) main_call3_cst) (TRef.of (T := ⟨S8x3x65536, .f32⟩) main_call3_v14) (broadcastInDim S8x3x65536 ![] bcast_S_S8x3x65536),
    TRef.ternary (TRef.of (T := ⟨S8x3x65536, .i1⟩) main_call3_v12) (TRef.of (T := ⟨S8x3x65536, .f32⟩) main_call3_v13) (TRef.of (T := ⟨S8x3x65536, .f32⟩) main_call3_v14) (TRef.of (T := ⟨S8x3x65536, .f32⟩) main_v27) select,
    reshape main_v27 main_v28 rfl shapeCasts_S8x3x65536_S8x3x2048x32,
    unary main_arg1 main_v29 ((transpose S8x3x2048 [0, 2, 1] · transposes_S8x2048x3_S8x3x2048_0_2_1) : (⟨S8x2048x3, .f32⟩ : BufTy).Contents (Elt F) → (⟨S8x3x2048, .f32⟩ : BufTy).Contents (Elt F)),
    unary main_v29 main_v30 (broadcastInDim S8x3x2048x1 ![0, 1, 2] bcast_S8x3x2048_S8x3x2048x1_0_1_2 : (⟨S8x3x2048, .f32⟩ : BufTy).Contents (Elt F) → (⟨S8x3x2048x1, .f32⟩ : BufTy).Contents (Elt F)),
    unary main_v30 main_v31 (broadcastInDim S8x3x2048x32 ![0, 1, 2, 3] bcast_S8x3x2048x1_S8x3x2048x32_0_1_2_3 : (⟨S8x3x2048x1, .f32⟩ : BufTy).Contents (Elt F) → (⟨S8x3x2048x32, .f32⟩ : BufTy).Contents (Elt F)),
    binary main_v28 main_v31 main_v32 (subf : (⟨S8x3x2048x32, .f32⟩ : BufTy).Contents (Elt F) → (⟨S8x3x2048x32, .f32⟩ : BufTy).Contents (Elt F) → (⟨S8x3x2048x32, .f32⟩ : BufTy).Contents (Elt F)) ]
/-- The normalised indices of the second gather: 9 operations. -/
abbrev opsD1 : List (HloOp τ sig (Elt F)) :=
  [ reshape main_v23 main_v33 rfl shapeCasts_S8x2048x32_S8x1x65536,
    unary main_v33 main_v34 (broadcastInDim S8x64x65536 ![0, 1, 2] bcast_S8x1x65536_S8x64x65536_0_1_2 : (⟨S8x1x65536, .i32⟩ : BufTy).Contents (Elt F) → (⟨S8x64x65536, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S8x64x65536, .i32⟩) main_call4_v0) (broadcastInDim S8x64x65536 ![] bcast_S_S8x64x65536),
    TRef.binary (TRef.of (T := ⟨S8x64x65536, .i32⟩) main_v34) (TRef.of (T := ⟨S8x64x65536, .i32⟩) main_call4_v0) (TRef.of (T := ⟨S8x64x65536, .i1⟩) main_call4_v1) (cmpi .slt),
    TRef.nullary (TRef.of (T := ⟨S_, .i32⟩) main_call4_c_0) (constantI S_ 32 8192#32),
    TRef.unary (TRef.of (T := ⟨S_, .i32⟩) main_call4_c_0) (TRef.of (T := ⟨S8x64x65536, .i32⟩) main_call4_v2) (broadcastInDim S8x64x65536 ![] bcast_S_S8x64x65536),
    TRef.binary (TRef.of (T := ⟨S8x64x65536, .i32⟩) main_v34) (TRef.of (T := ⟨S8x64x65536, .i32⟩) main_call4_v2) (TRef.of (T := ⟨S8x64x65536, .i32⟩) main_call4_v3) addi,
    TRef.ternary (TRef.of (T := ⟨S8x64x65536, .i1⟩) main_call4_v1) (TRef.of (T := ⟨S8x64x65536, .i32⟩) main_call4_v3) (TRef.of (T := ⟨S8x64x65536, .i32⟩) main_v34) (TRef.of (T := ⟨S8x64x65536, .i32⟩) main_call4_v4) select ]
/-- Their reshape to start indices. -/
abbrev opsR2 : List (HloOp τ sig (Elt F)) :=
  [ TRef.reshape (TRef.of (T := ⟨S8x64x65536, .i32⟩) main_call4_v4) (TRef.of (T := ⟨S8x64x65536x1, .i32⟩) main_call4_v5) rfl shapeCasts_S8x64x65536_S8x64x65536x1 ]
/-- The bounds test, the gather and the select on the features: 15 operations. -/
abbrev opsD2 : List (HloOp τ sig (Elt F)) :=
  [ TRef.nullary (TRef.of (T := ⟨S1, .i32⟩) main_call4_c_1) (constantI S1 32 8191#32),
    TRef.nullary (TRef.of (T := ⟨S_, .i32⟩) main_call4_c_2) (constantI S_ 32 0#32),
    TRef.unary (TRef.of (T := ⟨S_, .i32⟩) main_call4_c_2) (TRef.of (T := ⟨S8x64x65536x1, .i32⟩) main_call4_v6) (broadcastInDim S8x64x65536x1 ![] bcast_S_S8x64x65536x1),
    TRef.binary (TRef.of (T := ⟨S8x64x65536x1, .i32⟩) main_call4_v5) (TRef.of (T := ⟨S8x64x65536x1, .i32⟩) main_call4_v6) (TRef.of (T := ⟨S8x64x65536x1, .i1⟩) main_call4_v7) (cmpi .sge),
    TRef.unary (TRef.of (T := ⟨S1, .i32⟩) main_call4_c_1) (TRef.of (T := ⟨S1x1x1x1, .i32⟩) main_call4_v8) (broadcastInDim S1x1x1x1 ![3] bcast_S1_S1x1x1x1_3),
    TRef.unary (TRef.of (T := ⟨S1x1x1x1, .i32⟩) main_call4_v8) (TRef.of (T := ⟨S8x64x65536x1, .i32⟩) main_call4_v9) (broadcastInDim S8x64x65536x1 ![0, 1, 2, 3] bcast_S1x1x1x1_S8x64x65536x1_0_1_2_3),
    TRef.binary (TRef.of (T := ⟨S8x64x65536x1, .i32⟩) main_call4_v5) (TRef.of (T := ⟨S8x64x65536x1, .i32⟩) main_call4_v9) (TRef.of (T := ⟨S8x64x65536x1, .i1⟩) main_call4_v10) (cmpi .sle),
    TRef.binary (TRef.of (T := ⟨S8x64x65536x1, .i1⟩) main_call4_v7) (TRef.of (T := ⟨S8x64x65536x1, .i1⟩) main_call4_v10) (TRef.of (T := ⟨S8x64x65536x1, .i1⟩) main_call4_v11) andi,
    TRef.nullary (TRef.of (T := ⟨S_, .i1⟩) main_call4_c_3) (constantI S_ 1 1#1),
    TRef.binary (TRef.of (T := ⟨S8x64x65536x1, .i1⟩) main_call4_v11) (TRef.of (T := ⟨S_, .i1⟩) main_call4_c_3) (TRef.of (T := ⟨S8x64x65536, .i1⟩) main_call4_v12) (fun x v => Host.reduce IntOp.andi x v reducesTo_S8x64x65536x1_S8x64x65536_d3 h_S_),
    TRef.binary (TRef.of (T := ⟨S8x64x8192, .f32⟩) main_arg2) (TRef.of (T := ⟨S8x64x65536x1, .i32⟩) main_call4_v5) (TRef.of (T := ⟨S8x64x65536, .f32⟩) main_call4_v13) (fun x i => Host.gather gather_S8x64x8192_S8x64x65536x1_S8x64x65536_n_2_01_01_2_3_111 x i),
    TRef.nullary (TRef.of (T := ⟨S_, .f32⟩) main_call4_cst) (constant S_ .f32 0x7FC00000#32),
    TRef.unary (TRef.of (T := ⟨S_, .f32⟩) main_call4_cst) (TRef.of (T := ⟨S8x64x65536, .f32⟩) main_call4_v14) (broadcastInDim S8x64x65536 ![] bcast_S_S8x64x65536),
    TRef.ternary (TRef.of (T := ⟨S8x64x65536, .i1⟩) main_call4_v12) (TRef.of (T := ⟨S8x64x65536, .f32⟩) main_call4_v13) (TRef.of (T := ⟨S8x64x65536, .f32⟩) main_call4_v14) (TRef.of (T := ⟨S8x64x65536, .f32⟩) main_v35) select,
    reshape main_v35 main_v36 rfl shapeCasts_S8x64x65536_S8x64x2048x32 ]
/-- The two results joined along the channel axis. -/
abbrev opsE : List (HloOp τ sig (Elt F)) :=
  [ binary main_v32 main_v36 main_v37 ((fun a b => concatenate S8x67x2048x32 1 [⟨S8x3x2048x32, a⟩, ⟨S8x64x2048x32, b⟩] concatenates_S8x3x2048x32_S8x64x2048x32_S8x67x2048x32_d1) : (⟨S8x3x2048x32, .f32⟩ : BufTy).Contents (Elt F) → (⟨S8x64x2048x32, .f32⟩ : BufTy).Contents (Elt F) → (⟨S8x67x2048x32, .f32⟩ : BufTy).Contents (Elt F)) ]

set_option maxRecDepth 8192 in
/-- The program's line is the nine stretches one after the other. -/
theorem ops_split : (ops : List (HloOp τ sig (Elt F)))
    = opsA ++ (opsB ++ (opsC1 ++ (opsR1 ++ (opsC2 ++ (opsD1 ++ (opsR2 ++ (opsD2 ++ opsE))))))) := rfl

end Lists

/-- A buffer that no operation of a literal line writes keeps its contents: each operation writes its own result
    buffer only, a different reference. -/
macro "kept_tac" : tactic => `(tactic| (
  refine StableHlo.after_of_forall_not_mem _ _ (List.forall_iff_forall_mem.mp ?_)
  simp only [ops, opsA, opsB, opsC1, opsR1, opsC2, opsD1, opsR2, opsD2, opsE, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

theorem stageA_v14 (W : Valuation τ sig (Elt Ideal)) :
    (after opsA W (Proc.devRef .tc main_v14) : (⟨S8x2048x8192, .i1⟩ : BufTy).Contents (Elt Ideal))
      = val_main_v14 (F := Ideal) (W (Proc.devRef .tc main_arg0)) (W (Proc.devRef .tc main_arg1)) := by
  after_results <;> rfl

theorem stageA_v16 (W : Valuation τ sig (Elt Ideal)) :
    (after opsA W (Proc.devRef .tc main_v16) : (⟨S1x1x8192, .i32⟩ : BufTy).Contents (Elt Ideal)) = val_main_v16 (F := Ideal) := by
  after_results <;> rfl

theorem stageA_c (W : Valuation τ sig (Elt Ideal)) :
    (after opsA W (Proc.devRef .tc main_c) : (⟨S_, .i32⟩ : BufTy).Contents (Elt Ideal)) = val_main_c (F := Ideal) := by
  after_results <;> rfl

/-- The index array from the mask, the point numbers and the filler. -/
def wordsOf (mask : IVec S8x2048x8192 1) (nums : IVec S1x1x8192 32) (fill : IVec S_ 32) : IVec S8x2048x32 32 :=
  select
    (cmpi .eq
      (extractStridedSlice S8x2048x32 ![0, 0, 0]
        (Host.sort S8x2048x8192 2 comparator_i32_d2
          (select mask (broadcastInDim S8x2048x8192 ![0, 1, 2] bcast_S1x1x8192_S8x2048x8192_0_1_2 nums)
            (broadcastInDim S8x2048x8192 ![] bcast_S_S8x2048x8192 fill)))
        slices_S8x2048x8192_S8x2048x32_0_0_0)
      (broadcastInDim S8x2048x32 ![] bcast_S_S8x2048x32 (constantI S_ 32 8193#32)))
    (broadcastInDim S8x2048x32 ![0, 1, 2] bcast_S8x2048x1_S8x2048x32_0_1_2
      (extractStridedSlice S8x2048x1 ![0, 0, 0]
        (extractStridedSlice S8x2048x32 ![0, 0, 0]
          (Host.sort S8x2048x8192 2 comparator_i32_d2
            (select mask (broadcastInDim S8x2048x8192 ![0, 1, 2] bcast_S1x1x8192_S8x2048x8192_0_1_2 nums)
              (broadcastInDim S8x2048x8192 ![] bcast_S_S8x2048x8192 fill)))
          slices_S8x2048x8192_S8x2048x32_0_0_0)
        slices_S8x2048x32_S8x2048x1_0_0_0))
    (extractStridedSlice S8x2048x32 ![0, 0, 0]
      (Host.sort S8x2048x8192 2 comparator_i32_d2
        (select mask (broadcastInDim S8x2048x8192 ![0, 1, 2] bcast_S1x1x8192_S8x2048x8192_0_1_2 nums)
          (broadcastInDim S8x2048x8192 ![] bcast_S_S8x2048x8192 fill)))
      slices_S8x2048x8192_S8x2048x32_0_0_0)

theorem stageB_v23 (W : Valuation τ sig (Elt Ideal)) :
    (after opsB W (Proc.devRef .tc main_v23) : (⟨S8x2048x32, .i32⟩ : BufTy).Contents (Elt Ideal))
      = wordsOf (W (Proc.devRef .tc main_v14)) (W (Proc.devRef .tc main_v16)) (W (Proc.devRef .tc main_c)) := by
  after_results <;> rfl

theorem wordsOf_eq (x0 : (⟨S8x8192x3, .f32⟩ : BufTy).Contents (Elt Ideal)) (x1 : (⟨S8x2048x3, .f32⟩ : BufTy).Contents (Elt Ideal)) :
    wordsOf (val_main_v14 (F := Ideal) x0 x1) (val_main_v16 (F := Ideal)) (val_main_c (F := Ideal)) = val_main_v23 (F := Ideal) x0 x1 := by
  unfold wordsOf
  rfl

/-! ## Typed references

A called function's operations read and write their buffers through references that carry the tensor's type; contents
move to the buffer's own type and back. The buffer's type is the tensor's type, so each move is the identity; here
that is recorded buffer by buffer, for the buffers one kind of operation writes and the other kind reads. -/

theorem ofBuf_v24 (v : (⟨S8x3x8192, .f32⟩ : BufTy).Contents (Elt Ideal)) : (TRef.of (T := ⟨S8x3x8192, .f32⟩) main_v24).ofBuf v = v := rfl
theorem ofBuf_v26 (v : (⟨S8x3x65536, .i32⟩ : BufTy).Contents (Elt Ideal)) : (TRef.of (T := ⟨S8x3x65536, .i32⟩) main_v26).ofBuf v = v := rfl
theorem toBuf_v27 (v : (⟨S8x3x65536, .f32⟩ : BufTy).Contents (Elt Ideal)) : (TRef.of (T := ⟨S8x3x65536, .f32⟩) main_v27).toBuf v = v := rfl
theorem ofBuf_v34 (v : (⟨S8x64x65536, .i32⟩ : BufTy).Contents (Elt Ideal)) : (TRef.of (T := ⟨S8x64x65536, .i32⟩) main_v34).ofBuf v = v := rfl
theorem toBuf_v35 (v : (⟨S8x64x65536, .f32⟩ : BufTy).Contents (Elt Ideal)) : (TRef.of (T := ⟨S8x64x65536, .f32⟩) main_v35).toBuf v = v := rfl
theorem ofBuf_arg2 (v : (⟨S8x64x8192, .f32⟩ : BufTy).Contents (Elt Ideal)) : (TRef.of (T := ⟨S8x64x8192, .f32⟩) main_arg2).ofBuf v = v := rfl

/-- Contents moved to a typed reference's buffer type and back are unchanged. -/
theorem ofBuf_toBuf {T : BufTy} (x : TRef sig T) (v : T.Contents (Elt Ideal)) : x.ofBuf (x.toBuf v) = v := by
  obtain ⟨r, rfl, _, _⟩ := x
  rfl

/-- A reshape between typed references, read at the typed level. -/
theorem reshape_typed {Tx Ty : BufTy} (x : TRef sig Tx) (y : TRef sig Ty) (he : Tx.elt = Ty.elt)
    (hn : Tx.shape.ShapeCasts Ty.shape) (W : Valuation τ sig (Elt Ideal)) :
    y.ofBuf ((TRef.reshape (τ := τ) x y he hn).result W (Proc.devRef .tc y.ref))
      = fun i => he ▸ shapeCast Ty.shape (x.ofBuf (W (Proc.devRef .tc x.ref))) hn i := by
  obtain ⟨rx, rfl, hx1, hx2⟩ := x
  obtain ⟨ry, rfl, hy1, hy2⟩ := y
  exact reshape_result rx ry _ _ _ _ W

/-! ## The first gather -/

set_option maxHeartbeats 1000000 in
/-- The normalised indices, at the typed level, from contents that hold the index array. -/
theorem stageC1_v4 (W : Valuation τ sig (Elt Ideal)) (x0 : (⟨S8x8192x3, .f32⟩ : BufTy).Contents (Elt Ideal)) (x1 : (⟨S8x2048x3, .f32⟩ : BufTy).Contents (Elt Ideal))
    (h23 : W (Proc.devRef .tc main_v23) = val_main_v23 (F := Ideal) x0 x1) :
    (TRef.of (T := ⟨S8x3x65536, .i32⟩) main_call3_v4).ofBuf (after opsC1 W (Proc.devRef .tc main_call3_v4)) = val_main_call3_v4 (F := Ideal) x0 x1 := by
  after_results
  simp only [ofBuf_toBuf]
  rw [h23, ofBuf_v26]
  rfl

/-- The transposed cloud. -/
theorem stageC1_v24 (W : Valuation τ sig (Elt Ideal)) :
    (after opsC1 W (Proc.devRef .tc main_v24) : (⟨S8x3x8192, .f32⟩ : BufTy).Contents (Elt Ideal))
      = val_main_v24 (F := Ideal) (W (Proc.devRef .tc main_arg0)) := by
  after_results <;> rfl

/-- The start indices, at the typed level. -/
theorem stageR1_v5 (W : Valuation τ sig (Elt Ideal)) (x0 : (⟨S8x8192x3, .f32⟩ : BufTy).Contents (Elt Ideal)) (x1 : (⟨S8x2048x3, .f32⟩ : BufTy).Contents (Elt Ideal))
    (h4 : (TRef.of (T := ⟨S8x3x65536, .i32⟩) main_call3_v4).ofBuf (W (Proc.devRef .tc main_call3_v4)) = val_main_call3_v4 (F := Ideal) x0 x1) :
    (TRef.of (T := ⟨S8x3x65536x1, .i32⟩) main_call3_v5).ofBuf (after opsR1 W (Proc.devRef .tc main_call3_v5)) = val_main_call3_v5 (F := Ideal) x0 x1 := by
  have t := reshape_typed (TRef.of (T := ⟨S8x3x65536, .i32⟩) main_call3_v4) (TRef.of (T := ⟨S8x3x65536x1, .i32⟩) main_call3_v5) rfl shapeCasts_S8x3x65536_S8x3x65536x1 W
  rw [h4] at t
  exact t

set_option maxHeartbeats 2000000 in
set_option maxRecDepth 8192 in
/-- The gather, the select and the recentring, from contents that hold the transposed cloud, the start indices and the
    queries. -/
theorem stageC2_v32 (W : Valuation τ sig (Elt Ideal)) (x0 : (⟨S8x8192x3, .f32⟩ : BufTy).Contents (Elt Ideal)) (x1 : (⟨S8x2048x3, .f32⟩ : BufTy).Contents (Elt Ideal))
    (h24 : (TRef.of (T := ⟨S8x3x8192, .f32⟩) main_v24).ofBuf (W (Proc.devRef .tc main_v24)) = val_main_v24 (F := Ideal) x0)
    (h5 : (TRef.of (T := ⟨S8x3x65536x1, .i32⟩) main_call3_v5).ofBuf (W (Proc.devRef .tc main_call3_v5)) = val_main_call3_v5 (F := Ideal) x0 x1)
    (h1 : W (Proc.devRef .tc main_arg1) = x1) :
    (after opsC2 W (Proc.devRef .tc main_v32) : (⟨S8x3x2048x32, .f32⟩ : BufTy).Contents (Elt Ideal))
      = val_main_v32 (F := Ideal) x0 x1 := by
  after_results
  simp only [ofBuf_toBuf]
  rw [h24, h5, h1, toBuf_v27]
  rfl

/-! ## The second gather -/

set_option maxHeartbeats 1000000 in
/-- The normalised indices, at the typed level, from contents that hold the index array. -/
theorem stageD1_v4 (W : Valuation τ sig (Elt Ideal)) (x0 : (⟨S8x8192x3, .f32⟩ : BufTy).Contents (Elt Ideal)) (x1 : (⟨S8x2048x3, .f32⟩ : BufTy).Contents (Elt Ideal))
    (h23 : W (Proc.devRef .tc main_v23) = val_main_v23 (F := Ideal) x0 x1) :
    (TRef.of (T := ⟨S8x64x65536, .i32⟩) main_call4_v4).ofBuf (after opsD1 W (Proc.devRef .tc main_call4_v4)) = val_main_call4_v4 (F := Ideal) x0 x1 := by
  after_results
  simp only [ofBuf_toBuf]
  rw [h23, ofBuf_v34]
  rfl

/-- The start indices, at the typed level. -/
theorem stageR2_v5 (W : Valuation τ sig (Elt Ideal)) (x0 : (⟨S8x8192x3, .f32⟩ : BufTy).Contents (Elt Ideal)) (x1 : (⟨S8x2048x3, .f32⟩ : BufTy).Contents (Elt Ideal))
    (h4 : (TRef.of (T := ⟨S8x64x65536, .i32⟩) main_call4_v4).ofBuf (W (Proc.devRef .tc main_call4_v4)) = val_main_call4_v4 (F := Ideal) x0 x1) :
    (TRef.of (T := ⟨S8x64x65536x1, .i32⟩) main_call4_v5).ofBuf (after opsR2 W (Proc.devRef .tc main_call4_v5)) = val_main_call4_v5 (F := Ideal) x0 x1 := by
  have t := reshape_typed (TRef.of (T := ⟨S8x64x65536, .i32⟩) main_call4_v4) (TRef.of (T := ⟨S8x64x65536x1, .i32⟩) main_call4_v5) rfl shapeCasts_S8x64x65536_S8x64x65536x1 W
  rw [h4] at t
  exact t

set_option maxHeartbeats 2000000 in
set_option maxRecDepth 8192 in
/-- The gather and the select on the features, from contents that hold the start indices and the features. -/
theorem stageD2_v36 (W : Valuation τ sig (Elt Ideal)) (x0 : (⟨S8x8192x3, .f32⟩ : BufTy).Contents (Elt Ideal)) (x1 : (⟨S8x2048x3, .f32⟩ : BufTy).Contents (Elt Ideal)) (x2 : (⟨S8x64x8192, .f32⟩ : BufTy).Contents (Elt Ideal))
    (h5 : (TRef.of (T := ⟨S8x64x65536x1, .i32⟩) main_call4_v5).ofBuf (W (Proc.devRef .tc main_call4_v5)) = val_main_call4_v5 (F := Ideal) x0 x1)
    (h2 : (TRef.of (T := ⟨S8x64x8192, .f32⟩) main_arg2).ofBuf (W (Proc.devRef .tc main_arg2)) = x2) :
    (after opsD2 W (Proc.devRef .tc main_v36) : (⟨S8x64x2048x32, .f32⟩ : BufTy).Contents (Elt Ideal))
      = val_main_v36 (F := Ideal) x0 x1 x2 := by
  after_results
  simp only [ofBuf_toBuf]
  rw [h5, h2, toBuf_v35]
  rfl

/-- The concatenation, from contents that hold the two gathered arrays. -/
theorem stageE_v37 (W : Valuation τ sig (Elt Ideal)) (x0 : (⟨S8x8192x3, .f32⟩ : BufTy).Contents (Elt Ideal)) (x1 : (⟨S8x2048x3, .f32⟩ : BufTy).Contents (Elt Ideal)) (x2 : (⟨S8x64x8192, .f32⟩ : BufTy).Contents (Elt Ideal))
    (h32 : W (Proc.devRef .tc main_v32) = val_main_v32 (F := Ideal) x0 x1)
    (h36 : W (Proc.devRef .tc main_v36) = val_main_v36 (F := Ideal) x0 x1 x2) :
    (after opsE W (Proc.devRef .tc main_v37) : (⟨S8x67x2048x32, .f32⟩ : BufTy).Contents (Elt Ideal))
      = val_main_v37 (F := Ideal) x0 x1 x2 := by
  after_results
  rw [h32, h36]
  rfl

theorem keptA_main_arg0 (W : Valuation τ sig (Elt Ideal)) :
    after opsA W (Proc.devRef .tc main_arg0) = W (Proc.devRef .tc main_arg0) := by kept_tac
theorem keptB_main_arg0 (W : Valuation τ sig (Elt Ideal)) :
    after opsB W (Proc.devRef .tc main_arg0) = W (Proc.devRef .tc main_arg0) := by kept_tac
theorem keptA_main_arg1 (W : Valuation τ sig (Elt Ideal)) :
    after opsA W (Proc.devRef .tc main_arg1) = W (Proc.devRef .tc main_arg1) := by kept_tac
theorem keptB_main_arg1 (W : Valuation τ sig (Elt Ideal)) :
    after opsB W (Proc.devRef .tc main_arg1) = W (Proc.devRef .tc main_arg1) := by kept_tac
theorem keptC1_main_arg1 (W : Valuation τ sig (Elt Ideal)) :
    after opsC1 W (Proc.devRef .tc main_arg1) = W (Proc.devRef .tc main_arg1) := by kept_tac
theorem keptR1_main_arg1 (W : Valuation τ sig (Elt Ideal)) :
    after opsR1 W (Proc.devRef .tc main_arg1) = W (Proc.devRef .tc main_arg1) := by kept_tac
theorem keptA_main_arg2 (W : Valuation τ sig (Elt Ideal)) :
    after opsA W (Proc.devRef .tc main_arg2) = W (Proc.devRef .tc main_arg2) := by kept_tac
theorem keptB_main_arg2 (W : Valuation τ sig (Elt Ideal)) :
    after opsB W (Proc.devRef .tc main_arg2) = W (Proc.devRef .tc main_arg2) := by kept_tac
theorem keptC1_main_arg2 (W : Valuation τ sig (Elt Ideal)) :
    after opsC1 W (Proc.devRef .tc main_arg2) = W (Proc.devRef .tc main_arg2) := by kept_tac
theorem keptR1_main_arg2 (W : Valuation τ sig (Elt Ideal)) :
    after opsR1 W (Proc.devRef .tc main_arg2) = W (Proc.devRef .tc main_arg2) := by kept_tac
theorem keptC2_main_arg2 (W : Valuation τ sig (Elt Ideal)) :
    after opsC2 W (Proc.devRef .tc main_arg2) = W (Proc.devRef .tc main_arg2) := by kept_tac
theorem keptD1_main_arg2 (W : Valuation τ sig (Elt Ideal)) :
    after opsD1 W (Proc.devRef .tc main_arg2) = W (Proc.devRef .tc main_arg2) := by kept_tac
theorem keptR2_main_arg2 (W : Valuation τ sig (Elt Ideal)) :
    after opsR2 W (Proc.devRef .tc main_arg2) = W (Proc.devRef .tc main_arg2) := by kept_tac
theorem keptC1_main_v23 (W : Valuation τ sig (Elt Ideal)) :
    after opsC1 W (Proc.devRef .tc main_v23) = W (Proc.devRef .tc main_v23) := by kept_tac
theorem keptR1_main_v23 (W : Valuation τ sig (Elt Ideal)) :
    after opsR1 W (Proc.devRef .tc main_v23) = W (Proc.devRef .tc main_v23) := by kept_tac
theorem keptC2_main_v23 (W : Valuation τ sig (Elt Ideal)) :
    after opsC2 W (Proc.devRef .tc main_v23) = W (Proc.devRef .tc main_v23) := by kept_tac
theorem keptR1_main_v24 (W : Valuation τ sig (Elt Ideal)) :
    after opsR1 W (Proc.devRef .tc main_v24) = W (Proc.devRef .tc main_v24) := by kept_tac
theorem keptD1_main_v32 (W : Valuation τ sig (Elt Ideal)) :
    after opsD1 W (Proc.devRef .tc main_v32) = W (Proc.devRef .tc main_v32) := by kept_tac
theorem keptR2_main_v32 (W : Valuation τ sig (Elt Ideal)) :
    after opsR2 W (Proc.devRef .tc main_v32) = W (Proc.devRef .tc main_v32) := by kept_tac
theorem keptD2_main_v32 (W : Valuation τ sig (Elt Ideal)) :
    after opsD2 W (Proc.devRef .tc main_v32) = W (Proc.devRef .tc main_v32) := by kept_tac

/-- THE RESULT: after the whole line, from any contents, the result buffer holds the last stage of the argument buffers. -/
theorem value (W : Valuation τ sig (Elt Ideal)) :
    (after ops W (Proc.devRef .tc main_v37) : (⟨S8x67x2048x32, .f32⟩ : BufTy).Contents (Elt Ideal))
      = val_main_v37 (F := Ideal) (W (Proc.devRef .tc main_arg0)) (W (Proc.devRef .tc main_arg1)) (W (Proc.devRef .tc main_arg2)) := by
  rw [ops_split, StableHlo.after_append, StableHlo.after_append, StableHlo.after_append, StableHlo.after_append,
    StableHlo.after_append, StableHlo.after_append, StableHlo.after_append, StableHlo.after_append]
  have arg0_B : after opsB (after opsA W) (Proc.devRef .tc main_arg0) = W (Proc.devRef .tc main_arg0) := by rw [keptB_main_arg0, keptA_main_arg0]
  have arg1_B : after opsB (after opsA W) (Proc.devRef .tc main_arg1) = W (Proc.devRef .tc main_arg1) := by rw [keptB_main_arg1, keptA_main_arg1]
  have arg2_B : after opsB (after opsA W) (Proc.devRef .tc main_arg2) = W (Proc.devRef .tc main_arg2) := by rw [keptB_main_arg2, keptA_main_arg2]
  have v23_B : after opsB (after opsA W) (Proc.devRef .tc main_v23) = val_main_v23 (F := Ideal) (W (Proc.devRef .tc main_arg0)) (W (Proc.devRef .tc main_arg1)) := by
    rw [stageB_v23, stageA_v14, stageA_v16, stageA_c]
    exact wordsOf_eq _ _
  -- the first gather
  have v4_C1 := stageC1_v4 (after opsB (after opsA W)) _ _ v23_B
  have v24_C1 : after opsC1 (after opsB (after opsA W)) (Proc.devRef .tc main_v24) = val_main_v24 (F := Ideal) (W (Proc.devRef .tc main_arg0)) := by
    rw [stageC1_v24, arg0_B]
  have arg1_C1 : after opsC1 (after opsB (after opsA W)) (Proc.devRef .tc main_arg1) = W (Proc.devRef .tc main_arg1) := by
    rw [keptC1_main_arg1, arg1_B]
  have arg2_C1 : after opsC1 (after opsB (after opsA W)) (Proc.devRef .tc main_arg2) = W (Proc.devRef .tc main_arg2) := by
    rw [keptC1_main_arg2, arg2_B]
  have v23_C1 : after opsC1 (after opsB (after opsA W)) (Proc.devRef .tc main_v23) = val_main_v23 (F := Ideal) (W (Proc.devRef .tc main_arg0)) (W (Proc.devRef .tc main_arg1)) := by
    rw [keptC1_main_v23, v23_B]

  have v5_R1 := stageR1_v5 (after opsC1 (after opsB (after opsA W))) _ _ v4_C1
  have v24_R1 : after opsR1 (after opsC1 (after opsB (after opsA W))) (Proc.devRef .tc main_v24) = val_main_v24 (F := Ideal) (W (Proc.devRef .tc main_arg0)) := by
    rw [keptR1_main_v24, v24_C1]
  have arg1_R1 : after opsR1 (after opsC1 (after opsB (after opsA W))) (Proc.devRef .tc main_arg1) = W (Proc.devRef .tc main_arg1) := by
    rw [keptR1_main_arg1, arg1_C1]
  have arg2_R1 : after opsR1 (after opsC1 (after opsB (after opsA W))) (Proc.devRef .tc main_arg2) = W (Proc.devRef .tc main_arg2) := by
    rw [keptR1_main_arg2, arg2_C1]
  have v23_R1 : after opsR1 (after opsC1 (after opsB (after opsA W))) (Proc.devRef .tc main_v23) = val_main_v23 (F := Ideal) (W (Proc.devRef .tc main_arg0)) (W (Proc.devRef .tc main_arg1)) := by
    rw [keptR1_main_v23, v23_C1]

  have v32_C2 := stageC2_v32 (after opsR1 (after opsC1 (after opsB (after opsA W)))) _ _ ((ofBuf_v24 _).trans v24_R1) v5_R1 arg1_R1
  have arg2_C2 : after opsC2 (after opsR1 (after opsC1 (after opsB (after opsA W)))) (Proc.devRef .tc main_arg2) = W (Proc.devRef .tc main_arg2) := by
    rw [keptC2_main_arg2, arg2_R1]
  have v23_C2 : after opsC2 (after opsR1 (after opsC1 (after opsB (after opsA W)))) (Proc.devRef .tc main_v23) = val_main_v23 (F := Ideal) (W (Proc.devRef .tc main_arg0)) (W (Proc.devRef .tc main_arg1)) := by
    rw [keptC2_main_v23, v23_R1]

  -- the second gather
  have v4_D1 := stageD1_v4 (after opsC2 (after opsR1 (after opsC1 (after opsB (after opsA W))))) _ _ v23_C2
  have arg2_D1 : after opsD1 (after opsC2 (after opsR1 (after opsC1 (after opsB (after opsA W))))) (Proc.devRef .tc main_arg2) = W (Proc.devRef .tc main_arg2) := by
    rw [keptD1_main_arg2, arg2_C2]
  have v32_D1 : after opsD1 (after opsC2 (after opsR1 (after opsC1 (after opsB (after opsA W))))) (Proc.devRef .tc main_v32) = val_main_v32 (F := Ideal) (W (Proc.devRef .tc main_arg0)) (W (Proc.devRef .tc main_arg1)) := by
    rw [keptD1_main_v32, v32_C2]

  have v5_R2 := stageR2_v5 (after opsD1 (after opsC2 (after opsR1 (after opsC1 (after opsB (after opsA W)))))) _ _ v4_D1
  have arg2_R2 : after opsR2 (after opsD1 (after opsC2 (after opsR1 (after opsC1 (after opsB (after opsA W)))))) (Proc.devRef .tc main_arg2) = W (Proc.devRef .tc main_arg2) := by
    rw [keptR2_main_arg2, arg2_D1]
  have v32_R2 : after opsR2 (after opsD1 (after opsC2 (after opsR1 (after opsC1 (after opsB (after opsA W)))))) (Proc.devRef .tc main_v32) = val_main_v32 (F := Ideal) (W (Proc.devRef .tc main_arg0)) (W (Proc.devRef .tc main_arg1)) := by
    rw [keptR2_main_v32, v32_D1]

  have v36_D2 := stageD2_v36 (after opsR2 (after opsD1 (after opsC2 (after opsR1 (after opsC1 (after opsB (after opsA W))))))) _ _ _ v5_R2 ((ofBuf_arg2 _).trans arg2_R2)
  have v32_D2 : after opsD2 (after opsR2 (after opsD1 (after opsC2 (after opsR1 (after opsC1 (after opsB (after opsA W))))))) (Proc.devRef .tc main_v32) = val_main_v32 (F := Ideal) (W (Proc.devRef .tc main_arg0)) (W (Proc.devRef .tc main_arg1)) := by
    rw [keptD2_main_v32, v32_R2]

  exact stageE_v37 _ _ _ _ v32_D2 v36_D2

/-- The argument buffers are never written. -/
theorem arg0_kept (W : Valuation τ sig (Elt Ideal)) : after ops W (Proc.devRef .tc main_arg0) = W (Proc.devRef .tc main_arg0) := by
  kept_tac
theorem arg1_kept (W : Valuation τ sig (Elt Ideal)) : after ops W (Proc.devRef .tc main_arg1) = W (Proc.devRef .tc main_arg1) := by
  kept_tac
theorem arg2_kept (W : Valuation τ sig (Elt Ideal)) : after ops W (Proc.devRef .tc main_arg2) = W (Proc.devRef .tc main_arg2) := by
  kept_tac
set_option maxRecDepth 8192 in
/-- On every device, from any memory with zero counters: every weakly fair execution of the reference terminates with
    the result buffer at the last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37)
        = val_main_v37 (F := Ideal) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v37).trans (value (launchContents m c)),
      (h c main_arg0).trans (arg0_kept (launchContents m c)),
      (h c main_arg1).trans (arg1_kept (launchContents m c)),
      (h c main_arg2).trans (arg2_kept (launchContents m c))⟩)
    (run_seq scopedRefs_eq scopedSems_eq defs main (fun _ => ops) main_eq (fun _ => ops_sub) m ρ)

end Cert.RefRunAlt

end
-- ==== Proof.RefOps.lean ====
/-
  The reference's two value-dependent operations and its in-bounds test, read at an index.

  `take_along_axis` gathers along the last axis of an operand `[8, C, 8192]` at an index array `[8, C, 65536]`: it
  reshapes the indices to `[8, C, 65536, 1]`, gathers with the first two axes as batching axes and the last collapsed
  (result element `(b, c, l)` is the operand at `(b, c, n)`, `n` the start index at `[b, c, l, 0]` read signed and clamped
  into `[0, 8191]`), and tests `0 ≤ n ≤ 8191` by a reduction by `and` over the unit last axis. For an index word below 8192
  the sign test is false, the bounds test is true, and the clamp is the identity.
-/
import proofs.«118025_j16346645529142_2_alg».proof.Proof.Gen.ReferenceIdeal
import Idealize.ShloMosaic.Lib.Pipeline.Value
import Idealize.ShloMosaic.Lib.ValueIdx
import Idealize.ShloMosaic.PureOps.Reduce
import Idealize.ShloMosaic.PureOps.Ideal.Laws

noncomputable section

namespace Cert.RefOps

open Cert.ReferenceIdeal Cert.ReferenceIdeal.Gen Idealize.ShloMosaic Idealize.ShloMosaic.ValueIdx

section Gather
variable {α : Type}

/-- The gather's dimension numbers on the three-channel operand. -/
abbrev G3 : GatherDims S8x3x8192 S8x3x65536x1 S8x3x65536 := gather_S8x3x8192_S8x3x65536x1_S8x3x65536_n_2_01_01_2_3_111

/-- On the first batching axis the operand's coordinate is the result's batch coordinate. -/
theorem g3_b0 (j : S8x3x65536.Idx) : G3.batchCoord j 0 = (j 0).val := by
  unfold GatherDims.batchCoord
  rw [dif_pos (show (0 : Fin 3) ∈ G3.operandBatchingDims from by decide)]
  rfl

/-- On the second batching axis the operand's coordinate is the result's channel coordinate. -/
theorem g3_b1 (j : S8x3x65536.Idx) : G3.batchCoord j 1 = (j 1).val := by
  unfold GatherDims.batchCoord
  rw [dif_pos (show (1 : Fin 3) ∈ G3.operandBatchingDims from by decide)]
  rfl

/-- The start index of result element `(b, c, l)` is read at `[b, c, l, 0]`. -/
theorem g3_si (j : S8x3x65536.Idx) :
    G3.siIdx j ⟨List.idxOf (2 : Fin 3) G3.startIndexMap, List.idxOf_lt_length_iff.2 (List.mem_singleton.mpr rfl)⟩
      = ix4 (j 0) (j 1) (j 2) (0 : Fin 1) := by
  funext b; refine Fin.ext ?_
  match b with
  | ⟨0, _⟩ => rfl
  | ⟨1, _⟩ => rfl
  | ⟨2, _⟩ => rfl
  | ⟨3, _⟩ => rfl

/-- THE GATHER READ AT `(b, c, l)`: the operand at `(b, c, n)`, `n` the start index `idx[b, c, l, 0]` read signed and
    clamped into the gathered axis. -/
theorem gather3_apply (x : S8x3x8192.Idx → α) (idx : IVec S8x3x65536x1 32) (j : S8x3x65536.Idx) :
    Host.gather G3 x idx j
      = x (ix3 (j 0) (j 1) ⟨min (idx (ix4 (j 0) (j 1) (j 2) (0 : Fin 1))).toInt.toNat 8191, by omega⟩) := by
  unfold Host.gather
  congr 1
  funext a
  refine Fin.ext ?_
  match a with
  | ⟨0, _⟩ =>
    show G3.start j idx 0 + G3.batchCoord j 0 + G3.offCoord j 0 = (j 0).val
    rw [G3.start_batching j idx 0 (by decide), G3.offCoord_eq_zero j 0 (fun h => ((G3.mem_sKept 0).1 h).2 (by decide)), g3_b0]
    omega
  | ⟨1, _⟩ =>
    show G3.start j idx 1 + G3.batchCoord j 1 + G3.offCoord j 1 = (j 1).val
    rw [G3.start_batching j idx 1 (by decide), G3.offCoord_eq_zero j 1 (fun h => ((G3.mem_sKept 1).1 h).2 (by decide)), g3_b1]
    omega
  | ⟨2, _⟩ =>
    show G3.start j idx 2 + G3.batchCoord j 2 + G3.offCoord j 2 = min (idx (ix4 (j 0) (j 1) (j 2) (0 : Fin 1))).toInt.toNat 8191
    rw [G3.batchCoord_eq_zero j 2 (by decide), G3.offCoord_eq_zero j 2 (fun h => ((G3.mem_sKept 2).1 h).1 (by decide))]
    simp only [Nat.add_zero]
    unfold GatherDims.start
    rw [dif_pos (show (2 : Fin 3) ∈ G3.startIndexMap from List.mem_singleton.mpr rfl), g3_si]
    rfl

/-- The gather's dimension numbers on the sixty-four-channel operand. -/
abbrev G64 : GatherDims S8x64x8192 S8x64x65536x1 S8x64x65536 := gather_S8x64x8192_S8x64x65536x1_S8x64x65536_n_2_01_01_2_3_111

/-- On the first batching axis the operand's coordinate is the result's batch coordinate. -/
theorem g64_b0 (j : S8x64x65536.Idx) : G64.batchCoord j 0 = (j 0).val := by
  unfold GatherDims.batchCoord
  rw [dif_pos (show (0 : Fin 3) ∈ G64.operandBatchingDims from by decide)]
  rfl

/-- On the second batching axis the operand's coordinate is the result's channel coordinate. -/
theorem g64_b1 (j : S8x64x65536.Idx) : G64.batchCoord j 1 = (j 1).val := by
  unfold GatherDims.batchCoord
  rw [dif_pos (show (1 : Fin 3) ∈ G64.operandBatchingDims from by decide)]
  rfl

/-- The start index of result element `(b, c, l)` is read at `[b, c, l, 0]`. -/
theorem g64_si (j : S8x64x65536.Idx) :
    G64.siIdx j ⟨List.idxOf (2 : Fin 3) G64.startIndexMap, List.idxOf_lt_length_iff.2 (List.mem_singleton.mpr rfl)⟩
      = ix4 (j 0) (j 1) (j 2) (0 : Fin 1) := by
  funext b; refine Fin.ext ?_
  match b with
  | ⟨0, _⟩ => rfl
  | ⟨1, _⟩ => rfl
  | ⟨2, _⟩ => rfl
  | ⟨3, _⟩ => rfl

/-- THE GATHER READ AT `(b, c, l)`: the operand at `(b, c, n)`, `n` the start index `idx[b, c, l, 0]` read signed and
    clamped into the gathered axis. -/
theorem gather64_apply (x : S8x64x8192.Idx → α) (idx : IVec S8x64x65536x1 32) (j : S8x64x65536.Idx) :
    Host.gather G64 x idx j
      = x (ix3 (j 0) (j 1) ⟨min (idx (ix4 (j 0) (j 1) (j 2) (0 : Fin 1))).toInt.toNat 8191, by omega⟩) := by
  unfold Host.gather
  congr 1
  funext a
  refine Fin.ext ?_
  match a with
  | ⟨0, _⟩ =>
    show G64.start j idx 0 + G64.batchCoord j 0 + G64.offCoord j 0 = (j 0).val
    rw [G64.start_batching j idx 0 (by decide), G64.offCoord_eq_zero j 0 (fun h => ((G64.mem_sKept 0).1 h).2 (by decide)), g64_b0]
    omega
  | ⟨1, _⟩ =>
    show G64.start j idx 1 + G64.batchCoord j 1 + G64.offCoord j 1 = (j 1).val
    rw [G64.start_batching j idx 1 (by decide), G64.offCoord_eq_zero j 1 (fun h => ((G64.mem_sKept 1).1 h).2 (by decide)), g64_b1]
    omega
  | ⟨2, _⟩ =>
    show G64.start j idx 2 + G64.batchCoord j 2 + G64.offCoord j 2 = min (idx (ix4 (j 0) (j 1) (j 2) (0 : Fin 1))).toInt.toNat 8191
    rw [G64.batchCoord_eq_zero j 2 (by decide), G64.offCoord_eq_zero j 2 (fun h => ((G64.mem_sKept 2).1 h).1 (by decide))]
    simp only [Nat.add_zero]
    unfold GatherDims.start
    rw [dif_pos (show (2 : Fin 3) ∈ G64.startIndexMap from List.mem_singleton.mpr rfl), g64_si]
    rfl

end Gather

section Reduce

/-- A fold over the coordinates of an axis of extent one combines the one value with the initial one. -/
theorem fold_fin_one {β : Type} (op : β → β → β) [Std.Commutative op] [Std.Associative op] (b : β) (n : Nat) (hn : n = 1)
    (f : Fin n → β) : (Finset.univ : Finset (Fin n)).fold op b f = op (f ⟨0, by omega⟩) b := by
  subst hn
  rw [Finset.univ_unique, Finset.fold_singleton]
  rfl

/-- A reduction by `and` over the unit last axis reads the one element of the fiber, combined with the initial value. -/
theorem reduce3_apply (x : S8x3x65536x1.Idx → BitVec 1) (init : S_.Idx → BitVec 1)
    (h' : S8x3x65536x1.ReducesTo [3] S8x3x65536) (hu : 0 < S_.numel) (j : S8x3x65536.Idx) :
    Host.reduce IntOp.andi x init h' hu j
      = IntOp.andi (x (ix4 (j 0) (j 1) (j 2) (0 : Fin 1))) (init (Shape.Idx.first hu)) := by
  have hR : S8x3x65536x1.Reduces [3] S8x3x65536 := by decide
  rw [Host.reduce_eq_fold_single IntOp.andi x init h' hR hu j]
  rw [fold_fin_one IntOp.andi _ (S8x3x65536x1.size 3) rfl]
  congr 1
  show x (hR.lift j ⟨0, _⟩) = _
  congr 1
  funext b; refine Fin.ext ?_
  match b with
  | ⟨0, _⟩ => rfl
  | ⟨1, _⟩ => rfl
  | ⟨2, _⟩ => rfl
  | ⟨3, _⟩ => rfl

/-- A reduction by `and` over the unit last axis reads the one element of the fiber, combined with the initial value. -/
theorem reduce64_apply (x : S8x64x65536x1.Idx → BitVec 1) (init : S_.Idx → BitVec 1)
    (h' : S8x64x65536x1.ReducesTo [3] S8x64x65536) (hu : 0 < S_.numel) (j : S8x64x65536.Idx) :
    Host.reduce IntOp.andi x init h' hu j
      = IntOp.andi (x (ix4 (j 0) (j 1) (j 2) (0 : Fin 1))) (init (Shape.Idx.first hu)) := by
  have hR : S8x64x65536x1.Reduces [3] S8x64x65536 := by decide
  rw [Host.reduce_eq_fold_single IntOp.andi x init h' hR hu j]
  rw [fold_fin_one IntOp.andi _ (S8x64x65536x1.size 3) rfl]
  congr 1
  show x (hR.lift j ⟨0, _⟩) = _
  congr 1
  funext b; refine Fin.ext ?_
  match b with
  | ⟨0, _⟩ => rfl
  | ⟨1, _⟩ => rfl
  | ⟨2, _⟩ => rfl
  | ⟨3, _⟩ => rfl

end Reduce

section Words

/-- An index word below 8192 is a non-negative signed integer, equal to its natural value. -/
theorem toInt_of_lt {w : BitVec 32} (h : w.toNat < 8192) : w.toInt = (w.toNat : Int) :=
  BitVec.toInt_eq_toNat_of_lt (by omega)

/-- Such a word is not negative: the normalising select keeps it. -/
theorem norm_of_lt {w : BitVec 32} (h : w.toNat < 8192) :
    Scalar.select (IntOp.cmpi .slt w 0#32) (IntOp.addi w 8192#32) w = w := by
  have hn : ¬ IntOp.cmpi .slt w 0#32 = 1#1 := by
    rw [IntOp.cmpi_slt, toInt_of_lt h]
    simp
  exact if_neg hn

/-- Such a word passes the bounds check `0 ≤ w ≤ 8191`. -/
theorem inb_of_lt {w : BitVec 32} (h : w.toNat < 8192) :
    IntOp.andi (IntOp.cmpi .sge w 0#32) (IntOp.cmpi .sle w 8191#32) = 1#1 := by
  rw [IntOp.andi_eq_one, IntOp.cmpi_sge, IntOp.cmpi_sle, toInt_of_lt h]
  constructor
  · simp
  · have : (8191#32 : BitVec 32).toInt = 8191 := by decide
    rw [this]; omega

/-- The gather's clamped start of such a word is the word's natural value. -/
theorem clamp_of_lt {w : BitVec 32} (h : w.toNat < 8192) : min w.toInt.toNat 8191 = w.toNat := by
  rw [toInt_of_lt h]; simp; omega

end Words

end Cert.RefOps

end
-- ==== Proof.RefGrouped.lean ====
/-
  The reference program computes the grouped array.

  The reference flattens the index array `[8, 2048, 32]` to `[8, 1, 65536]` (position `l = 32 q + s`), broadcasts it
  over the channels and calls `take_along_axis` twice: on the transposed cloud `[8, 3, 8192]` and on the features
  `[8, 64, 8192]`. For an index inside the gathered axis the call returns the operand's element at that index (the
  sign normalisation keeps the index, the bounds test passes, the gather's clamp is the identity). The first result,
  reshaped to `[8, 3, 2048, 32]`, has the transposed queries subtracted; the two results are joined along the channel
  axis.
-/
import proofs.«118025_j16346645529142_2_alg».proof.Proof.RefReadP
import proofs.«118025_j16346645529142_2_alg».proof.Proof.Grouped
import proofs.«118025_j16346645529142_2_alg».proof.Proof.RefOps

noncomputable section

namespace Cert.RefGrouped

open Cert.ReferenceIdeal Cert.ReferenceIdeal.Gen Cert.ReferenceIdeal.ReadP Idealize.ShloMosaic Idealize.ShloMosaic.ValueIdx
open Cert.Grouped Cert.RefOps

/-- The argument arrays over the extended reals. -/
abbrev XCloud := (⟨S8x8192x3, .f32⟩ : BufTy).Contents (Elt Ideal)
abbrev XQuery := (⟨S8x2048x3, .f32⟩ : BufTy).Contents (Elt Ideal)
abbrev XFeat := (⟨S8x64x8192, .f32⟩ : BufTy).Contents (Elt Ideal)

/-! ## The three-channel gather: cloud coordinates -/

/-- The index array, reshaped to `[8, 1, 65536]` and broadcast over the channels, at flat position `l = 32 q + s`. -/
theorem idx3_at (x0 : XCloud) (x1 : XQuery) (b : Fin 8) (c : Fin 3) (l : Fin 65536) (q : Fin 2048) (s : Fin 32)
    (hl : l.val = q.val * 32 + s.val) :
    val_main_v26 (F := Ideal) x0 x1 (ix3 b c l) = val_main_v23 (F := Ideal) x0 x1 (ix3 b q s) := by
  rw [val_main_v26_apply, val_main_v25_apply]
  congr 1
  funext a; refine Fin.ext ?_
  have hb : b.val < 8 := b.isLt
  have hq : q.val < 2048 := q.isLt
  have hs : s.val < 32 := s.isLt
  match a with
  | ⟨0, _⟩ => show ((b.val * 1 + 0) * 65536 + l.val) / 65536 = b.val; omega
  | ⟨1, _⟩ => show ((b.val * 1 + 0) * 65536 + l.val) / 32 % 2048 = q.val; omega
  | ⟨2, _⟩ => show ((b.val * 1 + 0) * 65536 + l.val) % 32 = s.val; omega

/-- The start indices `[8, 3, 65536, 1]`: an index in range is not negative, so the normalising select keeps it. -/
theorem start3_at (x0 : XCloud) (x1 : XQuery) (hin : InRange (val_main_v23 (F := Ideal) x0 x1))
    (b : Fin 8) (c : Fin 3) (l : Fin 65536) (z : Fin 1) (q : Fin 2048) (s : Fin 32) (hl : l.val = q.val * 32 + s.val) :
    val_main_call3_v5 (F := Ideal) x0 x1 (ix4 b c l z) = val_main_v23 (F := Ideal) x0 x1 (ix3 b q s) := by
  have hk : idx_main_call3_v5 (ix4 b c l z) = ix3 b c l := by
    funext a; refine Fin.ext ?_
    have hb : b.val < 8 := b.isLt
    have hc : c.val < 3 := c.isLt
    have hl' : l.val < 65536 := l.isLt
    have hz : z.val < 1 := z.isLt
    match a with
    | ⟨0, _⟩ => show (((b.val * 3 + c.val) * 65536 + l.val) * 1 + z.val) / 196608 = b.val; omega
    | ⟨1, _⟩ => show (((b.val * 3 + c.val) * 65536 + l.val) * 1 + z.val) / 65536 % 3 = c.val; omega
    | ⟨2, _⟩ => show (((b.val * 3 + c.val) * 65536 + l.val) * 1 + z.val) % 65536 = l.val; omega
  rw [val_main_call3_v5_apply, hk, val_main_call3_v4_apply, val_main_call3_v1_apply, val_main_call3_v3_apply,
    val_main_call3_v0_apply, val_main_call3_v2_apply, val_main_call3_c_apply, val_main_call3_c_0_apply,
    idx3_at x0 x1 b c l q s hl]
  exact norm_of_lt (hin _)

/-- The bounds test passes at every position. -/
theorem inb3_at (x0 : XCloud) (x1 : XQuery) (hin : InRange (val_main_v23 (F := Ideal) x0 x1))
    (b : Fin 8) (c : Fin 3) (l : Fin 65536) (q : Fin 2048) (s : Fin 32) (hl : l.val = q.val * 32 + s.val) :
    val_main_call3_v12 (F := Ideal) x0 x1 (ix3 b c l) = 1#1 := by
  unfold val_main_call3_v12
  rw [reduce3_apply]
  show IntOp.andi (val_main_call3_v11 (F := Ideal) x0 x1 (ix4 b c l (0 : Fin 1))) _ = 1#1
  rw [val_main_call3_v11_apply, val_main_call3_v7_apply, val_main_call3_v10_apply, val_main_call3_v6_apply,
    val_main_call3_v9_apply, val_main_call3_v8_apply, val_main_call3_c_1_apply, val_main_call3_c_2_apply,
    val_main_call3_c_3_apply, start3_at x0 x1 hin b c l 0 q s hl, inb_of_lt (hin _)]
  rfl

/-- The gathered element: the cloud's coordinate `c` of the point the index names. -/
theorem gath3_at (x0 : XCloud) (x1 : XQuery) (hin : InRange (val_main_v23 (F := Ideal) x0 x1))
    (b : Fin 8) (c : Fin 3) (l : Fin 65536) (q : Fin 2048) (s : Fin 32) (hl : l.val = q.val * 32 + s.val) :
    val_main_call3_v13 (F := Ideal) x0 x1 (ix3 b c l)
      = x0 (ix3 b (pick (val_main_v23 (F := Ideal) x0 x1 (ix3 b q s))) c) := by
  unfold val_main_call3_v13
  show Host.gather G3 _ _ _ = _
  rw [gather3_apply, val_main_v24_apply]
  congr 1
  funext a; refine Fin.ext ?_
  match a with
  | ⟨0, _⟩ => rfl
  | ⟨1, _⟩ =>
    show min (val_main_call3_v5 (F := Ideal) x0 x1 (ix4 b c l (0 : Fin 1))).toInt.toNat 8191 = (pick _).val
    rw [start3_at x0 x1 hin b c l 0 q s hl, clamp_of_lt (hin _), pick_val_of_lt (hin _)]
  | ⟨2, _⟩ => rfl

/-- `take_along_axis` on the transposed cloud, at flat position `l = 32 q + s`. -/
theorem take3_at (x0 : XCloud) (x1 : XQuery) (hin : InRange (val_main_v23 (F := Ideal) x0 x1))
    (b : Fin 8) (c : Fin 3) (l : Fin 65536) (q : Fin 2048) (s : Fin 32) (hl : l.val = q.val * 32 + s.val) :
    val_main_v27 (F := Ideal) x0 x1 (ix3 b c l)
      = x0 (ix3 b (pick (val_main_v23 (F := Ideal) x0 x1 (ix3 b q s))) c) := by
  rw [val_main_v27_apply, inb3_at x0 x1 hin b c l q s hl, gath3_at x0 x1 hin b c l q s hl]
  exact select_one _ _

/-- The gathered coordinates as `[8, 3, 2048, 32]`. -/
theorem take3_4d (x0 : XCloud) (x1 : XQuery) (hin : InRange (val_main_v23 (F := Ideal) x0 x1))
    (b : Fin 8) (c : Fin 3) (q : Fin 2048) (s : Fin 32) :
    val_main_v28 (F := Ideal) x0 x1 (ix4 b c q s)
      = x0 (ix3 b (pick (val_main_v23 (F := Ideal) x0 x1 (ix3 b q s))) c) := by
  have hb : b.val < 8 := b.isLt
  have hc : c.val < 3 := c.isLt
  have hq : q.val < 2048 := q.isLt
  have hs : s.val < 32 := s.isLt
  have hk : idx_main_v28 (ix4 b c q s) = ix3 b c (⟨q.val * 32 + s.val, by omega⟩ : Fin 65536) := by
    funext a; refine Fin.ext ?_
    match a with
    | ⟨0, _⟩ => show (((b.val * 3 + c.val) * 2048 + q.val) * 32 + s.val) / 196608 = b.val; omega
    | ⟨1, _⟩ => show (((b.val * 3 + c.val) * 2048 + q.val) * 32 + s.val) / 65536 % 3 = c.val; omega
    | ⟨2, _⟩ => show (((b.val * 3 + c.val) * 2048 + q.val) * 32 + s.val) % 65536 = q.val * 32 + s.val; omega
  rw [val_main_v28_apply, hk]
  exact take3_at x0 x1 hin b c _ q s rfl

/-- The query's coordinate, transposed and broadcast over the samples. -/
theorem qry_4d (x1 : XQuery) (b : Fin 8) (c : Fin 3) (q : Fin 2048) (s : Fin 32) :
    val_main_v31 (F := Ideal) x1 (ix4 b c q s) = x1 (ix3 b q c) := by
  rw [val_main_v31_apply, val_main_v30_apply, val_main_v29_apply]
  congr 1
  funext a; refine Fin.ext ?_
  match a with
  | ⟨0, _⟩ => rfl
  | ⟨1, _⟩ => rfl
  | ⟨2, _⟩ => rfl

/-- The recentred coordinates. -/
theorem recentred_4d (x0 : XCloud) (x1 : XQuery) (hin : InRange (val_main_v23 (F := Ideal) x0 x1))
    (b : Fin 8) (c : Fin 3) (q : Fin 2048) (s : Fin 32) :
    val_main_v32 (F := Ideal) x0 x1 (ix4 b c q s)
      = x0 (ix3 b (pick (val_main_v23 (F := Ideal) x0 x1 (ix3 b q s))) c) - x1 (ix3 b q c) := by
  rw [val_main_v32_apply, take3_4d x0 x1 hin b c q s, qry_4d x1 b c q s]
  rfl

/-! ## The sixty-four-channel gather: features -/

/-- The index array, reshaped to `[8, 1, 65536]` and broadcast over the channels, at flat position `l = 32 q + s`. -/
theorem idx64_at (x0 : XCloud) (x1 : XQuery) (b : Fin 8) (c : Fin 64) (l : Fin 65536) (q : Fin 2048) (s : Fin 32)
    (hl : l.val = q.val * 32 + s.val) :
    val_main_v34 (F := Ideal) x0 x1 (ix3 b c l) = val_main_v23 (F := Ideal) x0 x1 (ix3 b q s) := by
  rw [val_main_v34_apply, val_main_v33_apply]
  congr 1
  funext a; refine Fin.ext ?_
  have hb : b.val < 8 := b.isLt
  have hq : q.val < 2048 := q.isLt
  have hs : s.val < 32 := s.isLt
  match a with
  | ⟨0, _⟩ => show ((b.val * 1 + 0) * 65536 + l.val) / 65536 = b.val; omega
  | ⟨1, _⟩ => show ((b.val * 1 + 0) * 65536 + l.val) / 32 % 2048 = q.val; omega
  | ⟨2, _⟩ => show ((b.val * 1 + 0) * 65536 + l.val) % 32 = s.val; omega

/-- The start indices `[8, 64, 65536, 1]`: an index in range is not negative, so the normalising select keeps it. -/
theorem start64_at (x0 : XCloud) (x1 : XQuery) (hin : InRange (val_main_v23 (F := Ideal) x0 x1))
    (b : Fin 8) (c : Fin 64) (l : Fin 65536) (z : Fin 1) (q : Fin 2048) (s : Fin 32) (hl : l.val = q.val * 32 + s.val) :
    val_main_call4_v5 (F := Ideal) x0 x1 (ix4 b c l z) = val_main_v23 (F := Ideal) x0 x1 (ix3 b q s) := by
  have hk : idx_main_call4_v5 (ix4 b c l z) = ix3 b c l := by
    funext a; refine Fin.ext ?_
    have hb : b.val < 8 := b.isLt
    have hc : c.val < 64 := c.isLt
    have hl' : l.val < 65536 := l.isLt
    have hz : z.val < 1 := z.isLt
    match a with
    | ⟨0, _⟩ => show (((b.val * 64 + c.val) * 65536 + l.val) * 1 + z.val) / 4194304 = b.val; omega
    | ⟨1, _⟩ => show (((b.val * 64 + c.val) * 65536 + l.val) * 1 + z.val) / 65536 % 64 = c.val; omega
    | ⟨2, _⟩ => show (((b.val * 64 + c.val) * 65536 + l.val) * 1 + z.val) % 65536 = l.val; omega
  rw [val_main_call4_v5_apply, hk, val_main_call4_v4_apply, val_main_call4_v1_apply, val_main_call4_v3_apply,
    val_main_call4_v0_apply, val_main_call4_v2_apply, val_main_call4_c_apply, val_main_call4_c_0_apply,
    idx64_at x0 x1 b c l q s hl]
  exact norm_of_lt (hin _)

/-- The bounds test passes at every position. -/
theorem inb64_at (x0 : XCloud) (x1 : XQuery) (hin : InRange (val_main_v23 (F := Ideal) x0 x1))
    (b : Fin 8) (c : Fin 64) (l : Fin 65536) (q : Fin 2048) (s : Fin 32) (hl : l.val = q.val * 32 + s.val) :
    val_main_call4_v12 (F := Ideal) x0 x1 (ix3 b c l) = 1#1 := by
  unfold val_main_call4_v12
  rw [reduce64_apply]
  show IntOp.andi (val_main_call4_v11 (F := Ideal) x0 x1 (ix4 b c l (0 : Fin 1))) _ = 1#1
  rw [val_main_call4_v11_apply, val_main_call4_v7_apply, val_main_call4_v10_apply, val_main_call4_v6_apply,
    val_main_call4_v9_apply, val_main_call4_v8_apply, val_main_call4_c_1_apply, val_main_call4_c_2_apply,
    val_main_call4_c_3_apply, start64_at x0 x1 hin b c l 0 q s hl, inb_of_lt (hin _)]
  rfl

/-- The gathered element: feature `c` of the point the index names. -/
theorem gath64_at (x0 : XCloud) (x1 : XQuery) (x2 : XFeat) (hin : InRange (val_main_v23 (F := Ideal) x0 x1))
    (b : Fin 8) (c : Fin 64) (l : Fin 65536) (q : Fin 2048) (s : Fin 32) (hl : l.val = q.val * 32 + s.val) :
    val_main_call4_v13 (F := Ideal) x0 x1 x2 (ix3 b c l)
      = x2 (ix3 b c (pick (val_main_v23 (F := Ideal) x0 x1 (ix3 b q s)))) := by
  unfold val_main_call4_v13
  show Host.gather G64 _ _ _ = _
  rw [gather64_apply]
  refine congrArg x2 ?_
  funext a; refine Fin.ext ?_
  match a with
  | ⟨0, _⟩ => rfl
  | ⟨1, _⟩ => rfl
  | ⟨2, _⟩ =>
    show min (val_main_call4_v5 (F := Ideal) x0 x1 (ix4 b c l (0 : Fin 1))).toInt.toNat 8191 = (pick _).val
    rw [start64_at x0 x1 hin b c l 0 q s hl, clamp_of_lt (hin _), pick_val_of_lt (hin _)]

/-- `take_along_axis` on the features, at flat position `l = 32 q + s`. -/
theorem take64_at (x0 : XCloud) (x1 : XQuery) (x2 : XFeat) (hin : InRange (val_main_v23 (F := Ideal) x0 x1))
    (b : Fin 8) (c : Fin 64) (l : Fin 65536) (q : Fin 2048) (s : Fin 32) (hl : l.val = q.val * 32 + s.val) :
    val_main_v35 (F := Ideal) x0 x1 x2 (ix3 b c l)
      = x2 (ix3 b c (pick (val_main_v23 (F := Ideal) x0 x1 (ix3 b q s)))) := by
  rw [val_main_v35_apply, inb64_at x0 x1 hin b c l q s hl, gath64_at x0 x1 x2 hin b c l q s hl]
  exact select_one _ _

/-- The gathered features as `[8, 64, 2048, 32]`. -/
theorem take64_4d (x0 : XCloud) (x1 : XQuery) (x2 : XFeat) (hin : InRange (val_main_v23 (F := Ideal) x0 x1))
    (b : Fin 8) (c : Fin 64) (q : Fin 2048) (s : Fin 32) :
    val_main_v36 (F := Ideal) x0 x1 x2 (ix4 b c q s)
      = x2 (ix3 b c (pick (val_main_v23 (F := Ideal) x0 x1 (ix3 b q s)))) := by
  have hb : b.val < 8 := b.isLt
  have hc : c.val < 64 := c.isLt
  have hq : q.val < 2048 := q.isLt
  have hs : s.val < 32 := s.isLt
  have hk : idx_main_v36 (ix4 b c q s) = ix3 b c (⟨q.val * 32 + s.val, by omega⟩ : Fin 65536) := by
    funext a; refine Fin.ext ?_
    match a with
    | ⟨0, _⟩ => show (((b.val * 64 + c.val) * 2048 + q.val) * 32 + s.val) / 4194304 = b.val; omega
    | ⟨1, _⟩ => show (((b.val * 64 + c.val) * 2048 + q.val) * 32 + s.val) / 65536 % 64 = c.val; omega
    | ⟨2, _⟩ => show (((b.val * 64 + c.val) * 2048 + q.val) * 32 + s.val) % 65536 = q.val * 32 + s.val; omega
  rw [val_main_v36_apply, hk]
  exact take64_at x0 x1 x2 hin b c _ q s rfl

/-! ## The concatenation along the channel axis -/

/-- Channels below three come from the recentred coordinates. -/
theorem out_lo (x0 : XCloud) (x1 : XQuery) (x2 : XFeat) (hin : InRange (val_main_v23 (F := Ideal) x0 x1))
    (b : Fin 8) (ch : Fin 67) (q : Fin 2048) (s : Fin 32) (h : ch.val < 3) :
    val_main_v37 (F := Ideal) x0 x1 x2 (ix4 b ch q s)
      = x0 (ix3 b (pick (val_main_v23 (F := Ideal) x0 x1 (ix3 b q s))) (⟨ch.val, h⟩ : Fin 3))
        - x1 (ix3 b q (⟨ch.val, h⟩ : Fin 3)) := by
  unfold val_main_v37
  exact (concatenate_pair_apply_left (t := S8x67x2048x32) (s₁ := S8x3x2048x32) (s₂ := S8x64x2048x32) (1 : Fin 4)
    (val_main_v32 (F := Ideal) x0 x1) (val_main_v36 (F := Ideal) x0 x1 x2) _ (ix4 b ch q s) rfl
    (ix4 b (⟨ch.val, h⟩ : Fin 3) q s)
    (fun a => match a with
      | ⟨0, _⟩ => rfl
      | ⟨1, _⟩ => rfl
      | ⟨2, _⟩ => rfl
      | ⟨3, _⟩ => rfl)).trans (recentred_4d x0 x1 hin b ⟨ch.val, h⟩ q s)

/-- Channels from three on come from the features, three channels back. -/
theorem out_hi (x0 : XCloud) (x1 : XQuery) (x2 : XFeat) (hin : InRange (val_main_v23 (F := Ideal) x0 x1))
    (b : Fin 8) (ch : Fin 67) (q : Fin 2048) (s : Fin 32) (h : ¬ ch.val < 3) :
    val_main_v37 (F := Ideal) x0 x1 x2 (ix4 b ch q s)
      = x2 (ix3 b (⟨ch.val - 3, by have := ch.isLt; omega⟩ : Fin 64) (pick (val_main_v23 (F := Ideal) x0 x1 (ix3 b q s)))) := by
  unfold val_main_v37
  exact (concatenate_pair_apply_right (t := S8x67x2048x32) (s₁ := S8x3x2048x32) (s₂ := S8x64x2048x32) (1 : Fin 4)
    (val_main_v32 (F := Ideal) x0 x1) (val_main_v36 (F := Ideal) x0 x1 x2) _ (ix4 b ch q s) rfl rfl
    (ix4 b (⟨ch.val - 3, by have := ch.isLt; omega⟩ : Fin 64) q s)
    (fun a => match a with
      | ⟨0, _⟩ => fun _ => rfl
      | ⟨1, _⟩ => fun hne => absurd rfl hne
      | ⟨2, _⟩ => fun _ => rfl
      | ⟨3, _⟩ => fun _ => rfl)
    (by show ch.val - 3 + 3 = ch.val; omega)).trans (take64_4d x0 x1 x2 hin b _ q s)

/-- THE REFERENCE COMPUTES THE GROUPED ARRAY, whenever every gathered index lies inside the gathered axis. -/
theorem ref_grouped (x0 : XCloud) (x1 : XQuery) (x2 : XFeat) (hin : InRange (val_main_v23 (F := Ideal) x0 x1)) :
    val_main_v37 (F := Ideal) x0 x1 x2 = grouped x0 x1 x2 (val_main_v23 (F := Ideal) x0 x1) := by
  funext j
  obtain ⟨b, ch, q, s, rfl⟩ : ∃ (b : Fin 8) (ch : Fin 67) (q : Fin 2048) (s : Fin 32), j = ix4 b ch q s :=
    ⟨j 0, j 1, j 2, j 3, eq_ix4 j⟩
  by_cases h : ch.val < 3
  · rw [out_lo x0 x1 x2 hin b ch q s h]
    have h' : ((ix4 b ch q s : SOut.Idx) 1).val < 3 := h
    show _ = dite (((ix4 b ch q s : SOut.Idx) 1).val < 3) _ _
    rw [dif_pos h']
  · rw [out_hi x0 x1 x2 hin b ch q s h]
    have h' : ¬ ((ix4 b ch q s : SOut.Idx) 1).val < 3 := h
    show _ = dite (((ix4 b ch q s : SOut.Idx) 1).val < 3) _ _
    rw [dif_neg h']

end Cert.RefGrouped

end
-- ==== Proof.PreRefIdx.lean ====
/-
  The index array the precondition computes is the index array the reference computes: the reference's first
  stages — squared distances, the unit-ball mask, the masked point numbers sorted along the cloud axis, the first
  32 of them with every filler replaced by the first — are the same operations in the same order on the same
  arguments, so the two terms are equal by unfolding their definitions.
-/
import proofs.«118025_j16346645529142_2_alg».proof.Proof.PreFacts
import proofs.«118025_j16346645529142_2_alg».proof.Proof.RefReadP

noncomputable section

namespace Cert.PreFacts

open Idealize.ShloMosaic

variable [Cert.Pre_finite_inputs.Facts]

/-- The gathered indices of the precondition are the reference's gathered indices (its stage 23). -/
theorem ballIdx_eq_ref (x0 : FVec Ideal Cert.Pre_finite_inputs.S8x8192x3 .f32)
    (x1 : FVec Ideal Cert.Pre_finite_inputs.S8x2048x3 .f32) :
    ballIdx x0 x1 = Cert.ReferenceIdeal.ReadP.val_main_v23 (F := Ideal) x0 x1 := by
  unfold ballIdx
  rfl

end Cert.PreFacts

end
-- ==== Proof.lean ====
/-
  Ball-query grouping: a Pallas kernel that gathers by a one-hot matrix product against a jnp reference that gathers
  with take_along_axis, equal over the extended reals.

  Both programs compute, with the same host operations, the index array of the ball query: for every query the first 32
  cloud indices at squared distance below 1, padded with the first of them. The reference then reads the cloud
  coordinates and the features at those indices and recentres the coordinates at the query. The kernel stacks the
  transposed cloud and the features into a [67, 8192] table per batch and, tile by tile along the cloud axis, multiplies
  it by the one-hot matrix of the index words and accumulates; its two-term split of the table (a rounded part and the
  residue) is, at the ideal instance, the table itself plus a residue that vanishes when the table entries are real
  numbers. A product with a one-hot column picks exactly the entry the index names, so where every index is in range the
  accumulated sum is the reference's gather; the recentring and the final layouts agree index by index.

  The statement's precondition says that every float input is finite and that every gathered index lies inside the
  cloud axis: outside that range the reference reads out of bounds and returns its fill value.

  The kernel's frames are the generated ones; the reference's frame is its run with the result dropped; the one rewrite
  of the ideal pass (a widening of a narrowing) is the identity at the ideal instance.
-/
import proofs.«118025_j16346645529142_2_alg».proof.Defs
import proofs.«118025_j16346645529142_2_alg».proof.Proof.Gen.Kernel
import proofs.«118025_j16346645529142_2_alg».proof.Proof.Gen.Kernel.Skeleton
import proofs.«118025_j16346645529142_2_alg».proof.Proof.Gen.Kernel.Launch
import proofs.«118025_j16346645529142_2_alg».proof.Proof.Gen.Kernel.Points
import proofs.«118025_j16346645529142_2_alg».proof.Proof.Gen.Kernel.Frame
import proofs.«118025_j16346645529142_2_alg».proof.Proof.Gen.KernelIdeal
import proofs.«118025_j16346645529142_2_alg».proof.Proof.Gen.KernelIdeal.Skeleton
import proofs.«118025_j16346645529142_2_alg».proof.Proof.Gen.KernelIdeal.Launch
import proofs.«118025_j16346645529142_2_alg».proof.Proof.Gen.KernelIdeal.Points
import proofs.«118025_j16346645529142_2_alg».proof.Proof.Gen.KernelIdeal.Frame
import proofs.«118025_j16346645529142_2_alg».proof.Proof.Gen.ReferenceIdeal
import proofs.«118025_j16346645529142_2_alg».proof.Proof.Gen.Pre_finite_inputs
import proofs.«118025_j16346645529142_2_alg».proof.Proof.Whole
import proofs.«118025_j16346645529142_2_alg».proof.Proof.RefRunAlt
import proofs.«118025_j16346645529142_2_alg».proof.Proof.RefGrouped
import proofs.«118025_j16346645529142_2_alg».proof.Proof.PreRefIdx
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.RefRunAlt.run m ρ)

/-- The ideal pass's one rewrite: a [67, 1024] value narrowed to bf16 and widened back is the value itself. -/
theorem preserves : Cert.preserves_Kernel_KernelIdeal :=
  IdealRules.truncf_extf.statement Cert.KernelIdeal.S67x1024 .f32 .bf16

/-- Under the precondition both results are the grouped array of arguments that agree. -/
theorem algebraic : Cert.algebraic_KernelIdeal_ReferenceIdeal := by
  intro m ρ m' ρ' hpre hagree
  have hd := fun c => Cert.PreFacts.pre_decode _ _ _ (hpre c)
  have hg : ∀ c, Cert.KernelIdeal.Accum.Good m c := fun c =>
    Cert.KernelIdeal.Whole.good m c (hd c).1 (hd c).2.2.1 (hd c).2.2.2
  refine ⟨_, Cert.KernelIdeal.Whole.run m ρ hg, ?_⟩
  refine (θ_run Cert.ReferenceIdeal.defs _ _).mono (fun _ h c => ⟨(h c).1.trans ?_, (h c).2⟩)
    (Cert.RefRunAlt.run m' ρ')
  rw [(hagree c).1, (hagree c).2.1, (hagree c).2.2]
  have hin := (hd c).2.2.2
  rw [Cert.PreFacts.ballIdx_eq_ref] at hin ⊢
  exact Cert.RefGrouped.ref_grouped _ _ _ hin

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
